-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2 : Shape := ⟨2, ![64, 2]⟩
abbrev S64x65536 : Shape := ⟨2, ![64, 65536]⟩
abbrev S2x256 : Shape := ⟨2, ![2, 256]⟩
abbrev S256 : Shape := ⟨1, ![256]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S1024x65536 : Shape := ⟨2, ![1024, 65536]⟩
abbrev S65536 : Shape := ⟨1, ![65536]⟩
abbrev S_ : Shape := ⟨0, ![]⟩

class Facts : Prop where
  bcast_S_S64x2 : S_.BroadcastsInDim S64x2 (![] : Fin 0 → Fin S64x2.rank)
  reducesTo_S64x2_S_d0_1 : S64x2.ReducesTo [0, 1] S_
  h_S_ : 0 < S_.numel
  bcast_S_S64x65536 : S_.BroadcastsInDim S64x65536 (![] : Fin 0 → Fin S64x65536.rank)
  reducesTo_S64x65536_S_d0_1 : S64x65536.ReducesTo [0, 1] S_
  bcast_S_S2x256 : S_.BroadcastsInDim S2x256 (![] : Fin 0 → Fin S2x256.rank)
  reducesTo_S2x256_S_d0_1 : S2x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x65536 : S_.BroadcastsInDim S1024x65536 (![] : Fin 0 → Fin S1024x65536.rank)
  reducesTo_S1024x65536_S_d0_1 : S1024x65536.ReducesTo [0, 1] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg7 : FVec F S1024 .f32) (main_arg8 : FVec F S1024x65536 .f32) (main_arg9 : FVec F S65536 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x65536 .f32 := Host.absf main_arg8
  let main_cst_14 : FVec F S_ .f32 := constant S_ .f32 0x7F800000#32
  let main_v40 : FVec F S1024x65536 .f32 := broadcastInDim S1024x65536 ![] bcast_S_S1024x65536 main_cst_14
  let main_v41 : IVec S1024x65536 1 := cmpf .olt main_v39 main_v40
  let main_c_15 : IVec S_ 1 := constantI S_ 1 1#1
  let main_v42 : IVec S_ 1 := (fun x v => Host.reduce IntOp.andi x v reducesTo_S1024x65536_S_d0_1 h_S_) main_v41 main_c_15
  let main_v43 : IVec S_ 1 := andi main_v38 main_v42
  let main_v44 : FVec F S65536 .f32 := Host.absf main_arg9
  let main_cst_16 : FVec F S_ .f32 := constant S_ .f32 0x7F800000#32
  let main_v45 : FVec F S65536 .f32 := broadcastInDim S65536 ![] bcast_S_S65536 main_cst_16
  let main_v46 : IVec S65536 1 := cmpf .olt main_v44 main_v45
  let main_c_17 : IVec S_ 1 := constantI S_ 1 1#1
  let main_v47 : IVec S_ 1 := (fun x v => Host.reduce IntOp.andi x v reducesTo_S65536_S_d0 h_S_) main_v46 main_c_17
  let main_v48 : IVec S_ 1 := andi main_v43 main_v47
  main_v48

def fn_part1 {F : FTy → Type} [FloatOps F] (main_arg4 : FVec F S256x512 .f32) (main_arg5 : FVec F S512 .f32) (main_arg6 : FVec F S512x1024 .f32) (main_arg7 : FVec F S1024 .f32) (main_arg8 : FVec F S1024x65536 .f32) (main_arg9 : FVec F S65536 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x2 .f32) (main_arg1 : FVec F S64x65536 .f32) (main_arg2 : FVec F S2x256 .f32) (main_arg3 : FVec F S256 .f32) (main_arg4 : FVec F S256x512 .f32) (main_arg5 : FVec F S512 .f32) (main_arg6 : FVec F S512x1024 .f32) (main_arg7 : FVec F S1024 .f32) (main_arg8 : FVec F S1024x65536 .f32) (main_arg9 : FVec F S65536 .f32) : IVec S_ 1 :=
  let main_v0 : FVec F S64x2 .f32 := Host.absf main_arg0
  let main_cst : FVec F S_ .f32 := constant S_ .f32 0x7F800000#32
  let main_v1 : FVec F S64x2 .f32 := broadcastInDim S64x2 ![] bcast_S_S64x2 main_cst
  let main_v2 : IVec S64x2 1 := cmpf .olt main_v0 main_v1
  let main_c : IVec S_ 1 := constantI S_ 1 1#1
  let main_v3 : IVec S_ 1 := (fun x v => Host.reduce IntOp.andi x v reducesTo_S64x2_S_d0_1 h_S_) main_v2 main_c
  let main_v4 : FVec F S64x65536 .f32 := Host.absf main_arg1
  let main_cst_0 : FVec F S_ .f32 := constant S_ .f32 0x7F800000#32
  let main_v5 : FVec F S64x65536 .f32 := broadcastInDim S64x65536 ![] bcast_S_S64x65536 main_cst_0
  let main_v6 : IVec S64x65536 1 := cmpf .olt main_v4 main_v5
  let main_c_1 : IVec S_ 1 := constantI S_ 1 1#1
  let main_v7 : IVec S_ 1 := (fun x v => Host.reduce IntOp.andi x v reducesTo_S64x65536_S_d0_1 h_S_) main_v6 main_c_1
  let main_v8 : IVec S_ 1 := andi main_v3 main_v7
  let main_v9 : FVec F S2x256 .f32 := Host.absf main_arg2
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S64x2 : Shape := ⟨2, ![64, 2]⟩
abbrev S64x65536 : Shape := ⟨2, ![64, 65536]⟩
abbrev S2x256 : Shape := ⟨2, ![2, 256]⟩
abbrev S256 : Shape := ⟨1, ![256]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S1024x65536 : Shape := ⟨2, ![1024, 65536]⟩
abbrev S65536 : Shape := ⟨1, ![65536]⟩
abbrev S64x1024 : Shape := ⟨2, ![64, 1024]⟩
abbrev S64x256 : Shape := ⟨2, ![64, 256]⟩
abbrev S1x256 : Shape := ⟨2, ![1, 256]⟩
abbrev S64x512 : Shape := ⟨2, ![64, 512]⟩
abbrev S1x512 : Shape := ⟨2, ![1, 512]⟩
abbrev S1x1024 : Shape := ⟨2, ![1, 1024]⟩
abbrev S1x65536 : Shape := ⟨2, ![1, 65536]⟩
abbrev S1024x2048 : Shape := ⟨2, ![1024, 2048]⟩
abbrev S1x2048 : Shape := ⟨2, ![1, 2048]⟩
abbrev S64x2048 : Shape := ⟨2, ![64, 2048]⟩
abbrev S64x1x256x256 : Shape := ⟨4, ![64, 1, 256, 256]⟩
abbrev S8x1x256x256 : Shape := ⟨4, ![8, 1, 256, 256]⟩
abbrev S8x1x256x1 : Shape := ⟨4, ![8, 1, 256, 1]⟩
abbrev S8x1x256x255 : Shape := ⟨4, ![8, 1, 256, 255]⟩
abbrev S8x1x1x256 : Shape := ⟨4, ![8, 1, 1, 256]⟩
abbrev S8x1x255x256 : Shape := ⟨4, ![8, 1, 255, 256]⟩

abbrev nBuf : Space → Nat
  | .hbm => 17
  | .vmem => 21
  | .smem => 0
  | _ => 0

abbrev bufTy : (tb : Table) → Fin (tcTables nBuf tb) → BufTy
  | .hbm, ⟨0, _⟩ => ⟨S64x2, .f32⟩
  | .hbm, ⟨1, _⟩ => ⟨S64x65536, .f32⟩
  | .hbm, ⟨2, _⟩ => ⟨S2x256, .f32⟩
  | .hbm, ⟨3, _⟩ => ⟨S256, .f32⟩
  | .hbm, ⟨4, _⟩ => ⟨S256x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S1024x65536, .f32⟩
  | .hbm, ⟨9, _⟩ => ⟨S65536, .f32⟩
  | .hbm, ⟨10, _⟩ => ⟨S64x1024, .f32⟩
  | .hbm, ⟨11, _⟩ => ⟨S1x65536, .f32⟩
  | .hbm, ⟨12, _⟩ => ⟨S64x65536, .f32⟩
  | .hbm, ⟨13, _⟩ => ⟨S64x1x256x256, .f32⟩
  | .hbm, ⟨14, _⟩ => ⟨S64x1x256x256, .f32⟩
  | .hbm, ⟨15, _⟩ => ⟨S64x1x256x256, .f32⟩
  | .hbm, ⟨16, _⟩ => ⟨S64x65536, .f32⟩
  | .local _ .vmem, ⟨0, _⟩ => ⟨S64x2, .f32⟩
  | .local _ .vmem, ⟨1, _⟩ => ⟨S2x256, .f32⟩
  | .local _ .vmem, ⟨2, _⟩ => ⟨S256, .f32⟩
  | .local _ .vmem, ⟨3, _⟩ => ⟨S256x512, .f32⟩
  | .local _ .vmem, ⟨4, _⟩ => ⟨S512, .f32⟩
  | .local _ .vmem, ⟨5, _⟩ => ⟨S512x1024, .f32⟩
  | .local _ .vmem, ⟨6, _⟩ => ⟨S1024, .f32⟩
  | .local _ .vmem, ⟨7, _⟩ => ⟨S64x1024, .f32⟩
  | .local _ .vmem, ⟨8, _⟩ => ⟨S64x1024, .f32⟩
  | .local _ .vmem, ⟨9, _⟩ => ⟨S1024x2048, .f32⟩
  | .local _ .vmem, ⟨10, _⟩ => ⟨S1024x2048, .f32⟩
  | .local _ .vmem, ⟨11, _⟩ => ⟨S1x2048, .f32⟩
  | .local _ .vmem, ⟨12, _⟩ => ⟨S1x2048, .f32⟩
  | .local _ .vmem, ⟨13, _⟩ => ⟨S64x2048, .f32⟩
  | .local _ .vmem, ⟨14, _⟩ => ⟨S64x2048, .f32⟩
  | .local _ .vmem, ⟨15, _⟩ => ⟨S8x1x256x256, .f32⟩
  | .local _ .vmem, ⟨16, _⟩ => ⟨S8x1x256x256, .f32⟩
  | .local _ .vmem, ⟨17, _⟩ => ⟨S8x1x256x256, .f32⟩
  | .local _ .vmem, ⟨18, _⟩ => ⟨S8x1x256x256, .f32⟩
  | .local _ .vmem, ⟨19, _⟩ => ⟨S8x1x256x256, .f32⟩
  | .local _ .vmem, ⟨20, _⟩ => ⟨S8x1x256x256, .f32⟩
  | _, _ => ⟨S64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S8x1x256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x1x256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x1x256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S64x2_S64x2_0_0 : ∀ a, (![0, 0] : Fin 2 → Nat) a + S64x2.size a ≤ S64x2.size a
  h_S64x2 : 0 < S64x2.numel
  inb_S2x256_S2x256_0_0 : ∀ a, (![0, 0] : Fin 2 → Nat) a + S2x256.size a ≤ S2x256.size a
  h_S2x256 : 0 < S2x256.numel
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  shapeCasts_S65536_S1x65536 : S65536.ShapeCasts S1x65536
  shapeCasts_S64x1024_S64x1024 : S64x1024.ShapeCasts S64x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S64x2048_S64x2048_0_0 : ∀ a, (![0, 0] : Fin 2 → Nat) a + S64x2048.size a ≤ S64x2048.size a
  h_S64x2048 : 0 < S64x2048.numel
  shapeCasts_S64x65536_S64x1x256x256 : S64x65536.ShapeCasts S64x1x256x256
  inb_S8x1x256x256_S8x1x256x256_0_0_0_0 : ∀ a, (![0, 0, 0, 0] : Fin 4 → Nat) a + S8x1x256x256.size a ≤ S8x1x256x256.size a
  h_S8x1x256x256 : 0 < S8x1x256x256.numel
  shapeCasts_S8x1x256x256_S8x1x256x256 : S8x1x256x256.ShapeCasts S8x1x256x256
  slices_S8x1x256x256_o0_0_0_1_S8x1x256x1 : S8x1x256x256.Slices ![0, 0, 0, 1] S8x1x256x1
  slices_S8x1x256x256_o0_0_0_0_S8x1x256x255 : S8x1x256x256.Slices ![0, 0, 0, 0] S8x1x256x255
  concatenates_S8x1x256x1_S8x1x256x255_S8x1x256x256_d3 : Shape.Concatenates [S8x1x256x1, S8x1x256x255] S8x1x256x256 3
  slices_S8x1x256x256_o0_0_0_1_S8x1x256x255 : S8x1x256x256.Slices ![0, 0, 0, 1] S8x1x256x255
  slices_S8x1x256x256_o0_0_0_254_S8x1x256x1 : S8x1x256x256.Slices ![0, 0, 0, 254] S8x1x256x1
  concatenates_S8x1x256x255_S8x1x256x1_S8x1x256x256_d3 : Shape.Concatenates [S8x1x256x255, S8x1x256x1] S8x1x256x256 3
  slices_S8x1x256x256_o0_0_1_0_S8x1x1x256 : S8x1x256x256.Slices ![0, 0, 1, 0] S8x1x1x256
  slices_S8x1x256x256_o0_0_0_0_S8x1x255x256 : S8x1x256x256.Slices ![0, 0, 0, 0] S8x1x255x256
  concatenates_S8x1x1x256_S8x1x255x256_S8x1x256x256_d2 : Shape.Concatenates [S8x1x1x256, S8x1x255x256] S8x1x256x256 2
  slices_S8x1x256x256_o0_0_1_0_S8x1x255x256 : S8x1x256x256.Slices ![0, 0, 1, 0] S8x1x255x256
  slices_S8x1x256x256_o0_0_254_0_S8x1x1x256 : S8x1x256x256.Slices ![0, 0, 254, 0] S8x1x1x256
  concatenates_S8x1x255x256_S8x1x1x256_S8x1x256x256_d2 : Shape.Concatenates [S8x1x255x256, S8x1x1x256] S8x1x256x256 2
  shapeCasts_S64x1x256x256_S64x65536 : S64x1x256x256.ShapeCasts S64x65536
  dot_S64x2_S2x256_S64x256_1_0_0_1_n_n_wf : DotDims.WF S64x2 S2x256 S64x256 [1] [0] [0] [1] [] []
  dot_S64x256_S256x512_S64x512_1_0_0_1_n_n_wf : DotDims.WF S64x256 S256x512 S64x512 [1] [0] [0] [1] [] []
  dot_S64x512_S512x1024_S64x1024_1_0_0_1_n_n_wf : DotDims.WF S64x512 S512x1024 S64x1024 [1] [0] [0] [1] [] []
  dot_S64x1024_S1024x2048_S64x2048_1_0_0_1_n_n_wf : DotDims.WF S64x1024 S1024x2048 S64x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2.size a ≤ S64x2.size a
  hwx0_0 : ∀ i : grid0.Coords, EltTy.bits .f32 = 32 ∨ (Rect.block (s := S64x2) S64x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256.size a ≤ S2x256.size a
  hwx0_1 : ∀ i : grid0.Coords, EltTy.bits .f32 = 32 ∨ (Rect.block (s := S2x256) S2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .f32 = 32 ∨ (Rect.block (s := S512x1024) S512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x1024.size a
  hwx0_7 : ∀ i : grid0.Coords, EltTy.bits .f32 = 32 ∨ (Rect.block (s := S64x1024) S64x1024.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x1024.size a
  hwx1_0 : ∀ i : grid1.Coords, EltTy.bits .f32 = 32 ∨ (Rect.block (s := S64x1024) S64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x65536.size a
  hwx1_1 : ∀ i : grid1.Coords, EltTy.bits .f32 = 32 ∨ (Rect.block (s := S1024x65536) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x65536.size a
  hwx1_2 : ∀ i : grid1.Coords, EltTy.bits .f32 = 32 ∨ (Rect.block (s := S1x65536) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x2048.size a ≤ S64x65536.size a
  hwx1_3 : ∀ i : grid1.Coords, EltTy.bits .f32 = 32 ∨ (Rect.block (s := S64x65536) S64x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x1x256x256.size a ≤ S64x1x256x256.size a
  hwx2_0 : ∀ i : grid2.Coords, EltTy.bits .f32 = 32 ∨ (Rect.block (s := S64x1x256x256) S8x1x256x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x1x256x256.size a ≤ S64x1x256x256.size a
  hwx2_1 : ∀ i : grid2.Coords, EltTy.bits .f32 = 32 ∨ (Rect.block (s := S64x1x256x256) S8x1x256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x1x256x256.size a ≤ S64x1x256x256.size a
  hwx2_2 : ∀ i : grid2.Coords, EltTy.bits .f32 = 32 ∨ (Rect.block (s := S64x1x256x256) S8x1x256x256.size (cc2_transform_2 i) (hinb2_2 i)).WholeWords (EltTy.packing .f32)

variable [Facts₀]

def dot_S64x2_S2x256_S64x256_1_0_0_1_n_n : DotDims S64x2 S2x256 S64x256 where
  lhsContracting := [1]
  rhsContracting := [0]
  lhsNonContracting := [0]
  rhsNonContracting := [1]
  lhsBatch := []
  rhsBatch := []
  wf := dot_S64x2_S2x256_S64x256_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf

abbrev win0_0 : Pipeline.Window sig grid0 :=
  Pipeline.Window.ofSpec (Memref.whole main_arg0) S64x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S64x1024.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S8x1x256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8x1x256x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S8x1x256x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x2 : Shape := ⟨2, ![64, 2]⟩
abbrev S64x65536 : Shape := ⟨2, ![64, 65536]⟩
abbrev S2x256 : Shape := ⟨2, ![2, 256]⟩
abbrev S256 : Shape := ⟨1, ![256]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S1024x65536 : Shape := ⟨2, ![1024, 65536]⟩
abbrev S65536 : Shape := ⟨1, ![65536]⟩
abbrev S64x256 : Shape := ⟨2, ![64, 256]⟩
abbrev S1x256 : Shape := ⟨2, ![1, 256]⟩
abbrev S_ : Shape := ⟨0, ![]⟩
abbrev S64x512 : Shape := ⟨2, ![64, 512]⟩
abbrev S1x512 : Shape := ⟨2, ![1, 512]⟩
abbrev S64x1024 : Shape := ⟨2, ![64, 1024]⟩
abbrev S1x1024 : Shape := ⟨2, ![1, 1024]⟩
abbrev S1x65536 : Shape := ⟨2, ![1, 65536]⟩
abbrev S64x1x256x256 : Shape := ⟨4, ![64, 1, 256, 256]⟩
abbrev S64x1x256x1 : Shape := ⟨4, ![64, 1, 256, 1]⟩
abbrev S64x1x256x257 : Shape := ⟨4, ![64, 1, 256, 257]⟩
abbrev S64x1x256x258 : Shape := ⟨4, ![64, 1, 256, 258]⟩
abbrev S64x1x1x256 : Shape := ⟨4, ![64, 1, 1, 256]⟩
abbrev S64x1x257x256 : Shape := ⟨4, ![64, 1, 257, 256]⟩
abbrev S64x1x258x256 : Shape := ⟨4, ![64, 1, 258, 256]⟩

abbrev nBuf : Space → Nat
  | .hbm => 133
  | .vmem => 0
  | .smem => 0
  | _ => 0

abbrev hbmTy0_0 (i : Nat) : BufTy := match i % 128 with
  | 0 => ⟨S64x2, .f32⟩
  | 1 => ⟨S64x65536, .f32⟩
  | 2 => ⟨S2x256, .f32⟩
  | 3 => ⟨S256, .f32⟩
  | 4 => ⟨S256x512, .f32⟩
  | 5 => ⟨S512, .f32⟩
  | 6 => ⟨S512x1024, .f32⟩
  | 7 => ⟨S1024, .f32⟩
  | 8 => ⟨S1024x65536, .f32⟩
  | 9 => ⟨S65536, .f32⟩
  | 10 => ⟨S64x256, .f32⟩
  | 11 => ⟨S1x256, .f32⟩
  | 12 => ⟨S64x256, .f32⟩
  | 13 => ⟨S64x256, .f32⟩
  | 14 => ⟨S_, .f32⟩
  | 15 => ⟨S64x256, .f32⟩
  | 16 => ⟨S64x256, .f32⟩
  | 17 => ⟨S64x512, .f32⟩
  | 18 => ⟨S1x512, .f32⟩
  | 19 => ⟨S64x512, .f32⟩
  | 20 => ⟨S64x512, .f32⟩
  | 21 => ⟨S_, .f32⟩
  | 22 => ⟨S64x512, .f32⟩
  | 23 => ⟨S64x512, .f32⟩
  | 24 => ⟨S64x1024, .f32⟩
  | 25 => ⟨S1x1024, .f32⟩
  | 26 => ⟨S64x1024, .f32⟩
  | 27 => ⟨S64x1024, .f32⟩
  | 28 => ⟨S_, .f32⟩
  | 29 => ⟨S64x1024, .f32⟩
  | 30 => ⟨S64x1024, .f32⟩
  | 31 => ⟨S64x65536, .f32⟩
  | 32 => ⟨S1x65536, .f32⟩
  | 33 => ⟨S64x65536, .f32⟩
  | 34 => ⟨S64x65536, .f32⟩
  | 35 => ⟨S64x1x256x256, .f32⟩
  | 36 => ⟨S_, .i32⟩
  | 37 => ⟨S64x1x256x1, .f32⟩
  | 38 => ⟨S64x1x256x1, .f32⟩
  | 39 => ⟨S64x1x256x1, .f32⟩
  | 40 => ⟨S64x1x256x257, .f32⟩
  | 41 => ⟨S64x1x256x1, .f32⟩
  | 42 => ⟨S64x1x256x1, .f32⟩
  | 43 => ⟨S64x1x256x1, .f32⟩
  | 44 => ⟨S64x1x256x258, .f32⟩
  | 45 => ⟨S64x1x256x256, .f32⟩
  | 46 => ⟨S64x1x256x256, .f32⟩
  | 47 => ⟨S_, .f32⟩
  | 48 => ⟨S64x1x256x256, .f32⟩
  | 49 => ⟨S64x1x256x256, .f32⟩
  | 50 => ⟨S64x1x256x256, .f32⟩
  | 51 => ⟨S64x1x256x256, .f32⟩
  | 52 => ⟨S64x1x256x256, .f32⟩
  | 53 => ⟨S_, .f32⟩
  | 54 => ⟨S64x1x256x256, .f32⟩
  | 55 => ⟨S64x1x256x256, .f32⟩
  | 56 => ⟨S_, .i32⟩
  | 57 => ⟨S64x1x1x256, .f32⟩
  | 58 => ⟨S64x1x1x256, .f32⟩
  | 59 => ⟨S64x1x1x256, .f32⟩
  | 60 => ⟨S64x1x257x256, .f32⟩
  | 61 => ⟨S64x1x1x256, .f32⟩
  | 62 => ⟨S64x1x1x256, .f32⟩
  | 63 => ⟨S64x1x1x256, .f32⟩
  | 64 => ⟨S64x1x258x256, .f32⟩
  | 65 => ⟨S64x1x256x256, .f32⟩
  | 66 => ⟨S64x1x256x256, .f32⟩
  | 67 => ⟨S_, .f32⟩
  | 68 => ⟨S64x1x256x256, .f32⟩
  | 69 => ⟨S64x1x256x256, .f32⟩
  | 70 => ⟨S64x1x256x256, .f32⟩
  | 71 => ⟨S64x1x256x256, .f32⟩
  | 72 => ⟨S64x1x256x256, .f32⟩
  | 73 => ⟨S_, .f32⟩
  | 74 => ⟨S64x1x256x256, .f32⟩
  | 75 => ⟨S64x1x256x256, .f32⟩
  | 76 => ⟨S64x1x256x256, .f32⟩
  | 77 => ⟨S_, .i32⟩
  | 78 => ⟨S64x1x256x1, .f32⟩
  | 79 => ⟨S64x1x256x1, .f32⟩
  | 80 => ⟨S64x1x256x1, .f32⟩
  | 81 => ⟨S64x1x256x257, .f32⟩
  | 82 => ⟨S64x1x256x1, .f32⟩
  | 83 => ⟨S64x1x256x1, .f32⟩
  | 84 => ⟨S64x1x256x1, .f32⟩
  | 85 => ⟨S64x1x256x258, .f32⟩
  | 86 => ⟨S64x1x256x256, .f32⟩
  | 87 => ⟨S64x1x256x256, .f32⟩
  | 88 => ⟨S_, .f32⟩
  | 89 => ⟨S64x1x256x256, .f32⟩
  | 90 => ⟨S64x1x256x256, .f32⟩
  | 91 => ⟨S64x1x256x256, .f32⟩
  | 92 => ⟨S64x1x256x256, .f32⟩
  | 93 => ⟨S64x1x256x256, .f32⟩
  | 94 => ⟨S_, .f32⟩
  | 95 => ⟨S64x1x256x256, .f32⟩
  | 96 => ⟨S64x1x256x256, .f32⟩
  | 97 => ⟨S_, .i32⟩
  | 98 => ⟨S64x1x1x256, .f32⟩
  | 99 => ⟨S64x1x1x256, .f32⟩
  | 100 => ⟨S64x1x1x256, .f32⟩
  | 101 => ⟨S64x1x257x256, .f32⟩
  | 102 => ⟨S64x1x1x256, .f32⟩
  | 103 => ⟨S64x1x1x256, .f32⟩
  | 104 => ⟨S64x1x1x256, .f32⟩
  | 105 => ⟨S64x1x258x256, .f32⟩
  | 106 => ⟨S64x1x256x256, .f32⟩
  | 107 => ⟨S64x1x256x256, .f32⟩
  | 108 => ⟨S_, .f32⟩
  | 109 => ⟨S64x1x256x256, .f32⟩
  | 110 => ⟨S64x1x256x256, .f32⟩
  | 111 => ⟨S64x1x256x256, .f32⟩
  | 112 => ⟨S64x1x256x256, .f32⟩
  | 113 => ⟨S64x1x256x256, .f32⟩
  | 114 => ⟨S_, .f32⟩
  | 115 => ⟨S64x1x256x256, .f32⟩
  | 116 => ⟨S64x1x256x256, .f32⟩
  | 117 => ⟨S64x1x256x256, .f32⟩
  | 118 => ⟨S_, .f32⟩
  | 119 => ⟨S64x1x256x256, .f32⟩
  | 120 => ⟨S64x1x256x256, .f32⟩
  | 121 => ⟨S64x1x256x256, .f32⟩
  | 122 => ⟨S_, .f32⟩
  | 123 => ⟨S64x1x256x256, .f32⟩
  | 124 => ⟨S64x1x256x256, .f32⟩
  | 125 => ⟨S64x1x256x256, .f32⟩
  | 126 => ⟨S_, .f32⟩
  | 127 => ⟨S64x1x256x256, .f32⟩
  | _ => ⟨S64x2, .f32⟩

abbrev hbmTy0_1 (i : Nat) : BufTy := match i % 128 with
  | 0 => ⟨S64x1x256x256, .f32⟩
  | 1 => ⟨S64x1x256x256, .f32⟩
  | 2 => ⟨S64x1x256x256, .f32⟩
  | 3 => ⟨S64x1x256x256, .f32⟩
  | 4 => ⟨S64x65536, .f32⟩
  | _ => ⟨S64x2, .f32⟩

abbrev hbmTy (i : Nat) : BufTy := match i / 128 with
  | 0 => hbmTy0_0 i
  | 1 => hbmTy0_1 i
  | _ => ⟨S64x2, .f32⟩

abbrev bufTy : (tb : Table) → Fin (tcTables nBuf tb) → BufTy
  | .hbm, ⟨i, _⟩ => hbmTy i
  | _, _ => ⟨S64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_0 : Ref sig .tc := ⟨.hbm, 53, rfl⟩
abbrev main_v28 : Ref sig .tc := ⟨.hbm, 54, rfl⟩
abbrev main_v29 : Ref sig .tc := ⟨.hbm, 55, rfl⟩
abbrev main_c_1 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_v5 : Ref sig .tc := ⟨.hbm, 62, rfl⟩
abbrev main_call4_v6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_2 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_3 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_4 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_v6 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_5 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_6 : Ref sig .tc := ⟨.hbm, 94, rfl⟩
abbrev main_v49 : Ref sig .tc := ⟨.hbm, 95, rfl⟩
abbrev main_v50 : Ref sig .tc := ⟨.hbm, 96, rfl⟩
abbrev main_c_7 : Ref sig .tc := ⟨.hbm, 97, rfl⟩
abbrev main_call6_v0 : Ref sig .tc := ⟨.hbm, 98, rfl⟩
abbrev main_call6_v1 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_v5 : Ref sig .tc := ⟨.hbm, 103, rfl⟩
abbrev main_call6_v6 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_8 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_9 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_10 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_11 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_12 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S65536_S1x65536_1 : S65536.BroadcastsInDim S1x65536 (![1] : Fin 1 → Fin S1x65536.rank)
  bcast_S1x65536_S64x65536_0_1 : S1x65536.BroadcastsInDim S64x65536 (![0, 1] : Fin 2 → Fin S64x65536.rank)
  shapeCasts_S64x65536_S64x1x256x256 : S64x65536.ShapeCasts S64x1x256x256
  slices_S64x1x256x256_S64x1x256x1_0_0_0_0 : S64x1x256x256.Slices ![0, 0, 0, 0] S64x1x256x1
  slices_S64x1x256x256_S64x1x256x1_0_0_0_1 : S64x1x256x256.Slices ![0, 0, 0, 1] S64x1x256x1
  concatenates_S64x1x256x1_S64x1x256x256_S64x1x256x257_d3 : Shape.Concatenates [S64x1x256x1, S64x1x256x256] S64x1x256x257 3
  slices_S64x1x256x257_S64x1x256x1_0_0_0_256 : S64x1x256x257.Slices ![0, 0, 0, 256] S64x1x256x1
  slices_S64x1x256x257_S64x1x256x1_0_0_0_255 : S64x1x256x257.Slices ![0, 0, 0, 255] S64x1x256x1
  concatenates_S64x1x256x257_S64x1x256x1_S64x1x256x258_d3 : Shape.Concatenates [S64x1x256x257, S64x1x256x1] S64x1x256x258 3
  slices_S64x1x256x258_S64x1x256x256_0_0_0_0 : S64x1x256x258.Slices ![0, 0, 0, 0] S64x1x256x256
  slices_S64x1x256x258_S64x1x256x256_0_0_0_1 : S64x1x256x258.Slices ![0, 0, 0, 1] S64x1x256x256
  bcast_S_S64x1x256x256 : S_.BroadcastsInDim S64x1x256x256 (![] : Fin 0 → Fin S64x1x256x256.rank)
  slices_S64x1x256x258_S64x1x256x256_0_0_0_2 : S64x1x256x258.Slices ![0, 0, 0, 2] S64x1x256x256
  slices_S64x1x256x256_S64x1x1x256_0_0_0_0 : S64x1x256x256.Slices ![0, 0, 0, 0] S64x1x1x256
  slices_S64x1x256x256_S64x1x1x256_0_0_1_0 : S64x1x256x256.Slices ![0, 0, 1, 0] S64x1x1x256
  concatenates_S64x1x1x256_S64x1x256x256_S64x1x257x256_d2 : Shape.Concatenates [S64x1x1x256, S64x1x256x256] S64x1x257x256 2
  slices_S64x1x257x256_S64x1x1x256_0_0_256_0 : S64x1x257x256.Slices ![0, 0, 256, 0] S64x1x1x256
  slices_S64x1x257x256_S64x1x1x256_0_0_255_0 : S64x1x257x256.Slices ![0, 0, 255, 0] S64x1x1x256
  concatenates_S64x1x257x256_S64x1x1x256_S64x1x258x256_d2 : Shape.Concatenates [S64x1x257x256, S64x1x1x256] S64x1x258x256 2
  slices_S64x1x258x256_S64x1x256x256_0_0_0_0 : S64x1x258x256.Slices ![0, 0, 0, 0] S64x1x256x256
  slices_S64x1x258x256_S64x1x256x256_0_0_1_0 : S64x1x258x256.Slices ![0, 0, 1, 0] S64x1x256x256
  slices_S64x1x258x256_S64x1x256x256_0_0_2_0 : S64x1x258x256.Slices ![0, 0, 2, 0] S64x1x256x256
  shapeCasts_S64x1x256x256_S64x65536 : S64x1x256x256.ShapeCasts S64x65536
  dot_S64x2_S2x256_S64x256_1_0_0_1_n_n_wf : DotDims.WF S64x2 S2x256 S64x256 [1] [0] [0] [1] [] []
  dot_S64x256_S256x512_S64x512_1_0_0_1_n_n_wf : DotDims.WF S64x256 S256x512 S64x512 [1] [0] [0] [1] [] []
  dot_S64x512_S512x1024_S64x1024_1_0_0_1_n_n_wf : DotDims.WF S64x512 S512x1024 S64x1024 [1] [0] [0] [1] [] []
  dot_S64x1024_S1024x65536_S64x65536_1_0_0_1_n_n_wf : DotDims.WF S64x1024 S1024x65536 S64x65536 [1] [0] [0] [1] [] []

variable [Facts₀]

def dot_S64x2_S2x256_S64x256_1_0_0_1_n_n : DotDims S64x2 S2x256 S64x256 where
  lhsContracting := [1]
  rhsContracting := [0]
  lhsNonContracting := [0]
  rhsNonContracting := [1]
  lhsBatch := []
  rhsBatch := []
  wf := dot_S64x2_S2x256_S64x256_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x65536_S64x65536_1_0_0_1_n_n : DotDims S64x1024 S1024x65536 S64x65536 where
  lhsContracting := [1]
  rhsContracting := [0]
  lhsNonContracting := [0]
  rhsNonContracting := [1]
  lhsBatch := []
  rhsBatch := []
  wf := dot_S64x1024_S1024x65536_S64x65536_1_0_0_1_n_n_wf

class Facts : Prop extends Facts₀ where

variable [Facts]
-- ==== Proof.KernelRun.lean ====
/-
  The kernel program's run with its RESULT named.  The program is three kernel launches separated by reshapes;
  the contents of the device's buffers at the boundaries between those stretches form a chain, each link a function of the
  one before: a launch replaces its output array by what its grid points wrote back, a reshape writes one buffer from
  another.  Every weakly fair execution ends with every buffer at the last link of that chain; here that is read
  off at the result buffer, beside the ten argument buffers, which end as they were launched.
-/
import proofs.«158022_j23837068493026_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last link of the chain of
    boundary contents, and each argument buffer as launched. -/
theorem run_named : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KValue

end
-- ==== Proof.KRegion0.lean ====
/-
  The first launch, read as a value.  Its grid has one point and every window's block is the window's whole array, so
  what the point writes back — the body's one store of its payload, through the whole output buffer — IS the output
  array after the launch: the payload of the seven input arrays as the launch finds them.
-/
import proofs.«158022_j23837068493026_2_alg».proof.Proof.Gen.KernelIdeal.Frame
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero1 : (![0] : Fin 1 → Nat) = fun _ => 0 := funext fun a => by fin_cases a; rfl
theorem zero2 : (![0, 0] : Fin 2 → Nat) = fun _ => 0 := funext fun a => by fin_cases a <;> rfl

/-- Every window of the first launch sits at block index zero on every axis (its index map is constant). -/
theorem idx0 : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0 :=
  (by decide +kernel : ∀ t : Fin grid0.N, _)

/-- Window 0's one block is its whole array. -/
theorem blk0_0 (c : Dev nD) (t : Fin cfg0.N) : (iblk0 V c 0 t : S64x2.Idx → Elt F .f32) = V c main_arg0 := by
  funext y
  show V c main_arg0 (((cfg0.win 0).blk t).view.emb y) = V c main_arg0 y
  refine congrArg _ (funext fun a => Fin.ext ?_)
  match a with
    | ⟨0, _⟩ => show win0_0.index t (0 : Fin 2) * 64 + 1 * (y 0).val = (y 0).val; rw [(idx0 t).1]; omega
    | ⟨1, _⟩ => show win0_0.index t (1 : Fin 2) * 2 + 1 * (y 1).val = (y 1).val; rw [(idx0 t).2.1]; omega

/-- Window 1's one block is its whole array. -/
theorem blk0_1 (c : Dev nD) (t : Fin cfg0.N) : (iblk0 V c 1 t : S2x256.Idx → Elt F .f32) = V c main_arg2 := by
  funext y
  show V c main_arg2 (((cfg0.win 1).blk t).view.emb y) = V c main_arg2 y
  refine congrArg _ (funext fun a => Fin.ext ?_)
  match a with
    | ⟨0, _⟩ => show win0_1.index t (0 : Fin 2) * 2 + 1 * (y 0).val = (y 0).val; rw [(idx0 t).2.2.1]; omega
    | ⟨1, _⟩ => show win0_1.index t (1 : Fin 2) * 256 + 1 * (y 1).val = (y 1).val; rw [(idx0 t).2.2.2.1]; omega

/-- Window 2's one block is its whole array. -/
theorem blk0_2 (c : Dev nD) (t : Fin cfg0.N) : (iblk0 V c 2 t : S256.Idx → Elt F .f32) = V c main_arg3 := by
  funext y
  show V c main_arg3 (((cfg0.win 2).blk t).view.emb y) = V c main_arg3 y
  refine congrArg _ (funext fun a => Fin.ext ?_)
  match a with
    | ⟨0, _⟩ => show win0_2.index t (0 : Fin 1) * 256 + 1 * (y 0).val = (y 0).val; rw [(idx0 t).2.2.2.2.1]; omega

/-- Window 3's one block is its whole array. -/
theorem blk0_3 (c : Dev nD) (t : Fin cfg0.N) : (iblk0 V c 3 t : S256x512.Idx → Elt F .f32) = V c main_arg4 := by
  funext y
  show V c main_arg4 (((cfg0.win 3).blk t).view.emb y) = V c main_arg4 y
  refine congrArg _ (funext fun a => Fin.ext ?_)
  match a with
    | ⟨0, _⟩ => show win0_3.index t (0 : Fin 2) * 256 + 1 * (y 0).val = (y 0).val; rw [(idx0 t).2.2.2.2.2.1]; omega
    | ⟨1, _⟩ => show win0_3.index t (1 : Fin 2) * 512 + 1 * (y 1).val = (y 1).val; rw [(idx0 t).2.2.2.2.2.2.1]; omega

/-- Window 4's one block is its whole array. -/
theorem blk0_4 (c : Dev nD) (t : Fin cfg0.N) : (iblk0 V c 4 t : S512.Idx → Elt F .f32) = V c main_arg5 := by
  funext y
  show V c main_arg5 (((cfg0.win 4).blk t).view.emb y) = V c main_arg5 y
  refine congrArg _ (funext fun a => Fin.ext ?_)
  match a with
    | ⟨0, _⟩ => show win0_4.index t (0 : Fin 1) * 512 + 1 * (y 0).val = (y 0).val; rw [(idx0 t).2.2.2.2.2.2.2.1]; omega

/-- Window 5's one block is its whole array. -/
theorem blk0_5 (c : Dev nD) (t : Fin cfg0.N) : (iblk0 V c 5 t : S512x1024.Idx → Elt F .f32) = V c main_arg6 := by
  funext y
  show V c main_arg6 (((cfg0.win 5).blk t).view.emb y) = V c main_arg6 y
  refine congrArg _ (funext fun a => Fin.ext ?_)
  match a with
    | ⟨0, _⟩ => show win0_5.index t (0 : Fin 2) * 512 + 1 * (y 0).val = (y 0).val; rw [(idx0 t).2.2.2.2.2.2.2.2.1]; omega
    | ⟨1, _⟩ => show win0_5.index t (1 : Fin 2) * 1024 + 1 * (y 1).val = (y 1).val; rw [(idx0 t).2.2.2.2.2.2.2.2.2.1]; omega

/-- Window 6's one block is its whole array. -/
theorem blk0_6 (c : Dev nD) (t : Fin cfg0.N) : (iblk0 V c 6 t : S1024.Idx → Elt F .f32) = V c main_arg7 := by
  funext y
  show V c main_arg7 (((cfg0.win 6).blk t).view.emb y) = V c main_arg7 y
  refine congrArg _ (funext fun a => Fin.ext ?_)
  match a with
    | ⟨0, _⟩ => show win0_6.index t (0 : Fin 1) * 1024 + 1 * (y 0).val = (y 0).val; rw [(idx0 t).2.2.2.2.2.2.2.2.2.2.1]; omega

/-- The output array after the first launch, as a function of the input arrays at its entry. -/
abbrev G0 (c : Dev nD) : S64x1024.Idx → Elt F .f32 :=
  k0_pay1 (V c main_arg0) (V c main_arg2) (V c main_arg3) (V c main_arg4) (V c main_arg5) (V c main_arg6) (V c main_arg7)

/-- What the one grid point writes back is the whole of `G0`. -/
theorem flushed0_eq (c : Dev nD) (t : Fin cfg0.N) :
    (dat0 V c).flushed 7 t = ((cfg0.win 7).blk t).view.read (Elt F) (G0 V c) := by
  show (cfg0.win 7).cut (grid0.coords t) ((dat0 V c).after 7 t) = _
  rw [after0_7]
  unfold out0_7
  rw [View.canon_unit_zero zero2]
  simp only [View.ld_unit_zero (S := S64x2) zero2, View.ld_unit_zero (S := S2x256) zero2, View.ld_unit_zero (S := S256) zero1,
    View.ld_unit_zero (S := S256x512) zero2, View.ld_unit_zero (S := S512) zero1, View.ld_unit_zero (S := S512x1024) zero2,
    View.ld_unit_zero (S := S1024) zero1]
  rw [blk0_0 V c t, blk0_1 V c t, blk0_2 V c t, blk0_3 V c t, blk0_4 V c t, blk0_5 V c t, blk0_6 V c t]
  funext j
  show G0 V c j = G0 V c (((cfg0.win 7).blk t).view.emb j)
  refine congrArg _ (funext fun a => Fin.ext ?_)
  match a with
    | ⟨0, _⟩ => show (j 0).val = win0_7.index t (0 : Fin 2) * 64 + 1 * (j 0).val; rw [(idx0 t).2.2.2.2.2.2.2.2.2.2.2.1]; omega
    | ⟨1, _⟩ => show (j 1).val = win0_7.index t (1 : Fin 2) * 1024 + 1 * (j 1).val; rw [(idx0 t).2.2.2.2.2.2.2.2.2.2.2.2]; omega

/-- The one block covers the output array. -/
theorem cover0 (i : S64x1024.Idx) : ∃ t : Fin cfg0.N, (cfg0.win 7).flush t = true ∧ i ∈ ((cfg0.win 7).blk t).view.set := by
  refine ⟨t0_0, flush0_7 t0_0, ?_⟩
  show i ∈ ((View.whole main_v0).slice (win0_7.rect t0_0)).set
  rw [View.set_slice_whole, Rect.mem_set_unit]
  intro a
  have h0 := (idx0 t0_0).2.2.2.2.2.2.2.2.2.2.2.1
  have h1 := (idx0 t0_0).2.2.2.2.2.2.2.2.2.2.2.2
  match a with
    | ⟨0, _⟩ => show win0_7.index t0_0 (0 : Fin 2) * 64 ≤ (i 0).val ∧ (i 0).val < win0_7.index t0_0 (0 : Fin 2) * 64 + 64; have hi : (i 0).val < 64 := (i 0).isLt; rw [h0]; omega
    | ⟨1, _⟩ => show win0_7.index t0_0 (1 : Fin 2) * 1024 ≤ (i 1).val ∧ (i 1).val < win0_7.index t0_0 (1 : Fin 2) * 1024 + 1024; have hi : (i 1).val < 1024 := (i 1).isLt; rw [h1]; omega

/-- The output array after the first launch. -/
theorem final0 (c : Dev nD) : (dat0 V c).arrAt 7 cfg0.N = G0 V c :=
  (dat0 V c).arrAt_eq_of_cover 7 (G0 V c) (fun t _ => flushed0_eq V c t) (cover0)

end Cert.KernelIdeal.KValue

end
-- ==== Proof.RefSpec.lean ====
/-
  The result of the computation, as ONE pure function of the ten argument arrays, written with the host
  operations of the reference in the order the reference applies them:

    h1 = max (x · W1 + b1) 0,  h2 = max (h1 · W2 + b2) 0,  h3 = max (h2 · W3 + b3) 0   (three dense layers),
    f  = h3 · W4 + b4                                                                  (a field per batch row),
    every row of f and of P read as a 256 x 256 image, and on images
    d2x a = ((a left - 2 a) + a right) / 1   along a row, with the neighbour REFLECTED at the two ends
            (column -1 is column 1, column 256 is column 254), d2y the same along a column,
    lap a = d2x a + d2y a,
    result = ((1 (d2x (lap f) + d2y (lap f)) + 1 lap f) + 1 f) - P,  read back as rows of 65536.

  The reflected neighbours are built as the reference builds them: one column (row) is sliced off, reversed
  along its own axis (an axis of extent 1) and concatenated in front, and the same at the far end, which gives
  an image two wider (taller); the three shifted copies are slices of it.
-/
import proofs.«158022_j23837068493026_2_alg».proof.ReferenceIdeal
import proofs.«158022_j23837068493026_2_alg».proof.Proof.Gen.ReferenceIdeal

noncomputable section

namespace Cert.ReferenceIdeal.Spec

open Idealize.ShloMosaic Cert.ReferenceIdeal Cert.ReferenceIdeal.Facts₀ Cert.ReferenceIdeal.Facts

variable {F : FTy → Type} [FloatOps F]

/-- First dense layer and rectifier: `max (x · W1 + b1) 0`. -/
def layer1 (x : FVec F S64x2 .f32) (w : FVec F S2x256 .f32) (b : FVec F S256 .f32) : FVec F S64x256 .f32 :=
  maximumf
    (addf (Host.dotGeneral dot_S64x2_S2x256_S64x256_1_0_0_1_n_n none x w)
      (broadcastInDim S64x256 ![0, 1] bcast_S1x256_S64x256_0_1 (broadcastInDim S1x256 ![1] bcast_S256_S1x256_1 b)))
    (broadcastInDim S64x256 ![] bcast_S_S64x256 (constant S_ .f32 0x00000000#32))

/-- Second dense layer and rectifier. -/
def layer2 (h : FVec F S64x256 .f32) (w : FVec F S256x512 .f32) (b : FVec F S512 .f32) : FVec F S64x512 .f32 :=
  maximumf
    (addf (Host.dotGeneral dot_S64x256_S256x512_S64x512_1_0_0_1_n_n none h w)
      (broadcastInDim S64x512 ![0, 1] bcast_S1x512_S64x512_0_1 (broadcastInDim S1x512 ![1] bcast_S512_S1x512_1 b)))
    (broadcastInDim S64x512 ![] bcast_S_S64x512 (constant S_ .f32 0x00000000#32))

/-- Third dense layer and rectifier. -/
def layer3 (h : FVec F S64x512 .f32) (w : FVec F S512x1024 .f32) (b : FVec F S1024 .f32) : FVec F S64x1024 .f32 :=
  maximumf
    (addf (Host.dotGeneral dot_S64x512_S512x1024_S64x1024_1_0_0_1_n_n none h w)
      (broadcastInDim S64x1024 ![0, 1] bcast_S1x1024_S64x1024_0_1 (broadcastInDim S1x1024 ![1] bcast_S1024_S1x1024_1 b)))
    (broadcastInDim S64x1024 ![] bcast_S_S64x1024 (constant S_ .f32 0x00000000#32))

/-- The three layers in a row: the hidden activations `h3`. -/
def hidden (x : FVec F S64x2 .f32) (w1 : FVec F S2x256 .f32) (b1 : FVec F S256 .f32) (w2 : FVec F S256x512 .f32)
    (b2 : FVec F S512 .f32) (w3 : FVec F S512x1024 .f32) (b3 : FVec F S1024 .f32) : FVec F S64x1024 .f32 :=
  layer3 (layer2 (layer1 x w1 b1) w2 b2) w3 b3

/-- The last, linear layer: `h3 · W4 + b4`, one field of 65536 values per batch row. -/
def field (h : FVec F S64x1024 .f32) (w : FVec F S1024x65536 .f32) (b : FVec F S65536 .f32) : FVec F S64x65536 .f32 :=
  addf (Host.dotGeneral dot_S64x1024_S1024x65536_S64x65536_1_0_0_1_n_n none h w)
    (broadcastInDim S64x65536 ![0, 1] bcast_S1x65536_S64x65536_0_1 (broadcastInDim S1x65536 ![1] bcast_S65536_S1x65536_1 b))

/-- A batch of rows of 65536 read as a batch of 256 x 256 images. -/
def toImages (a : FVec F S64x65536 .f32) : FVec F S64x1x256x256 .f32 :=
  shapeCast S64x1x256x256 a shapeCasts_S64x65536_S64x1x256x256

/-- A batch of images read back as rows of 65536. -/
def toRows (a : FVec F S64x1x256x256 .f32) : FVec F S64x65536 .f32 :=
  shapeCast S64x65536 a shapeCasts_S64x1x256x256_S64x65536

/-- The images with one reflected column in front: column 1, reversed along its own (unit) axis, then the image. -/
def padXfront (a : FVec F S64x1x256x256 .f32) : FVec F S64x1x256x257 .f32 :=
  concatenate S64x1x256x257 3
    [⟨S64x1x256x1, Host.reverse [3] (extractStridedSlice S64x1x256x1 ![0, 0, 0, 1] a slices_S64x1x256x256_S64x1x256x1_0_0_0_1)⟩,
     ⟨S64x1x256x256, a⟩] concatenates_S64x1x256x1_S64x1x256x256_S64x1x256x257_d3

/-- The images padded by reflection along a row: column 1 in front, column 254 (the widened image's column 255) behind. -/
def padX (a : FVec F S64x1x256x256 .f32) : FVec F S64x1x256x258 .f32 :=
  concatenate S64x1x256x258 3
    [⟨S64x1x256x257, padXfront a⟩,
     ⟨S64x1x256x1, Host.reverse [3] (extractStridedSlice S64x1x256x1 ![0, 0, 0, 255] (padXfront a) slices_S64x1x256x257_S64x1x256x1_0_0_0_255)⟩]
    concatenates_S64x1x256x257_S64x1x256x1_S64x1x256x258_d3

/-- The images with one reflected row on top. -/
def padYfront (a : FVec F S64x1x256x256 .f32) : FVec F S64x1x257x256 .f32 :=
  concatenate S64x1x257x256 2
    [⟨S64x1x1x256, Host.reverse [2] (extractStridedSlice S64x1x1x256 ![0, 0, 1, 0] a slices_S64x1x256x256_S64x1x1x256_0_0_1_0)⟩,
     ⟨S64x1x256x256, a⟩] concatenates_S64x1x1x256_S64x1x256x256_S64x1x257x256_d2

/-- The images padded by reflection along a column. -/
def padY (a : FVec F S64x1x256x256 .f32) : FVec F S64x1x258x256 .f32 :=
  concatenate S64x1x258x256 2
    [⟨S64x1x257x256, padYfront a⟩,
     ⟨S64x1x1x256, Host.reverse [2] (extractStridedSlice S64x1x1x256 ![0, 0, 255, 0] (padYfront a) slices_S64x1x257x256_S64x1x1x256_0_0_255_0)⟩]
    concatenates_S64x1x257x256_S64x1x1x256_S64x1x258x256_d2

/-- The literal 2 and the literal 1 on every pixel. -/
def twos : FVec F S64x1x256x256 .f32 := broadcastInDim S64x1x256x256 ![] bcast_S_S64x1x256x256 (constant S_ .f32 0x40000000#32)
def ones : FVec F S64x1x256x256 .f32 := broadcastInDim S64x1x256x256 ![] bcast_S_S64x1x256x256 (constant S_ .f32 0x3F800000#32)

/-- Second difference along a row with reflected ends: `((left - 2 a) + right) / 1`. -/
def d2x (a : FVec F S64x1x256x256 .f32) : FVec F S64x1x256x256 .f32 :=
  Host.divf
    (addf
      (subf (extractStridedSlice S64x1x256x256 ![0, 0, 0, 0] (padX a) slices_S64x1x256x258_S64x1x256x256_0_0_0_0)
        (mulf twos (extractStridedSlice S64x1x256x256 ![0, 0, 0, 1] (padX a) slices_S64x1x256x258_S64x1x256x256_0_0_0_1)))
      (extractStridedSlice S64x1x256x256 ![0, 0, 0, 2] (padX a) slices_S64x1x256x258_S64x1x256x256_0_0_0_2))
    ones

/-- Second difference along a column with reflected ends. -/
def d2y (a : FVec F S64x1x256x256 .f32) : FVec F S64x1x256x256 .f32 :=
  Host.divf
    (addf
      (subf (extractStridedSlice S64x1x256x256 ![0, 0, 0, 0] (padY a) slices_S64x1x258x256_S64x1x256x256_0_0_0_0)
        (mulf twos (extractStridedSlice S64x1x256x256 ![0, 0, 1, 0] (padY a) slices_S64x1x258x256_S64x1x256x256_0_0_1_0)))
      (extractStridedSlice S64x1x256x256 ![0, 0, 2, 0] (padY a) slices_S64x1x258x256_S64x1x256x256_0_0_2_0))
    ones

/-- The five-point Laplacian. -/
def lap (a : FVec F S64x1x256x256 .f32) : FVec F S64x1x256x256 .f32 := addf (d2x a) (d2y a)

/-- The residual on images: `((1 (d2x (lap f) + d2y (lap f)) + 1 lap f) + 1 f) - p`. -/
def residual (f p : FVec F S64x1x256x256 .f32) : FVec F S64x1x256x256 .f32 :=
  subf
    (addf
      (addf (mulf ones (addf (d2x (lap f)) (d2y (lap f)))) (mulf ones (lap f)))
      (mulf ones f))
    p

/-- The whole computation: the ten argument arrays to the result array. -/
def out (x : FVec F S64x2 .f32) (pr : FVec F S64x65536 .f32) (w1 : FVec F S2x256 .f32) (b1 : FVec F S256 .f32)
    (w2 : FVec F S256x512 .f32) (b2 : FVec F S512 .f32) (w3 : FVec F S512x1024 .f32) (b3 : FVec F S1024 .f32)
    (w4 : FVec F S1024x65536 .f32) (b4 : FVec F S65536 .f32) : FVec F S64x65536 .f32 :=
  toRows (residual (toImages (field (hidden x w1 b1 w2 b2 w3 b3) w4 b4)) (toImages pr))

end Cert.ReferenceIdeal.Spec

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.Dense.lean ====
/-
  The dense layers, kernel against reference, at the ideal values.

  One rectified dense layer at row p, column q is  max (Σ_k x(p,k) · w(k,q) + b(q)) 0  on both sides: the kernel's matrix
  product into a zero accumulator and the host's dot product are the same sum over the contracted axis, the kernel's
  bias (a vector recast as one row and repeated down the rows) and the host's (two broadcasts in a row) both read b(q),
  and the zero they are clamped against is the same literal.  The kernel's three layers in a row are therefore the
  reference's three.

  The last, linear layer is computed by the kernel on column tiles of width 2048: at row p and column q of tile t it reads
  the weights' columns 2048 t + q and the bias at 2048 t + q, and that is entry (p, 2048 t + q) of the reference's
  product plus bias.  The kernel narrows both operands to a shorter float format first, which changes no ideal value.
-/
import Idealize.ShloMosaic.Lib.ValueLayout
import proofs.«158022_j23837068493026_2_alg».proof.KernelIdeal
import proofs.«158022_j23837068493026_2_alg».proof.Proof.Gen.KernelIdeal
import proofs.«158022_j23837068493026_2_alg».proof.Proof.Gen.KernelIdeal.Skeleton
import proofs.«158022_j23837068493026_2_alg».proof.Proof.RefSpec
import proofs.«158022_j23837068493026_2_alg».proof.Proof.LibPlain

noncomputable section

namespace Cert.Dense

open Idealize.ShloMosaic Idealize.ShloMosaic.ValueIdx

/-- A rectified dense layer as the kernel spells it, at (p, q). -/
theorem kernel_layer {M K N : Nat} (x : FVec Ideal ⟨2, ![M, K]⟩ .f32) (w : FVec Ideal ⟨2, ![K, N]⟩ .f32) (b : FVec Ideal ⟨1, ![N]⟩ .f32)
    (d : DotDims ⟨2, ![M, K]⟩ ⟨2, ![K, N]⟩ ⟨2, ![M, N]⟩) (hd : d = DotDims.plain M K N)
    (hc : (⟨1, ![N]⟩ : Shape).ShapeCasts ⟨2, ![1, N]⟩) (hb : (⟨2, ![1, N]⟩ : Shape).Broadcasts ⟨2, ![M, N]⟩) (p : Fin M) (q : Fin N) :
    maximumf (addf (matmul d none x w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p q)
      = max ((∑ k : Fin K, x (ix2 p k) * w (ix2 k q)) + b (ix1 q)) (Ideal.ofBits .f32 0x00000000#32) := by
  subst hd
  rw [maximumf_apply, addf_apply, broadcast_apply]
  refine congrArg₂ max (congrArg₂ (· + ·) (Ideal.matmul_plain_zero_apply none x w p q) ?_) rfl
  exact (broadcastTo_1b_ab_apply _ hb p q).trans (shapeCast_a_1a_apply b hc 0 q)

/-- The host's bias — a vector broadcast to one row, the row broadcast down the rows — at (p, q): b(q). -/
theorem bias_host {M N : Nat} (b : (⟨1, ![N]⟩ : Shape).Idx → EReal)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- The same layer as the host spells it, at (p, q). -/
theorem host_layer {M K N : Nat} (x : FVec Ideal ⟨2, ![M, K]⟩ .f32) (w : FVec Ideal ⟨2, ![K, N]⟩ .f32) (b : FVec Ideal ⟨1, ![N]⟩ .f32)
    (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf (addf (Host.dotGeneral d none x w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p q)
      = max ((∑ k : Fin K, x (ix2 p k) * w (ix2 k q)) + b (ix1 q)) (Ideal.ofBits .f32 0x00000000#32) := by
  subst hd
  rw [maximumf_apply, addf_apply]
  refine congrArg₂ max (congrArg₂ (· + ·) (Ideal.dotGeneral_plain_apply none _ x w p q) ?_) ?_
  · exact bias_host b h1 h2 p q
  · exact broadcastInDim_apply _ h0 _ (ix2 p q) ix0 fun a => a.elim0

/-- Layer 1: the kernel's spelling is the reference's. -/
theorem layer1_eq (x : FVec Ideal Cert.KernelIdeal.S64x2 .f32) (w : FVec Ideal Cert.KernelIdeal.S2x256 .f32) (b : FVec Ideal Cert.KernelIdeal.S256 .f32)
    (hc : Cert.KernelIdeal.S256.ShapeCasts Cert.KernelIdeal.S1x256) (hb : Cert.KernelIdeal.S1x256.Broadcasts Cert.KernelIdeal.S64x256) :
    maximumf (addf (matmul Cert.KernelIdeal.dot_S64x2_S2x256_S64x256_1_0_0_1_n_n none x w (constant Cert.KernelIdeal.S64x256 .f32 0x00000000#32))
          (broadcastTo Cert.KernelIdeal.S64x256 (shapeCast Cert.KernelIdeal.S1x256 b hc) hb))
        (broadcast Cert.KernelIdeal.S64x256 (Scalar.ofBits (F := Ideal) .f32 0x00000000#32))
      = Cert.ReferenceIdeal.Spec.layer1 x w b := by
  funext j
  obtain ⟨p, q, rfl⟩ : ∃ (p : Fin 64) (q : Fin 256), j = ix2 p q := ⟨j 0, j 1, eq_ix2 j⟩
  exact (kernel_layer x w b _ rfl hc hb p q).trans (host_layer x w b _ rfl _ _ _ p q).symm

/-- Layer 2: the kernel's spelling is the reference's. -/
theorem layer2_eq (x : FVec Ideal Cert.KernelIdeal.S64x256 .f32) (w : FVec Ideal Cert.KernelIdeal.S256x512 .f32) (b : FVec Ideal Cert.KernelIdeal.S512 .f32)
    (hc : Cert.KernelIdeal.S512.ShapeCasts Cert.KernelIdeal.S1x512) (hb : Cert.KernelIdeal.S1x512.Broadcasts Cert.KernelIdeal.S64x512) :
    maximumf (addf (matmul Cert.KernelIdeal.dot_S64x256_S256x512_S64x512_1_0_0_1_n_n none x w (constant Cert.KernelIdeal.S64x512 .f32 0x00000000#32))
          (broadcastTo Cert.KernelIdeal.S64x512 (shapeCast Cert.KernelIdeal.S1x512 b hc) hb))
        (broadcast Cert.KernelIdeal.S64x512 (Scalar.ofBits (F := Ideal) .f32 0x00000000#32))
      = Cert.ReferenceIdeal.Spec.layer2 x w b := by
  funext j
  obtain ⟨p, q, rfl⟩ : ∃ (p : Fin 64) (q : Fin 512), j = ix2 p q := ⟨j 0, j 1, eq_ix2 j⟩
  exact (kernel_layer x w b _ rfl hc hb p q).trans (host_layer x w b _ rfl _ _ _ p q).symm

/-- Layer 3: the kernel's spelling is the reference's. -/
theorem layer3_eq (x : FVec Ideal Cert.KernelIdeal.S64x512 .f32) (w : FVec Ideal Cert.KernelIdeal.S512x1024 .f32) (b : FVec Ideal Cert.KernelIdeal.S1024 .f32)
    (hc : Cert.KernelIdeal.S1024.ShapeCasts Cert.KernelIdeal.S1x1024) (hb : Cert.KernelIdeal.S1x1024.Broadcasts Cert.KernelIdeal.S64x1024) :
    maximumf (addf (matmul Cert.KernelIdeal.dot_S64x512_S512x1024_S64x1024_1_0_0_1_n_n none x w (constant Cert.KernelIdeal.S64x1024 .f32 0x00000000#32))
          (broadcastTo Cert.KernelIdeal.S64x1024 (shapeCast Cert.KernelIdeal.S1x1024 b hc) hb))
        (broadcast Cert.KernelIdeal.S64x1024 (Scalar.ofBits (F := Ideal) .f32 0x00000000#32))
      = Cert.ReferenceIdeal.Spec.layer3 x w b := by
  funext j
  obtain ⟨p, q, rfl⟩ : ∃ (p : Fin 64) (q : Fin 1024), j = ix2 p q := ⟨j 0, j 1, eq_ix2 j⟩
  exact (kernel_layer x w b _ rfl hc hb p q).trans (host_layer x w b _ rfl _ _ _ p q).symm

/-- The kernel's first body — three rectified dense layers in a row — is the reference's hidden activations. -/
theorem hidden_eq (x : FVec Ideal Cert.KernelIdeal.S64x2 .f32) (w1 : FVec Ideal Cert.KernelIdeal.S2x256 .f32) (b1 : FVec Ideal Cert.KernelIdeal.S256 .f32)
    (w2 : FVec Ideal Cert.KernelIdeal.S256x512 .f32) (b2 : FVec Ideal Cert.KernelIdeal.S512 .f32) (w3 : FVec Ideal Cert.KernelIdeal.S512x1024 .f32)
    (b3 : FVec Ideal Cert.KernelIdeal.S1024 .f32) :
    Cert.KernelIdeal.Gen.k0_pay1 (F := Ideal) x w1 b1 w2 b2 w3 b3 = Cert.ReferenceIdeal.Spec.hidden x w1 b1 w2 b2 w3 b3 := by
  unfold Cert.KernelIdeal.Gen.k0_pay1 Cert.ReferenceIdeal.Spec.hidden
  dsimp only
  rw [layer1_eq, layer2_eq, layer3_eq]

/-- The last layer on one column tile: row p, column q of tile t is entry (p, 2048 t + q) of the whole product plus bias,
    when the tile of the weights and the tile of the bias row are what they are tiles of. -/
theorem field_tile (h : FVec Ideal Cert.KernelIdeal.S64x1024 .f32) (wt : FVec Ideal Cert.KernelIdeal.S1024x2048 .f32) (bt : FVec Ideal Cert.KernelIdeal.S1x2048 .f32)
    (W : FVec Ideal Cert.ReferenceIdeal.S1024x65536 .f32) (B : FVec Ideal Cert.ReferenceIdeal.S65536 .f32) (t : Fin 32)
    (hw : ∀ (k : Fin 1024) (q : Fin 2048), wt (ix2 k q) = W (ix2 k (⟨t.val * 2048 + q.val, by omega⟩ : Fin 65536)))
    (hbt : ∀ q : Fin 2048, bt (ix2 (0 : Fin 1) q) = B (ix1 (⟨t.val * 2048 + q.val, by omega⟩ : Fin 65536)))
    (p : Fin 64) (q : Fin 2048) :
    Cert.KernelIdeal.Gen.k1_pay1 (F := Ideal) h wt bt (ix2 p q)
      = Cert.ReferenceIdeal.Spec.field h W B (ix2 p (⟨t.val * 2048 + q.val, by omega⟩ : Fin 65536)) := by
  unfold Cert.KernelIdeal.Gen.k1_pay1 Cert.ReferenceIdeal.Spec.field
  dsimp only
  rw [addf_apply, addf_apply]
  refine congrArg₂ (· + ·) ?_ ?_
  · refine (Ideal.matmul_plain_zero_apply (M := 64) (K := 1024) (N := 2048) none _ _ p q).trans
      ((Finset.sum_congr rfl fun k _ => ?_).trans (Ideal.dotGeneral_plain_apply (M := 64) (K := 1024) (N := 65536) none _ h W p _).symm)
    rw [truncf_apply, truncf_apply, shapeCast_self, hw k q]
  · refine ((broadcastTo_1b_ab_apply _ _ p q).trans ?_).trans (bias_host B _ _ p _).symm
    rw [shapeCast_self, hbt q]

end Cert.Dense

end
-- ==== Proof.KRegion1.lean ====
/-
  The second launch, read as a value.  Its grid runs over 32 column tiles of width 2048: at tile t the body reads the
  whole activations, the weights' columns 2048 t … 2048 t + 2047 and the same columns of the bias row, and stores
  their product plus bias into the output's same columns.  Column j of the output is in tile j / 2048, the tiles cover
  the output, and each tile is the matching columns of ONE array — the reference's last layer of the arrays the launch
  finds — so the output after the launch is that array.
-/
import proofs.«158022_j23837068493026_2_alg».proof.Proof.Gen.KernelIdeal.Frame
import proofs.«158022_j23837068493026_2_alg».proof.Proof.Dense
import proofs.«158022_j23837068493026_2_alg».proof.Proof.KRegion0
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The activations' window stays at block 0; the other three windows move with the grid point along the columns. -/
theorem idx1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The activations' one block is the whole array. -/
theorem blk1_0 (c : Dev nD) (t : Fin cfg1.N) : (iblk1 V c 0 t : S64x1024.Idx → EReal) = V c main_v0 := by
  funext y
  show V c main_v0 (((cfg1.win 0).blk t).view.emb y) = V c main_v0 y
  refine congrArg _ (funext fun a => Fin.ext ?_)
  match a with
    | ⟨0, _⟩ => show win1_0.index t (0 : Fin 2) * 64 + 1 * (y 0).val = (y 0).val; rw [(idx1 t).1]; omega
    | ⟨1, _⟩ => show win1_0.index t (1 : Fin 2) * 1024 + 1 * (y 1).val = (y 1).val; rw [(idx1 t).2.1]; omega

/-- The output array after the second launch: the reference's last layer of the arrays at the launch's entry, `B` the bias
    vector whose one-row recast the launch finds. -/
abbrev G1 (c : Dev nD) (B : FVec Ideal Cert.ReferenceIdeal.S65536 .f32) : S64x65536.Idx → EReal :=
  Cert.ReferenceIdeal.Spec.field (V c main_v0) (V c main_arg8) B

theorem lt32 (t : Fin cfg1.N) : t.val < 32 := lt_of_lt_of_eq t.isLt N_1

/-- What grid point `t` writes back is column tile `t` of `G1`. -/
theorem flushed1_eq (c : Dev nD) (B : FVec Ideal Cert.ReferenceIdeal.S65536 .f32)
    (hB : ∀ q : Fin 65536, (V c main_v1 : S1x65536.Idx → EReal) (ix2 (0 : Fin 1) q) = B (ix1 q)) (t : Fin cfg1.N) :
    (dat1 V c).flushed 3 t = ((cfg1.win 3).blk t).view.read (Elt Ideal) (G1 V c B) := by
  show (cfg1.win 3).cut (grid1.coords t) ((dat1 V c).after 3 t) = _
  rw [after1_3]
  unfold out1_3
  rw [View.canon_unit_zero zero2]
  simp only [View.ld_unit_zero (S := S64x1024) zero2, View.ld_unit_zero (S := S1024x2048) zero2, View.ld_unit_zero (S := S1x2048) zero2]
  rw [blk1_0 V c t]
  obtain ⟨-, -, e10, e11, e20, e21, e30, e31⟩ := idx1 t
  have ht := lt32 t
  have hw : ∀ (k : Fin 1024) (q : Fin 2048), (iblk1 V c 1 t : S1024x2048.Idx → EReal) (ix2 k q)
      = (V c main_arg8 : S1024x65536.Idx → EReal) (ix2 k (⟨t.val * 2048 + q.val, by omega⟩ : Fin 65536)) := by
    intro k q
    show V c main_arg8 (((cfg1.win 1).blk t).view.emb (ix2 k q)) = _
    refine congrArg _ (funext fun a => Fin.ext ?_)
    match a with
      | ⟨0, _⟩ => show win1_1.index t (0 : Fin 2) * 1024 + 1 * k.val = k.val; rw [e10]; omega
      | ⟨1, _⟩ => show win1_1.index t (1 : Fin 2) * 2048 + 1 * q.val = t.val * 2048 + q.val; rw [e11]; omega
  have hbt : ∀ q : Fin 2048, (iblk1 V c 2 t : S1x2048.Idx → EReal) (ix2 (0 : Fin 1) q)
      = B (ix1 (⟨t.val * 2048 + q.val, by omega⟩ : Fin 65536)) := by
    intro q
    refine Eq.trans ?_ (hB _)
    show V c main_v1 (((cfg1.win 2).blk t).view.emb (ix2 (0 : Fin 1) q)) = _
    refine congrArg _ (funext fun a => Fin.ext ?_)
    match a with
      | ⟨0, _⟩ => show win1_2.index t (0 : Fin 2) * 1 + 1 * (0 : Fin 1).val = (0 : Fin 1).val; rw [e20]; rfl
      | ⟨1, _⟩ => show win1_2.index t (1 : Fin 2) * 2048 + 1 * q.val = t.val * 2048 + q.val; rw [e21]; omega
  funext j
  obtain ⟨p, q, rfl⟩ : ∃ (p : Fin 64) (q : Fin 2048), j = ix2 p q := ⟨j 0, j 1, eq_ix2 j⟩
  have e : ((cfg1.win 3).blk t).view.emb (ix2 p q) = (ix2 p (⟨t.val * 2048 + q.val, by omega⟩ : Fin 65536) : S64x65536.Idx) := by
    refine funext fun a => Fin.ext ?_
    match a with
      | ⟨0, _⟩ => show win1_3.index t (0 : Fin 2) * 64 + 1 * p.val = p.val; rw [e30]; omega
      | ⟨1, _⟩ => show win1_3.index t (1 : Fin 2) * 2048 + 1 * q.val = t.val * 2048 + q.val; rw [e31]; omega
  show k1_pay1 (F := Ideal) (V c main_v0) (iblk1 V c 1 t) (iblk1 V c 2 t) (ix2 p q) = G1 V c B (((cfg1.win 3).blk t).view.emb (ix2 p q))
  rw [e]
  exact Cert.Dense.field_tile (V c main_v0) (iblk1 V c 1 t) (iblk1 V c 2 t) (V c main_arg8) B ⟨t.val, ht⟩ hw hbt p q

/-- The 32 column tiles cover the output array: column j is in tile j / 2048. -/
theorem cover1 (i : S64x65536.Idx) : ∃ t : Fin cfg1.N, (cfg1.win 3).flush t = true ∧ i ∈ ((cfg1.win 3).blk t).view.set := by
  have hi0 : (i 0).val < 64 := (i 0).isLt
  have hi1 : (i 1).val < 65536 := (i 1).isLt
  have hlt : (i 1).val / 2048 < cfg1.N := by show _ < grid1.N; rw [N_1]; omega
  refine ⟨⟨(i 1).val / 2048, hlt⟩, flush1_3 _, ?_⟩
  obtain ⟨-, -, -, -, -, -, e30, e31⟩ := idx1 ⟨(i 1).val / 2048, hlt⟩
  have e31' : win1_3.index ⟨(i 1).val / 2048, hlt⟩ (1 : Fin 2) = (i 1).val / 2048 := e31
  show i ∈ ((View.whole main_v2).slice (win1_3.rect ⟨(i 1).val / 2048, hlt⟩)).set
  rw [View.set_slice_whole, Rect.mem_set_unit]
  intro a
  match a with
    | ⟨0, _⟩ => show win1_3.index ⟨(i 1).val / 2048, hlt⟩ (0 : Fin 2) * 64 ≤ (i 0).val ∧ (i 0).val < win1_3.index ⟨(i 1).val / 2048, hlt⟩ (0 : Fin 2) * 64 + 64; rw [e30]; omega
    | ⟨1, _⟩ => show win1_3.index ⟨(i 1).val / 2048, hlt⟩ (1 : Fin 2) * 2048 ≤ (i 1).val ∧ (i 1).val < win1_3.index ⟨(i 1).val / 2048, hlt⟩ (1 : Fin 2) * 2048 + 2048; rw [e31']; omega

/-- The output array after the second launch. -/
theorem final1 (c : Dev nD) (B : FVec Ideal Cert.ReferenceIdeal.S65536 .f32)
    (hB : ∀ q : Fin 65536, (V c main_v1 : S1x65536.Idx → EReal) (ix2 (0 : Fin 1) q) = B (ix1 q)) :
    (dat1 V c).arrAt 3 cfg1.N = G1 V c B :=
  (dat1 V c).arrAt_eq_of_cover 3 (G1 V c B) (fun t _ => flushed1_eq V c B hB t) (cover1)

end Cert.KernelIdeal.KValue

end
-- ==== Proof.StencilDef.lean ====
/-
  The residual on ONE 256 x 256 image, as plain arithmetic on extended reals.

  A pixel's neighbour along an axis is the next index, REFLECTED at the two ends: before index 0 comes index 1,
  after index 255 comes index 254 (a reflection about the end pixel that does not repeat it).  With that,
    dxx g = ((g left - 2 g) + g right) * 1      along a row,
    dyy g = ((g up   - 2 g) + g down ) * 1      along a column,
    lapl g = dxx g + dyy g,
    res g q = ((1 * (dxx (lapl g) + dyy (lapl g)) + 1 * lapl g) + 1 * g) - q,
  every sum and product in exactly this grouping.  `two` and `one` are the values of the two float literals.
-/
import Idealize.ShloMosaic.PureOps.Ideal

noncomputable section

namespace Cert.Stencil

open Idealize.ShloMosaic

/-- One image: a value per (row, column). -/
abbrev Img : Type := Fin 256 → Fin 256 → EReal

/-- The index before `c`, reflected at 0: 0 ↦ 1, otherwise c - 1. -/
def prev (c : Fin 256) : Fin 256 := if c.val = 0 then ⟨1, by decide⟩ else ⟨c.val - 1, by have := c.isLt; omega⟩

/-- The index after `c`, reflected at 255: 255 ↦ 254, otherwise c + 1. -/
def next (c : Fin 256) : Fin 256 := if h : c.val = 255 then ⟨254, by decide⟩ else ⟨c.val + 1, by have := c.isLt; omega⟩

/-- The float literal 2.0 and the float literal 1.0, as extended reals. -/
def two : EReal := Ideal.ofBits .f32 0x40000000#32
def one : EReal := Ideal.ofBits .f32 0x3F800000#32

/-- Second difference along a row, reflected ends. -/
def dxx (g : Img) : Img := fun r c => ((g r (prev c) - two * g r c) + g r (next c)) * one

/-- Second difference along a column, reflected ends. -/
def dyy (g : Img) : Img := fun r c => ((g (prev r) c - two * g r c) + g (next r) c) * one

/-- The five-point Laplacian. -/
def lapl (g : Img) : Img := fun r c => dxx g r c + dyy g r c

/-- The residual of one image `g` against one image `q`. -/
def res (g q : Img) : Img :=
  fun r c => ((one * (dxx (lapl g) r c + dyy (lapl g) r c) + one * lapl g r c) + one * g r c) - q r c

end Cert.Stencil

end
-- ==== Proof.StencilKernel.lean ====
/-
  The kernel's stencil on a block of eight 256 x 256 images, read at ONE pixel.

  The kernel never pads an image.  It gets a pixel's neighbours by gluing slices of the block: along a row,
  [column 1] followed by [columns 0 … 254] holds, at column c, the value one column to the left, and at column 0
  the value of column 1, which is the left neighbour reflected about the edge; [columns 1 … 255] followed by
  [column 254] holds the value one column to the right, reflected at column 255.  The same two gluings along
  the other axis give the neighbours above and below.  So each glued array, read at (b, 0, r, c), is the block
  read at (b, 0, r, prev c), (b, 0, r, next c), (b, 0, prev r, c) or (b, 0, next r, c): the four lemmas of the
  first section, each by the two cases "edge pixel / inner pixel".

  Everything else the kernel does is pointwise (sums, differences, products with the constants 2 and 1), in the
  grouping that the one-image operators dxx, dyy, lapl and res copy.  Reading each of the kernel's intermediate
  arrays at a pixel therefore gives, in turn: the Laplacian of the image; the row second difference of that
  Laplacian; the Laplacian one row down; the Laplacian one row up minus twice the Laplacian; and finally the
  residual of the image against the second block's image.  No law of arithmetic is used: once the gluings are
  read at the pixel, both sides are the same expression.
-/
import proofs.«158022_j23837068493026_2_alg».proof.Proof.Gen.KernelIdeal.Skeleton
import proofs.«158022_j23837068493026_2_alg».proof.Proof.Gen.KernelIdeal
import proofs.«158022_j23837068493026_2_alg».proof.Proof.StencilDef
import Idealize.ShloMosaic.Lib.ValueIdx
import Idealize.ShloMosaic.Lib.Pipeline.Value
import Idealize.ShloMosaic.Lib.ValueLayout

noncomputable section

namespace Cert.Stencil

open Idealize.ShloMosaic Idealize.ShloMosaic.ValueIdx Cert.KernelIdeal

namespace Ker

/-! ## The four reflected neighbours, read at one pixel -/

theorem prev_val_zero (c : Fin 256) (h : c.val = 0) : (prev c).val = 1 := by
  unfold prev; rw [if_pos h]

theorem prev_val_pos (c : Fin 256) (h : ¬ c.val = 0) : (prev c).val = c.val - 1 := by
  unfold prev; rw [if_neg h]

theorem next_val_last (c : Fin 256) (h : c.val = 255) : (next c).val = 254 := by
  unfold next; rw [dif_pos h]

theorem next_val_lt (c : Fin 256) (h : ¬ c.val = 255) : (next c).val = c.val + 1 := by
  unfold next; rw [dif_neg h]

/-- Column 1 in front of columns 0 … 254: at column `c` this is the block at the column before `c`, reflected. -/
theorem left3 {α : Type} (v : S8x1x256x256.Idx → α)
    (h1 : S8x1x256x256.Slices ![0, 0, 0, 1] S8x1x256x1) (h2 : S8x1x256x256.Slices ![0, 0, 0, 0] S8x1x256x255)
    (hc : Shape.Concatenates [S8x1x256x1, S8x1x256x255] S8x1x256x256 3) (b : Fin 8) (r c : Fin 256) :
    concatenate S8x1x256x256 3 [⟨S8x1x256x1, extractStridedSlice S8x1x256x1 ![0, 0, 0, 1] v h1⟩,
        ⟨S8x1x256x255, extractStridedSlice S8x1x256x255 ![0, 0, 0, 0] v h2⟩] hc (ix4 b (0 : Fin 1) r c)
      = v (ix4 b (0 : Fin 1) r (prev c)) := by
  by_cases h0 : c.val = 0
  · refine (concatenate_pair_apply_left (t := S8x1x256x256) (s₁ := S8x1x256x1) (s₂ := S8x1x256x255) (3 : Fin 4) _ _ hc _ rfl
      (ix4 b (0 : Fin 1) r (0 : Fin 1)) (by
        intro a
        match a with
        | ⟨0, _⟩ => rfl
        | ⟨1, _⟩ => rfl
        | ⟨2, _⟩ => rfl
        | ⟨3, _⟩ => exact h0.symm)).trans ?_
    exact extractStridedSlice_apply _ _ _ _ (ix4 b (0 : Fin 1) r (prev c)) (by
      intro a
      match a with
      | ⟨0, _⟩ => exact (Nat.zero_add _).symm
      | ⟨1, _⟩ => exact (Nat.zero_add _).symm
      | ⟨2, _⟩ => exact (Nat.zero_add _).symm
      | ⟨3, _⟩ => exact prev_val_zero c h0)
  · have hc1 : c.val - 1 < 255 := by have := c.isLt; omega
    refine (concatenate_pair_apply_right (t := S8x1x256x256) (s₁ := S8x1x256x1) (s₂ := S8x1x256x255) (3 : Fin 4) _ _ hc _ rfl rfl
      (ix4 b (0 : Fin 1) r (⟨c.val - 1, hc1⟩ : Fin 255)) (by
        intro a ha
        match a with
        | ⟨0, _⟩ => rfl
        | ⟨1, _⟩ => rfl
        | ⟨2, _⟩ => rfl
        | ⟨3, _⟩ => exact absurd rfl ha) (by show c.val - 1 + 1 = c.val; omega)).trans ?_
    exact extractStridedSlice_apply _ _ _ _ (ix4 b (0 : Fin 1) r (prev c)) (by
      intro a
      match a with
      | ⟨0, _⟩ => exact (Nat.zero_add _).symm
      | ⟨1, _⟩ => exact (Nat.zero_add _).symm
      | ⟨2, _⟩ => exact (Nat.zero_add _).symm
      | ⟨3, _⟩ => show (prev c).val = 0 + (c.val - 1); rw [prev_val_pos c h0]; omega)

/-- Columns 1 … 255 followed by column 254: at column `c` this is the block at the column after `c`, reflected. -/
theorem right3 {α : Type} (v : S8x1x256x256.Idx → α)
    (h1 : S8x1x256x256.Slices ![0, 0, 0, 1] S8x1x256x255) (h2 : S8x1x256x256.Slices ![0, 0, 0, 254] S8x1x256x1)
    (hc : Shape.Concatenates [S8x1x256x255, S8x1x256x1] S8x1x256x256 3) (b : Fin 8) (r c : Fin 256) :
    concatenate S8x1x256x256 3 [⟨S8x1x256x255, extractStridedSlice S8x1x256x255 ![0, 0, 0, 1] v h1⟩,
        ⟨S8x1x256x1, extractStridedSlice S8x1x256x1 ![0, 0, 0, 254] v h2⟩] hc (ix4 b (0 : Fin 1) r c)
      = v (ix4 b (0 : Fin 1) r (next c)) := by
  by_cases h0 : c.val = 255
  · refine (concatenate_pair_apply_right (t := S8x1x256x256) (s₁ := S8x1x256x255) (s₂ := S8x1x256x1) (3 : Fin 4) _ _ hc _ rfl rfl
      (ix4 b (0 : Fin 1) r (0 : Fin 1)) (by
        intro a ha
        match a with
        | ⟨0, _⟩ => rfl
        | ⟨1, _⟩ => rfl
        | ⟨2, _⟩ => rfl
        | ⟨3, _⟩ => exact absurd rfl ha) (by show 0 + 255 = c.val; omega)).trans ?_
    exact extractStridedSlice_apply _ _ _ _ (ix4 b (0 : Fin 1) r (next c)) (by
      intro a
      match a with
      | ⟨0, _⟩ => exact (Nat.zero_add _).symm
      | ⟨1, _⟩ => exact (Nat.zero_add _).symm
      | ⟨2, _⟩ => exact (Nat.zero_add _).symm
      | ⟨3, _⟩ => exact next_val_last c h0)
  · have hc1 : c.val < 255 := by have := c.isLt; omega
    refine (concatenate_pair_apply_left (t := S8x1x256x256) (s₁ := S8x1x256x255) (s₂ := S8x1x256x1) (3 : Fin 4) _ _ hc _ rfl
      (ix4 b (0 : Fin 1) r (⟨c.val, hc1⟩ : Fin 255)) (by
        intro a
        match a with
        | ⟨0, _⟩ => rfl
        | ⟨1, _⟩ => rfl
        | ⟨2, _⟩ => rfl
        | ⟨3, _⟩ => rfl)).trans ?_
    exact extractStridedSlice_apply _ _ _ _ (ix4 b (0 : Fin 1) r (next c)) (by
      intro a
      match a with
      | ⟨0, _⟩ => exact (Nat.zero_add _).symm
      | ⟨1, _⟩ => exact (Nat.zero_add _).symm
      | ⟨2, _⟩ => exact (Nat.zero_add _).symm
      | ⟨3, _⟩ => show (next c).val = 1 + c.val; rw [next_val_lt c h0]; omega)

/-- Row 1 on top of rows 0 … 254: at row `r` this is the block at the row before `r`, reflected. -/
theorem left2 {α : Type} (v : S8x1x256x256.Idx → α)
    (h1 : S8x1x256x256.Slices ![0, 0, 1, 0] S8x1x1x256) (h2 : S8x1x256x256.Slices ![0, 0, 0, 0] S8x1x255x256)
    (hc : Shape.Concatenates [S8x1x1x256, S8x1x255x256] S8x1x256x256 2) (b : Fin 8) (r c : Fin 256) :
    concatenate S8x1x256x256 2 [⟨S8x1x1x256, extractStridedSlice S8x1x1x256 ![0, 0, 1, 0] v h1⟩,
        ⟨S8x1x255x256, extractStridedSlice S8x1x255x256 ![0, 0, 0, 0] v h2⟩] hc (ix4 b (0 : Fin 1) r c)
      = v (ix4 b (0 : Fin 1) (prev r) c) := by
  by_cases h0 : r.val = 0
  · refine (concatenate_pair_apply_left (t := S8x1x256x256) (s₁ := S8x1x1x256) (s₂ := S8x1x255x256) (2 : Fin 4) _ _ hc _ rfl
      (ix4 b (0 : Fin 1) (0 : Fin 1) c) (by
        intro a
        match a with
        | ⟨0, _⟩ => rfl
        | ⟨1, _⟩ => rfl
        | ⟨2, _⟩ => exact h0.symm
        | ⟨3, _⟩ => rfl)).trans ?_
    exact extractStridedSlice_apply _ _ _ _ (ix4 b (0 : Fin 1) (prev r) c) (by
      intro a
      match a with
      | ⟨0, _⟩ => exact (Nat.zero_add _).symm
      | ⟨1, _⟩ => exact (Nat.zero_add _).symm
      | ⟨2, _⟩ => exact prev_val_zero r h0
      | ⟨3, _⟩ => exact (Nat.zero_add _).symm)
  · have hr1 : r.val - 1 < 255 := by have := r.isLt; omega
    refine (concatenate_pair_apply_right (t := S8x1x256x256) (s₁ := S8x1x1x256) (s₂ := S8x1x255x256) (2 : Fin 4) _ _ hc _ rfl rfl
      (ix4 b (0 : Fin 1) (⟨r.val - 1, hr1⟩ : Fin 255) c) (by
        intro a ha
        match a with
        | ⟨0, _⟩ => rfl
        | ⟨1, _⟩ => rfl
        | ⟨2, _⟩ => exact absurd rfl ha
        | ⟨3, _⟩ => rfl) (by show r.val - 1 + 1 = r.val; omega)).trans ?_
    exact extractStridedSlice_apply _ _ _ _ (ix4 b (0 : Fin 1) (prev r) c) (by
      intro a
      match a with
      | ⟨0, _⟩ => exact (Nat.zero_add _).symm
      | ⟨1, _⟩ => exact (Nat.zero_add _).symm
      | ⟨2, _⟩ => show (prev r).val = 0 + (r.val - 1); rw [prev_val_pos r h0]; omega
      | ⟨3, _⟩ => exact (Nat.zero_add _).symm)

/-- Rows 1 … 255 followed by row 254: at row `r` this is the block at the row after `r`, reflected. -/
theorem right2 {α : Type} (v : S8x1x256x256.Idx → α)
    (h1 : S8x1x256x256.Slices ![0, 0, 1, 0] S8x1x255x256) (h2 : S8x1x256x256.Slices ![0, 0, 254, 0] S8x1x1x256)
    (hc : Shape.Concatenates [S8x1x255x256, S8x1x1x256] S8x1x256x256 2) (b : Fin 8) (r c : Fin 256) :
    concatenate S8x1x256x256 2 [⟨S8x1x255x256, extractStridedSlice S8x1x255x256 ![0, 0, 1, 0] v h1⟩,
        ⟨S8x1x1x256, extractStridedSlice S8x1x1x256 ![0, 0, 254, 0] v h2⟩] hc (ix4 b (0 : Fin 1) r c)
      = v (ix4 b (0 : Fin 1) (next r) c) := by
  by_cases h0 : r.val = 255
  · refine (concatenate_pair_apply_right (t := S8x1x256x256) (s₁ := S8x1x255x256) (s₂ := S8x1x1x256) (2 : Fin 4) _ _ hc _ rfl rfl
      (ix4 b (0 : Fin 1) (0 : Fin 1) c) (by
        intro a ha
        match a with
        | ⟨0, _⟩ => rfl
        | ⟨1, _⟩ => rfl
        | ⟨2, _⟩ => exact absurd rfl ha
        | ⟨3, _⟩ => rfl) (by show 0 + 255 = r.val; omega)).trans ?_
    exact extractStridedSlice_apply _ _ _ _ (ix4 b (0 : Fin 1) (next r) c) (by
      intro a
      match a with
      | ⟨0, _⟩ => exact (Nat.zero_add _).symm
      | ⟨1, _⟩ => exact (Nat.zero_add _).symm
      | ⟨2, _⟩ => exact next_val_last r h0
      | ⟨3, _⟩ => exact (Nat.zero_add _).symm)
  · have hr1 : r.val < 255 := by have := r.isLt; omega
    refine (concatenate_pair_apply_left (t := S8x1x256x256) (s₁ := S8x1x255x256) (s₂ := S8x1x1x256) (2 : Fin 4) _ _ hc _ rfl
      (ix4 b (0 : Fin 1) (⟨r.val, hr1⟩ : Fin 255) c) (by
        intro a
        match a with
        | ⟨0, _⟩ => rfl
        | ⟨1, _⟩ => rfl
        | ⟨2, _⟩ => rfl
        | ⟨3, _⟩ => rfl)).trans ?_
    exact extractStridedSlice_apply _ _ _ _ (ix4 b (0 : Fin 1) (next r) c) (by
      intro a
      match a with
      | ⟨0, _⟩ => exact (Nat.zero_add _).symm
      | ⟨1, _⟩ => exact (Nat.zero_add _).symm
      | ⟨2, _⟩ => show (next r).val = 1 + r.val; rw [next_val_lt r h0]; omega
      | ⟨3, _⟩ => exact (Nat.zero_add _).symm)

/-! ## The kernel's terms read at one pixel -/

/-- Image `b` of a block of eight images: a value per (row, column). -/
def img (v : FVec Ideal S8x1x256x256 .f32) (b : Fin 8) : Img := fun r c => v (ix4 b (0 : Fin 1) r c)

/-- The loaded block, cast to its own shape, is the block. -/
theorem pay2_eq (v : FVec Ideal S8x1x256x256 .f32) : Gen.k2_pay2 (F := Ideal) v = v := by
  unfold Gen.k2_pay2
  exact shapeCast_self v _

/-- The kernel's Laplacian term at a pixel is the five-point Laplacian of the image there. -/
theorem pay3_apply (v : FVec Ideal S8x1x256x256 .f32) (b : Fin 8) (r c : Fin 256) :
    Gen.k2_pay3 (F := Ideal) v (ix4 b (0 : Fin 1) r c) = lapl (img v b) r c := by
  unfold Gen.k2_pay3
  simp only [pay2_eq, addf_apply, subf_apply, mulf_apply, broadcast_apply, left3, right3, left2, right2]
  rfl

/-- The second difference along a row of the Laplacian term, at a pixel. -/
theorem pay4_apply (v : FVec Ideal S8x1x256x256 .f32) (b : Fin 8) (r c : Fin 256) :
    Gen.k2_pay4 (F := Ideal) v (ix4 b (0 : Fin 1) r c) = dxx (lapl (img v b)) r c := by
  unfold Gen.k2_pay4
  simp only [addf_apply, subf_apply, mulf_apply, broadcast_apply, left3, right3, pay3_apply]
  rfl

/-- The Laplacian term one row further down (reflected), at a pixel. -/
theorem pay5_apply (v : FVec Ideal S8x1x256x256 .f32) (b : Fin 8) (r c : Fin 256) :
    Gen.k2_pay5 (F := Ideal) v (ix4 b (0 : Fin 1) r c) = lapl (img v b) (next r) c := by
  unfold Gen.k2_pay5
  simp only [right2, pay3_apply]

/-- The Laplacian term one row further up (reflected) minus twice the term, at a pixel. -/
theorem pay6_apply (v : FVec Ideal S8x1x256x256 .f32) (b : Fin 8) (r c : Fin 256) :
    Gen.k2_pay6 (F := Ideal) v (ix4 b (0 : Fin 1) r c) = lapl (img v b) (prev r) c - two * lapl (img v b) r c := by
  unfold Gen.k2_pay6
  simp only [subf_apply, mulf_apply, broadcast_apply, left2, pay3_apply]
  rfl

end Ker

open Ker in
/-- The kernel's stored value at a pixel of image `b` is the residual of that image against the second block's image. -/
theorem ker_eq (xf xp : FVec Ideal Cert.KernelIdeal.S8x1x256x256 .f32) (b : Fin 8) (r c : Fin 256) :
    Cert.KernelIdeal.Gen.k2_pay1 (F := Ideal) (Cert.KernelIdeal.Gen.k2_pay2 xf) (Cert.KernelIdeal.Gen.k2_pay3 xf)
        (Cert.KernelIdeal.Gen.k2_pay4 xf) (Cert.KernelIdeal.Gen.k2_pay5 xf) (Cert.KernelIdeal.Gen.k2_pay6 xf) xp (ix4 b (0 : Fin 1) r c)
      = res (fun r c => xf (ix4 b (0 : Fin 1) r c)) (fun r c => xp (ix4 b (0 : Fin 1) r c)) r c := by
  unfold Gen.k2_pay1
  simp only [pay2_eq, shapeCast_self, addf_apply, subf_apply, mulf_apply, broadcast_apply,
    pay3_apply, pay4_apply, pay5_apply, pay6_apply]
  rfl

end Cert.Stencil

end
-- ==== Proof.StencilRef.lean ====
/-
  The reference's image stage read at ONE pixel.

  The reference works on a batch of 64 images of 256 x 256 pixels at once, and builds a pixel's reflected neighbours
  by padding: one column is cut off, turned around along its own axis, and joined in front of the image, and the same
  behind, which gives an image two columns wider; three copies of it, shifted by 0, 1 and 2 columns, then stand for
  "left neighbour", "the pixel" and "right neighbour" (and the same along the rows).  Read at one pixel (r, c) of one
  image B this is plain index arithmetic:
    • turning an array around along an axis of extent one changes nothing (there is one position on that axis);
    • the image widened in front holds the image's column 1 at column 0 and its column c at column c + 1;
    • the image widened on both sides holds, besides, the image's column 254 at column 257;
    • hence its copy shifted by 0 reads the image at the column before c, reflected at 0 (0 ↦ 1), the copy shifted
      by 1 reads the image at c, and the copy shifted by 2 reads it at the column after c, reflected at 255 (255 ↦ 254).
  The literal 1 the second differences are divided by is the number one, and dividing by it is multiplying by it.
  Everything else is the same sums and products, in the same grouping, on both sides, so the batch's second
  differences, its Laplacian and its residual at pixel (r, c) of image B are those of image B alone.
-/
import proofs.«158022_j23837068493026_2_alg».proof.Proof.RefSpec
import proofs.«158022_j23837068493026_2_alg».proof.Proof.StencilDef
import Idealize.ShloMosaic.Lib.ValueLayout
import Idealize.ShloMosaic.Lib.IdealHost

noncomputable section

namespace Cert.Stencil.Ref

open Idealize.ShloMosaic Idealize.ShloMosaic.ValueIdx
open Cert.ReferenceIdeal Cert.ReferenceIdeal.Facts₀ Cert.ReferenceIdeal.Spec

/-! ## The literal one, and division by it -/

/-- The pattern of the float literal 1.0 is the extended real one. -/
theorem one_eq : one = 1 := Ideal.ofBits_one_f32

/-- Dividing by the literal one is multiplying by it. -/
theorem div_one (x : EReal) : Ideal.div x one = x * one := by
  have h := Ideal.div_coe (y := 1) one_ne_zero x
  rw [one_eq]
  simpa using h

/-! ## Layout operations of rank 4 read at an index given by coordinates -/

section Layout
variable {α : Type}

/-- A rank-4 array cut along its last axis from `o` reads, at (a, b, c, j), the source at (a, b, c, o + j). -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- Reversing along a last axis of extent one changes nothing. -/
theorem reverse4_axis3_unit {n0 n1 n2 : Nat} (X : (⟨4, ![n0, n1, n2, 1]⟩ : Shape).Idx → α)
    (a : Fin n0) (b : Fin n1) (c : Fin n2) (d : Fin 1) :
    Host.reverse (s := ⟨4, ![n0, n1, n2, 1]⟩) [3] X (ix4 a b c d) = X (ix4 a b c d) := by
  unfold Host.reverse
  refine congrArg X (funext fun ax => ?_)
  match ax with
  | ⟨0, _⟩ => exact if_neg (fun h => absurd (congrArg Fin.val (List.mem_singleton.mp h)) (show ¬ ((0 : Nat) = 3) by decide))
  | ⟨1, _⟩ => exact if_neg (fun h => absurd (congrArg Fin.val (List.mem_singleton.mp h)) (show ¬ ((1 : Nat) = 3) by decide))
  | ⟨2, _⟩ => exact if_neg (fun h => absurd (congrArg Fin.val (List.mem_singleton.mp h)) (show ¬ ((2 : Nat) = 3) by decide))
  | ⟨3, _⟩ => exact Subsingleton.elim (α := Fin 1) _ _

/-- Reversing along a third axis of extent one changes nothing. -/
theorem reverse4_axis2_unit {n0 n1 n3 : Nat} (X : (⟨4, ![n0, n1, 1, n3]⟩ : Shape).Idx → α)
    (a : Fin n0) (b : Fin n1) (c : Fin 1) (d : Fin n3) :
    Host.reverse (s := ⟨4, ![n0, n1, 1, n3]⟩) [2] X (ix4 a b c d) = X (ix4 a b c d) := by
  unfold Host.reverse
  refine congrArg X (funext fun ax => ?_)
  match ax with
  | ⟨0, _⟩ => exact if_neg (fun h => absurd (congrArg Fin.val (List.mem_singleton.mp h)) (show ¬ ((0 : Nat) = 2) by decide))
  | ⟨1, _⟩ => exact if_neg (fun h => absurd (congrArg Fin.val (List.mem_singleton.mp h)) (show ¬ ((1 : Nat) = 2) by decide))
  | ⟨2, _⟩ => exact Subsingleton.elim (α := Fin 1) _ _
  | ⟨3, _⟩ => exact if_neg (fun h => absurd (congrArg Fin.val (List.mem_singleton.mp h)) (show ¬ ((3 : Nat) = 2) by decide))

/-- Two rank-4 arrays joined along the last axis, read where the first lies: the first at the same coordinates. -/
theorem concat4_axis3_left {n0 n1 n2 p q t : Nat}
    (x₁ : (⟨4, ![n0, n1, n2, p]⟩ : Shape).Idx → α) (x₂ : (⟨4, ![n0, n1, n2, q]⟩ : Shape).Idx → α)
    (h : Shape.Concatenates [(⟨4, ![n0, n1, n2, p]⟩ : Shape), ⟨4, ![n0, n1, n2, q]⟩] ⟨4, ![n0, n1, n2, t]⟩ 3)
    (a : Fin n0) (b : Fin n1) (c : Fin n2) (k : Fin t) (i : Fin p) (hi : i.val = k.val) :
    concatenate ⟨4, ![n0, n1, n2, t]⟩ 3 [⟨⟨4, ![n0, n1, n2, p]⟩, x₁⟩, ⟨⟨4, ![n0, n1, n2, q]⟩, x₂⟩] h (ix4 a b c k)
      = x₁ (ix4 a b c i) :=
  concatenate_pair_apply_left 3 x₁ x₂ h _ rfl _ (fun ax => by
    match ax with
    | ⟨0, _⟩ => rfl
    | ⟨1, _⟩ => rfl
    | ⟨2, _⟩ => rfl
    | ⟨3, _⟩ => exact hi)

/-- … read past the first: the second, the first's extent less along the joined axis. -/
theorem concat4_axis3_right {n0 n1 n2 p q t : Nat}
    (x₁ : (⟨4, ![n0, n1, n2, p]⟩ : Shape).Idx → α) (x₂ : (⟨4, ![n0, n1, n2, q]⟩ : Shape).Idx → α)
    (h : Shape.Concatenates [(⟨4, ![n0, n1, n2, p]⟩ : Shape), ⟨4, ![n0, n1, n2, q]⟩] ⟨4, ![n0, n1, n2, t]⟩ 3)
    (a : Fin n0) (b : Fin n1) (c : Fin n2) (k : Fin t) (i : Fin q) (hi : i.val + p = k.val) :
    concatenate ⟨4, ![n0, n1, n2, t]⟩ 3 [⟨⟨4, ![n0, n1, n2, p]⟩, x₁⟩, ⟨⟨4, ![n0, n1, n2, q]⟩, x₂⟩] h (ix4 a b c k)
      = x₂ (ix4 a b c i) :=
  concatenate_pair_apply_right 3 x₁ x₂ h _ rfl rfl _
    (fun ax hax => by
      match ax with
      | ⟨0, _⟩ => rfl
      | ⟨1, _⟩ => rfl
      | ⟨2, _⟩ => rfl
      | ⟨3, _⟩ => exact absurd rfl hax)
    hi

/-- Two rank-4 arrays joined along the third axis, read where the first lies. -/
theorem concat4_axis2_left {n0 n1 n3 p q t : Nat}
    (x₁ : (⟨4, ![n0, n1, p, n3]⟩ : Shape).Idx → α) (x₂ : (⟨4, ![n0, n1, q, n3]⟩ : Shape).Idx → α)
    (h : Shape.Concatenates [(⟨4, ![n0, n1, p, n3]⟩ : Shape), ⟨4, ![n0, n1, q, n3]⟩] ⟨4, ![n0, n1, t, n3]⟩ 2)
    (a : Fin n0) (b : Fin n1) (k : Fin t) (d : Fin n3) (i : Fin p) (hi : i.val = k.val) :
    concatenate ⟨4, ![n0, n1, t, n3]⟩ 2 [⟨⟨4, ![n0, n1, p, n3]⟩, x₁⟩, ⟨⟨4, ![n0, n1, q, n3]⟩, x₂⟩] h (ix4 a b k d)
      = x₁ (ix4 a b i d) :=
  concatenate_pair_apply_left 2 x₁ x₂ h _ rfl _ (fun ax => by
    match ax with
    | ⟨0, _⟩ => rfl
    | ⟨1, _⟩ => rfl
    | ⟨2, _⟩ => exact hi
    | ⟨3, _⟩ => rfl)

/-- … read past the first. -/
theorem concat4_axis2_right {n0 n1 n3 p q t : Nat}
    (x₁ : (⟨4, ![n0, n1, p, n3]⟩ : Shape).Idx → α) (x₂ : (⟨4, ![n0, n1, q, n3]⟩ : Shape).Idx → α)
    (h : Shape.Concatenates [(⟨4, ![n0, n1, p, n3]⟩ : Shape), ⟨4, ![n0, n1, q, n3]⟩] ⟨4, ![n0, n1, t, n3]⟩ 2)
    (a : Fin n0) (b : Fin n1) (k : Fin t) (d : Fin n3) (i : Fin q) (hi : i.val + p = k.val) :
    concatenate ⟨4, ![n0, n1, t, n3]⟩ 2 [⟨⟨4, ![n0, n1, p, n3]⟩, x₁⟩, ⟨⟨4, ![n0, n1, q, n3]⟩, x₂⟩] h (ix4 a b k d)
      = x₂ (ix4 a b i d) :=
  concatenate_pair_apply_right 2 x₁ x₂ h _ rfl rfl _
    (fun ax hax => by
      match ax with
      | ⟨0, _⟩ => rfl
      | ⟨1, _⟩ => rfl
      | ⟨2, _⟩ => exact absurd rfl hax
      | ⟨3, _⟩ => rfl)
    hi

end Layout

/-! ## The padded images at an index -/

/-- The image widened in front: column 0 is the image's column 1, column c + 1 its column c. -/
theorem padXfront_apply (a : FVec Ideal S64x1x256x256 .f32) (B : Fin 64) (r : Fin 256) (k : Fin 257) (c : Fin 256)
    (h : (k.val = 0 ∧ c.val = 1) ∨ k.val = c.val + 1) :
    padXfront (F := Ideal) a (ix4 B (0 : Fin 1) r k) = a (ix4 B (0 : Fin 1) r c) := by
  unfold padXfront
  rcases h with ⟨hk, hc⟩ | hk
  · refine (concat4_axis3_left (n0 := 64) (n1 := 1) (n2 := 256) (p := 1) (q := 256) (t := 257) _ _ _ B 0 r k (0 : Fin 1)
      (by simp [hk])).trans ?_
    refine (reverse4_axis3_unit (n0 := 64) (n1 := 1) (n2 := 256) _ B 0 r 0).trans ?_
    exact slice4_axis3_apply (n0 := 64) (n1 := 1) (n2 := 256) (n3 := 256) (m := 1) 1 a _ B 0 r 0 c (by simp [hc])
  · exact concat4_axis3_right (n0 := 64) (n1 := 1) (n2 := 256) (p := 1) (q := 256) (t := 257) _ _ _ B 0 r k c (by omega)

/-- The image padded along a row: column 0 is the image's column 1, columns 1 … 256 the image, column 257 its column 254. -/
theorem padX_apply (a : FVec Ideal S64x1x256x256 .f32) (B : Fin 64) (r : Fin 256) (k : Fin 258) (c : Fin 256)
    (h : (k.val = 0 ∧ c.val = 1) ∨ (k.val ≤ 256 ∧ k.val = c.val + 1) ∨ (k.val = 257 ∧ c.val = 254)) :
    padX (F := Ideal) a (ix4 B (0 : Fin 1) r k) = a (ix4 B (0 : Fin 1) r c) := by
  unfold padX
  rcases h with ⟨hk, hc⟩ | ⟨hk, hc⟩ | ⟨hk, hc⟩
  · refine (concat4_axis3_left (n0 := 64) (n1 := 1) (n2 := 256) (p := 257) (q := 1) (t := 258) _ _ _ B 0 r k
      (⟨k.val, by omega⟩ : Fin 257) rfl).trans ?_
    exact padXfront_apply a B r _ c (Or.inl ⟨hk, hc⟩)
  · refine (concat4_axis3_left (n0 := 64) (n1 := 1) (n2 := 256) (p := 257) (q := 1) (t := 258) _ _ _ B 0 r k
      (⟨k.val, by omega⟩ : Fin 257) rfl).trans ?_
    exact padXfront_apply a B r _ c (Or.inr hc)
  · refine (concat4_axis3_right (n0 := 64) (n1 := 1) (n2 := 256) (p := 257) (q := 1) (t := 258) _ _ _ B 0 r k (0 : Fin 1)
      (by simp [hk])).trans ?_
    refine (reverse4_axis3_unit (n0 := 64) (n1 := 1) (n2 := 256) _ B 0 r 0).trans ?_
    refine (slice4_axis3_apply (n0 := 64) (n1 := 1) (n2 := 256) (n3 := 257) (m := 1) 255 (padXfront a) _ B 0 r 0
      (⟨255, by decide⟩ : Fin 257) (by simp)).trans ?_
    exact padXfront_apply a B r _ c (Or.inr (by simp [hc]))

/-- The image heightened on top: row 0 is the image's row 1, row r + 1 its row r. -/
theorem padYfront_apply (a : FVec Ideal S64x1x256x256 .f32) (B : Fin 64) (k : Fin 257) (c : Fin 256) (r : Fin 256)
    (h : (k.val = 0 ∧ r.val = 1) ∨ k.val = r.val + 1) :
    padYfront (F := Ideal) a (ix4 B (0 : Fin 1) k c) = a (ix4 B (0 : Fin 1) r c) := by
  unfold padYfront
  rcases h with ⟨hk, hr⟩ | hk
  · refine (concat4_axis2_left (n0 := 64) (n1 := 1) (n3 := 256) (p := 1) (q := 256) (t := 257) _ _ _ B 0 k c (0 : Fin 1)
      (by simp [hk])).trans ?_
    refine (reverse4_axis2_unit (n0 := 64) (n1 := 1) (n3 := 256) _ B 0 0 c).trans ?_
    exact slice4_axis2_apply (n0 := 64) (n1 := 1) (n2 := 256) (n3 := 256) (m := 1) 1 a _ B 0 0 c r (by simp [hr])
  · exact concat4_axis2_right (n0 := 64) (n1 := 1) (n3 := 256) (p := 1) (q := 256) (t := 257) _ _ _ B 0 k c r (by omega)

/-- The image padded along a column: row 0 is the image's row 1, rows 1 … 256 the image, row 257 its row 254. -/
theorem padY_apply (a : FVec Ideal S64x1x256x256 .f32) (B : Fin 64) (k : Fin 258) (c : Fin 256) (r : Fin 256)
    (h : (k.val = 0 ∧ r.val = 1) ∨ (k.val ≤ 256 ∧ k.val = r.val + 1) ∨ (k.val = 257 ∧ r.val = 254)) :
    padY (F := Ideal) a (ix4 B (0 : Fin 1) k c) = a (ix4 B (0 : Fin 1) r c) := by
  unfold padY
  rcases h with ⟨hk, hr⟩ | ⟨hk, hr⟩ | ⟨hk, hr⟩
  · refine (concat4_axis2_left (n0 := 64) (n1 := 1) (n3 := 256) (p := 257) (q := 1) (t := 258) _ _ _ B 0 k c
      (⟨k.val, by omega⟩ : Fin 257) rfl).trans ?_
    exact padYfront_apply a B _ c r (Or.inl ⟨hk, hr⟩)
  · refine (concat4_axis2_left (n0 := 64) (n1 := 1) (n3 := 256) (p := 257) (q := 1) (t := 258) _ _ _ B 0 k c
      (⟨k.val, by omega⟩ : Fin 257) rfl).trans ?_
    exact padYfront_apply a B _ c r (Or.inr hr)
  · refine (concat4_axis2_right (n0 := 64) (n1 := 1) (n3 := 256) (p := 257) (q := 1) (t := 258) _ _ _ B 0 k c (0 : Fin 1)
      (by simp [hk])).trans ?_
    refine (reverse4_axis2_unit (n0 := 64) (n1 := 1) (n3 := 256) _ B 0 0 c).trans ?_
    refine (slice4_axis2_apply (n0 := 64) (n1 := 1) (n2 := 257) (n3 := 256) (m := 1) 255 (padYfront a) _ B 0 0 c
      (⟨255, by decide⟩ : Fin 257) (by simp)).trans ?_
    exact padYfront_apply a B _ c r (Or.inr (by simp [hr]))

/-! ## The reflected neighbours as numbers -/

/-- The index before: 1 at 0, otherwise one less. -/
theorem prev_val (c : Fin 256) : (c.val = 0 ∧ (prev c).val = 1) ∨ (0 < c.val ∧ (prev c).val + 1 = c.val) := by
  unfold prev
  split
  · next h => exact Or.inl ⟨h, rfl⟩
  · next h => exact Or.inr ⟨Nat.pos_of_ne_zero h, Nat.sub_add_cancel (Nat.pos_of_ne_zero h)⟩

/-- The index after: 254 at 255, otherwise one more. -/
theorem next_val (c : Fin 256) : (c.val = 255 ∧ (next c).val = 254) ∨ (c.val < 255 ∧ (next c).val = c.val + 1) := by
  unfold next
  split
  · next h => exact Or.inl ⟨h, rfl⟩
  · next h => exact Or.inr ⟨by have := c.isLt; omega, rfl⟩

/-! ## The three shifted copies -/

/-- A slice of the row-padded image at column offset `o`: the image at the column the padded column o + c holds. -/
theorem padX_slice (a : FVec Ideal S64x1x256x256 .f32) (B : Fin 64) (r c : Fin 256) (o : Nat)
    (h : S64x1x256x258.Slices ![0, 0, 0, o] S64x1x256x256) (c' : Fin 256)
    (hc : (o + c.val = 0 ∧ c'.val = 1) ∨ (o + c.val ≤ 256 ∧ o + c.val = c'.val + 1) ∨ (o + c.val = 257 ∧ c'.val = 254)) :
    extractStridedSlice S64x1x256x256 ![0, 0, 0, o] (padX (F := Ideal) a) h (ix4 B (0 : Fin 1) r c)
      = a (ix4 B (0 : Fin 1) r c') := by
  have hlt : o + c.val < 258 := by have := c'.isLt; omega
  refine (slice4_axis3_apply (n0 := 64) (n1 := 1) (n2 := 256) (n3 := 258) (m := 256) o (padX a) h B 0 r c
    (⟨o + c.val, hlt⟩ : Fin 258) rfl).trans ?_
  exact padX_apply a B r _ c' hc

/-- A slice of the column-padded image at row offset `o`. -/
theorem padY_slice (a : FVec Ideal S64x1x256x256 .f32) (B : Fin 64) (r c : Fin 256) (o : Nat)
    (h : S64x1x258x256.Slices ![0, 0, o, 0] S64x1x256x256) (r' : Fin 256)
    (hr : (o + r.val = 0 ∧ r'.val = 1) ∨ (o + r.val ≤ 256 ∧ o + r.val = r'.val + 1) ∨ (o + r.val = 257 ∧ r'.val = 254)) :
    extractStridedSlice S64x1x256x256 ![0, 0, o, 0] (padY (F := Ideal) a) h (ix4 B (0 : Fin 1) r c)
      = a (ix4 B (0 : Fin 1) r' c) := by
  have hlt : o + r.val < 258 := by have := r'.isLt; omega
  refine (slice4_axis2_apply (n0 := 64) (n1 := 1) (n2 := 258) (n3 := 256) (m := 256) o (padY a) h B 0 r c
    (⟨o + r.val, hlt⟩ : Fin 258) rfl).trans ?_
  exact padY_apply a B _ c r' hr

/-! ## The second differences, the Laplacian and the residual at a pixel -/

/-- The literal 2 on every pixel reads the number two … -/
theorem twos_apply (i : S64x1x256x256.Idx) : twos (F := Ideal) i = two := rfl
/-- … and the literal 1 the number one. -/
theorem ones_apply (i : S64x1x256x256.Idx) : ones (F := Ideal) i = one := rfl

/-- The second difference along a row of the batch is, on image B, the one of that image. -/
theorem d2x_apply (a : FVec Ideal S64x1x256x256 .f32) (B : Fin 64) (r c : Fin 256) :
    d2x (F := Ideal) a (ix4 B (0 : Fin 1) r c) = dxx (fun r c => a (ix4 B (0 : Fin 1) r c)) r c := by
  have e0 := padX_slice a B r c 0 slices_S64x1x256x258_S64x1x256x256_0_0_0_0 (prev c)
    (by rcases prev_val c with ⟨h1, h2⟩ | ⟨h1, h2⟩
        · exact Or.inl ⟨by omega, h2⟩
        · exact Or.inr (Or.inl ⟨by have := c.isLt; omega, by omega⟩))
  have e1 := padX_slice a B r c 1 slices_S64x1x256x258_S64x1x256x256_0_0_0_1 c
    (Or.inr (Or.inl ⟨by have := c.isLt; omega, by omega⟩))
  have e2 := padX_slice a B r c 2 slices_S64x1x256x258_S64x1x256x256_0_0_0_2 (next c)
    (by rcases next_val c with ⟨h1, h2⟩ | ⟨h1, h2⟩
        · exact Or.inr (Or.inr ⟨by omega, h2⟩)
        · exact Or.inr (Or.inl ⟨by omega, by omega⟩))
  unfold d2x
  rw [hostDivf_apply, addf_apply, subf_apply, mulf_apply, twos_apply, ones_apply, e0, e1, e2, div_one]
  rfl

/-- The second difference along a column of the batch is, on image B, the one of that image. -/
theorem d2y_apply (a : FVec Ideal S64x1x256x256 .f32) (B : Fin 64) (r c : Fin 256) :
    d2y (F := Ideal) a (ix4 B (0 : Fin 1) r c) = dyy (fun r c => a (ix4 B (0 : Fin 1) r c)) r c := by
  have e0 := padY_slice a B r c 0 slices_S64x1x258x256_S64x1x256x256_0_0_0_0 (prev r)
    (by rcases prev_val r with ⟨h1, h2⟩ | ⟨h1, h2⟩
        · exact Or.inl ⟨by omega, h2⟩
        · exact Or.inr (Or.inl ⟨by have := r.isLt; omega, by omega⟩))
  have e1 := padY_slice a B r c 1 slices_S64x1x258x256_S64x1x256x256_0_0_1_0 r
    (Or.inr (Or.inl ⟨by have := r.isLt; omega, by omega⟩))
  have e2 := padY_slice a B r c 2 slices_S64x1x258x256_S64x1x256x256_0_0_2_0 (next r)
    (by rcases next_val r with ⟨h1, h2⟩ | ⟨h1, h2⟩
        · exact Or.inr (Or.inr ⟨by omega, h2⟩)
        · exact Or.inr (Or.inl ⟨by omega, by omega⟩))
  unfold d2y
  rw [hostDivf_apply, addf_apply, subf_apply, mulf_apply, twos_apply, ones_apply, e0, e1, e2, div_one]
  rfl

/-- The Laplacian of the batch is, on image B, the Laplacian of that image. -/
theorem lap_apply (a : FVec Ideal S64x1x256x256 .f32) (B : Fin 64) (r c : Fin 256) :
    lap (F := Ideal) a (ix4 B (0 : Fin 1) r c) = lapl (fun r c => a (ix4 B (0 : Fin 1) r c)) r c := by
  unfold lap
  rw [addf_apply, d2x_apply, d2y_apply]
  rfl

/-- Image B of the batch's Laplacian, as an image. -/
theorem lap_image (a : FVec Ideal S64x1x256x256 .f32) (B : Fin 64) :
    (fun r c => lap (F := Ideal) a (ix4 B (0 : Fin 1) r c)) = lapl (fun r c => a (ix4 B (0 : Fin 1) r c)) :=
  funext fun r => funext fun c => lap_apply a B r c

end Cert.Stencil.Ref

namespace Cert.Stencil

open Idealize.ShloMosaic Idealize.ShloMosaic.ValueIdx
open Cert.ReferenceIdeal Cert.ReferenceIdeal.Spec Cert.Stencil.Ref

/-- THE REFERENCE'S IMAGE STAGE AT ONE PIXEL: the residual of the batch, read at pixel (r, c) of image B, is the
    residual of image B of the field against image B of the data. -/
theorem ref_eq (f p : FVec Ideal Cert.ReferenceIdeal.S64x1x256x256 .f32) (B : Fin 64) (r c : Fin 256) :
    Cert.ReferenceIdeal.Spec.residual (F := Ideal) f p (ix4 B (0 : Fin 1) r c)
      = res (fun r c => f (ix4 B (0 : Fin 1) r c)) (fun r c => p (ix4 B (0 : Fin 1) r c)) r c := by
  unfold Cert.ReferenceIdeal.Spec.residual
  rw [subf_apply, addf_apply, addf_apply, mulf_apply, mulf_apply, mulf_apply, addf_apply, ones_apply,
    d2x_apply, d2y_apply, lap_apply, lap_image]
  rfl

end Cert.Stencil

end
-- ==== Proof.KRegion2.lean ====
/-
  The third launch, read as a value.  Its grid runs over 8 batch tiles of 8 images: at tile t the body reads images
  8 t … 8 t + 7 of the field and of the load, and stores the residual of each image against the matching load image.
  The stencil never leaves an image, so image b of tile t depends only on image 8 t + b of the two arrays: it is
  the one-image residual of that image, and so is the reference's residual at the same image.  Image n is in tile
  n / 8, the tiles cover the output, so the output after the launch is the reference's residual of the two arrays the
  launch finds.
-/
import proofs.«158022_j23837068493026_2_alg».proof.Proof.Gen.KernelIdeal.Frame
import proofs.«158022_j23837068493026_2_alg».proof.Proof.KRegion0
import proofs.«158022_j23837068493026_2_alg».proof.Proof.StencilKernel
import proofs.«158022_j23837068493026_2_alg».proof.Proof.StencilRef
import proofs.«158022_j23837068493026_2_alg».proof.Proof.RefSpec
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero4 : (![0, 0, 0, 0] : Fin 4 → Nat) = fun _ => 0 := funext fun a => by fin_cases a <;> rfl

theorem lt8 (t : Fin cfg2.N) : t.val < 8 := lt_of_lt_of_eq t.isLt N_2

/-- Each of the three windows moves with the grid point along the batch axis and stays put on the other three. -/
theorem idx2_0 : ∀ t : Fin cfg2.N, win2_0.index t (0 : Fin 4) = t.val ∧ win2_0.index t (1 : Fin 4) = 0
    ∧ win2_0.index t (2 : Fin 4) = 0 ∧ win2_0.index t (3 : Fin 4) = 0 :=
  (by decide +kernel : ∀ t : Fin grid2.N, _)
theorem idx2_1 : ∀ t : Fin cfg2.N, win2_1.index t (0 : Fin 4) = t.val ∧ win2_1.index t (1 : Fin 4) = 0
    ∧ win2_1.index t (2 : Fin 4) = 0 ∧ win2_1.index t (3 : Fin 4) = 0 :=
  (by decide +kernel : ∀ t : Fin grid2.N, _)
theorem idx2_2 : ∀ t : Fin cfg2.N, win2_2.index t (0 : Fin 4) = t.val ∧ win2_2.index t (1 : Fin 4) = 0
    ∧ win2_2.index t (2 : Fin 4) = 0 ∧ win2_2.index t (3 : Fin 4) = 0 :=
  (by decide +kernel : ∀ t : Fin grid2.N, _)

/-- Window 0's block at grid point t, read at (b, 0, r, c): the array's image t·8 + b at (r, c). -/
theorem blk2_0_at (c : Dev nD) (t : Fin cfg2.N) (b : Fin 8) (r cc : Fin 256) :
    (iblk2 V c 0 t : S8x1x256x256.Idx → EReal) (ix4 b (0 : Fin 1) r cc)
      = (V c main_v3 : S64x1x256x256.Idx → EReal) (ix4 (⟨t.val * 8 + b.val, by have := lt8 t; omega⟩ : Fin 64) (0 : Fin 1) r cc) := by
  obtain ⟨e0, e1, e2, e3⟩ := idx2_0 t
  show V c main_v3 (((cfg2.win 0).blk t).view.emb (ix4 b (0 : Fin 1) r cc)) = _
  refine congrArg _ (funext fun a => Fin.ext ?_)
  match a with
    | ⟨0, _⟩ => show win2_0.index t (0 : Fin 4) * 8 + 1 * b.val = t.val * 8 + b.val; rw [e0]; omega
    | ⟨1, _⟩ => show win2_0.index t (1 : Fin 4) * 1 + 1 * (0 : Fin 1).val = (0 : Fin 1).val; rw [e1]; rfl
    | ⟨2, _⟩ => show win2_0.index t (2 : Fin 4) * 256 + 1 * r.val = r.val; rw [e2]; omega
    | ⟨3, _⟩ => show win2_0.index t (3 : Fin 4) * 256 + 1 * cc.val = cc.val; rw [e3]; omega

/-- Window 1's block at grid point t, read at (b, 0, r, c): the array's image t·8 + b at (r, c). -/
theorem blk2_1_at (c : Dev nD) (t : Fin cfg2.N) (b : Fin 8) (r cc : Fin 256) :
    (iblk2 V c 1 t : S8x1x256x256.Idx → EReal) (ix4 b (0 : Fin 1) r cc)
      = (V c main_v4 : S64x1x256x256.Idx → EReal) (ix4 (⟨t.val * 8 + b.val, by have := lt8 t; omega⟩ : Fin 64) (0 : Fin 1) r cc) := by
  obtain ⟨e0, e1, e2, e3⟩ := idx2_1 t
  show V c main_v4 (((cfg2.win 1).blk t).view.emb (ix4 b (0 : Fin 1) r cc)) = _
  refine congrArg _ (funext fun a => Fin.ext ?_)
  match a with
    | ⟨0, _⟩ => show win2_1.index t (0 : Fin 4) * 8 + 1 * b.val = t.val * 8 + b.val; rw [e0]; omega
    | ⟨1, _⟩ => show win2_1.index t (1 : Fin 4) * 1 + 1 * (0 : Fin 1).val = (0 : Fin 1).val; rw [e1]; rfl
    | ⟨2, _⟩ => show win2_1.index t (2 : Fin 4) * 256 + 1 * r.val = r.val; rw [e2]; omega
    | ⟨3, _⟩ => show win2_1.index t (3 : Fin 4) * 256 + 1 * cc.val = cc.val; rw [e3]; omega

/-- The output array after the third launch: the reference's residual of the two image arrays at the launch's entry. -/
abbrev G2 (c : Dev nD) : S64x1x256x256.Idx → EReal :=
  Cert.ReferenceIdeal.Spec.residual (F := Ideal) (V c main_v3) (V c main_v4)

/-- What grid point `t` writes back is batch tile `t` of `G2`. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero zero4]
  simp only [View.ld_unit_zero (S := S8x1x256x256) zero4]
  have ht := lt8 t
  obtain ⟨e0, e1, e2, e3⟩ := idx2_2 t
  funext j
  obtain ⟨b, u, r, cc, rfl⟩ : ∃ (b : Fin 8) (u : Fin 1) (r cc : Fin 256), j = ix4 b u r cc := ⟨j 0, j 1, j 2, j 3, eq_ix4 j⟩
  obtain rfl : u = 0 := Subsingleton.elim _ _
  have e : ((cfg2.win 2).blk t).view.emb (ix4 b (0 : Fin 1) r cc)
      = (ix4 (⟨t.val * 8 + b.val, by omega⟩ : Fin 64) (0 : Fin 1) r cc : S64x1x256x256.Idx) := by
    refine funext fun a => Fin.ext ?_
    match a with
      | ⟨0, _⟩ => show win2_2.index t (0 : Fin 4) * 8 + 1 * b.val = t.val * 8 + b.val; rw [e0]; omega
      | ⟨1, _⟩ => show win2_2.index t (1 : Fin 4) * 1 + 1 * (0 : Fin 1).val = (0 : Fin 1).val; rw [e1]; rfl
      | ⟨2, _⟩ => show win2_2.index t (2 : Fin 4) * 256 + 1 * r.val = r.val; rw [e2]; omega
      | ⟨3, _⟩ => show win2_2.index t (3 : Fin 4) * 256 + 1 * cc.val = cc.val; rw [e3]; omega
  show k2_pay1 (F := Ideal) (k2_pay2 (iblk2 V c 0 t)) (k2_pay3 (iblk2 V c 0 t)) (k2_pay4 (iblk2 V c 0 t)) (k2_pay5 (iblk2 V c 0 t))
      (k2_pay6 (iblk2 V c 0 t)) (iblk2 V c 1 t) (ix4 b (0 : Fin 1) r cc) = G2 V c (((cfg2.win 2).blk t).view.emb (ix4 b (0 : Fin 1) r cc))
  rw [e]
  refine (Cert.Stencil.ker_eq (iblk2 V c 0 t) (iblk2 V c 1 t) b r cc).trans
    (Eq.trans ?_ (Cert.Stencil.ref_eq (V c main_v3) (V c main_v4) ⟨t.val * 8 + b.val, by omega⟩ r cc).symm)
  have h0 : (fun r cc => (iblk2 V c 0 t : S8x1x256x256.Idx → EReal) (ix4 b (0 : Fin 1) r cc))
      = fun r cc => (V c main_v3 : S64x1x256x256.Idx → EReal) (ix4 (⟨t.val * 8 + b.val, by omega⟩ : Fin 64) (0 : Fin 1) r cc) :=
    funext fun r => funext fun cc => blk2_0_at V c t b r cc
  have h1 : (fun r cc => (iblk2 V c 1 t : S8x1x256x256.Idx → EReal) (ix4 b (0 : Fin 1) r cc))
      = fun r cc => (V c main_v4 : S64x1x256x256.Idx → EReal) (ix4 (⟨t.val * 8 + b.val, by omega⟩ : Fin 64) (0 : Fin 1) r cc) :=
    funext fun r => funext fun cc => blk2_1_at V c t b r cc
  exact congrArg₂ (fun g q => Cert.Stencil.res g q r cc) h0 h1

/-- The 8 batch tiles cover the output array: image n is in tile n / 8. -/
theorem cover2 (i : S64x1x256x256.Idx) : ∃ t : Fin cfg2.N, (cfg2.win 2).flush t = true ∧ i ∈ ((cfg2.win 2).blk t).view.set := by
  have hi0 : (i 0).val < 64 := (i 0).isLt
  have hi1 : (i 1).val < 1 := (i 1).isLt
  have hi2 : (i 2).val < 256 := (i 2).isLt
  have hi3 : (i 3).val < 256 := (i 3).isLt
  have hlt : (i 0).val / 8 < cfg2.N := by show _ < grid2.N; rw [N_2]; omega
  refine ⟨⟨(i 0).val / 8, hlt⟩, flush2_2 _, ?_⟩
  obtain ⟨e0, e1, e2, e3⟩ := idx2_2 ⟨(i 0).val / 8, hlt⟩
  have e0' : win2_2.index ⟨(i 0).val / 8, hlt⟩ (0 : Fin 4) = (i 0).val / 8 := e0
  show i ∈ ((View.whole main_v5).slice (win2_2.rect ⟨(i 0).val / 8, hlt⟩)).set
  rw [View.set_slice_whole, Rect.mem_set_unit]
  intro a
  match a with
    | ⟨0, _⟩ => show win2_2.index ⟨(i 0).val / 8, hlt⟩ (0 : Fin 4) * 8 ≤ (i 0).val ∧ (i 0).val < win2_2.index ⟨(i 0).val / 8, hlt⟩ (0 : Fin 4) * 8 + 8; rw [e0']; omega
    | ⟨1, _⟩ => show win2_2.index ⟨(i 0).val / 8, hlt⟩ (1 : Fin 4) * 1 ≤ (i 1).val ∧ (i 1).val < win2_2.index ⟨(i 0).val / 8, hlt⟩ (1 : Fin 4) * 1 + 1; rw [e1]; omega
    | ⟨2, _⟩ => show win2_2.index ⟨(i 0).val / 8, hlt⟩ (2 : Fin 4) * 256 ≤ (i 2).val ∧ (i 2).val < win2_2.index ⟨(i 0).val / 8, hlt⟩ (2 : Fin 4) * 256 + 256; rw [e2]; omega
    | ⟨3, _⟩ => show win2_2.index ⟨(i 0).val / 8, hlt⟩ (3 : Fin 4) * 256 ≤ (i 3).val ∧ (i 3).val < win2_2.index ⟨(i 0).val / 8, hlt⟩ (3 : Fin 4) * 256 + 256; rw [e3]; omega

/-- The output array after the third launch. -/
theorem final2 (c : Dev nD) : (dat2 V c).arrAt 2 cfg2.N = G2 V c :=
  (dat2 V c).arrAt_eq_of_cover 2 (G2 V c) (fun t _ => flushed2_eq V c t) (cover2)

end Cert.KernelIdeal.KValue

end
-- ==== Proof.KernelValue.lean ====
/-
  The kernel program's result as a function of its arguments.  Reading the chain of boundary contents link by link:
  the first launch leaves the hidden activations (three rectified dense layers of the arguments); a reshape turns the
  last bias vector into one row; the second launch leaves the field (the last, linear layer); two reshapes read the
  field and the load as batches of images; the third launch leaves the residual images; a last reshape reads them back as
  rows.  Each link is the reference's own stage of the same inputs, so the result is the reference's whole
  computation of the ten arguments.
-/
import proofs.«158022_j23837068493026_2_alg».proof.Proof.KernelRun
import proofs.«158022_j23837068493026_2_alg».proof.Proof.KRegion0
import proofs.«158022_j23837068493026_2_alg».proof.Proof.KRegion1
import proofs.«158022_j23837068493026_2_alg».proof.Proof.KRegion2
import proofs.«158022_j23837068493026_2_alg».proof.Proof.Dense
import proofs.«158022_j23837068493026_2_alg».proof.Proof.RefSpec
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.ValueIdx

variable (m : (ℓ : Loc nD τ sig) → Buf (Elt Ideal) ℓ) (ρ : Dev nD → PrngReg)

/-- After the first launch its output array holds the hidden activations of the arguments. -/
theorem hidden_at (c : Dev nD) :
    W1 m ρ c (Proc.devRef .tc main_v0)
      = Cert.ReferenceIdeal.Spec.hidden (F := Ideal) (m ((c : Thread nD τ).loc main_arg0)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  (W1_arr m ρ c 7).trans ((final0 (V0 m ρ) c).trans (Cert.Dense.hidden_eq _ _ _ _ _ _ _))

/-- The first launch touches none of the arguments it does not read: the last weights, the last bias and the load. -/
theorem arg8_at1 (c : Dev nD) : W1 m ρ c (Proc.devRef .tc main_arg8) = m ((c : Thread nD τ).loc main_arg8) :=
  W1_of_ne m ρ c main_arg8 (by decide)
theorem arg9_at1 (c : Dev nD) : W1 m ρ c (Proc.devRef .tc main_arg9) = m ((c : Thread nD τ).loc main_arg9) :=
  W1_of_ne m ρ c main_arg9 (by decide)
theorem arg1_at1 (c : Dev nD) : W1 m ρ c (Proc.devRef .tc main_arg1) = m ((c : Thread nD τ).loc main_arg1) :=
  W1_of_ne m ρ c main_arg1 (by decide)

/-- At the second launch's entry: the activations and the weights as the first launch left them, -/
theorem v0_at2 (c : Dev nD) : V2 m ρ c main_v0 = W1 m ρ c (Proc.devRef .tc main_v0) := by
  show StableHlo.after hostOps1 (W1 m ρ c) (Proc.devRef .tc main_v0) = _
  dsimp only [hostOps1]
  after_results
theorem arg8_at2 (c : Dev nD) : V2 m ρ c main_arg8 = W1 m ρ c (Proc.devRef .tc main_arg8) := by
  show StableHlo.after hostOps1 (W1 m ρ c) (Proc.devRef .tc main_arg8) = _
  dsimp only [hostOps1]
  after_results
theorem arg1_at2 (c : Dev nD) : W2 m ρ c (Proc.devRef .tc main_arg1) = W1 m ρ c (Proc.devRef .tc main_arg1) := by
  show StableHlo.after hostOps1 (W1 m ρ c) (Proc.devRef .tc main_arg1) = _
  dsimp only [hostOps1]
  after_results

/-- and the bias row, whose entry (0, q) is the bias vector's entry q. -/
theorem v1_at2 (c : Dev nD) (q : Fin 65536) :
    (V2 m ρ c main_v1 : S1x65536.Idx → EReal) (ix2 (0 : Fin 1) q) = (m ((c : Thread nD τ).loc main_arg9) : S65536.Idx → EReal) (ix1 q) := by
  have e : (V2 m ρ c main_v1 : S1x65536.Idx → EReal)
      = shapeCast S1x65536 (W1 m ρ c (Proc.devRef .tc main_arg9) : S65536.Idx → EReal) Facts₀.shapeCasts_S65536_S1x65536 := by
    show StableHlo.after hostOps1 (W1 m ρ c) (Proc.devRef .tc main_v1) = _
    dsimp only [hostOps1]
    after_results
    rfl
  rw [e, arg9_at1]
  exact shapeCast_a_1a_apply _ _ 0 q

/-- After the second launch its output array holds the field of the arguments. -/
theorem field_at (c : Dev nD) :
    W3 m ρ c (Proc.devRef .tc main_v2)
      = Cert.ReferenceIdeal.Spec.field (F := Ideal)
          (Cert.ReferenceIdeal.Spec.hidden (F := Ideal) (m ((c : Thread nD τ).loc main_arg0)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)))
          (m ((c : Thread nD τ).loc main_arg8)) (m ((c : Thread nD τ).loc main_arg9)) := by
  refine (W3_arr m ρ c 3).trans ((final1 (V2 m ρ) c (m ((c : Thread nD τ).loc main_arg9)) (v1_at2 m ρ c)).trans ?_)
  show Cert.ReferenceIdeal.Spec.field (F := Ideal) (V2 m ρ c main_v0) (V2 m ρ c main_arg8) _ = _
  rw [v0_at2, hidden_at, arg8_at2, arg8_at1]

/-- The second launch does not touch the load either. -/
theorem arg1_at3 (c : Dev nD) : W3 m ρ c (Proc.devRef .tc main_arg1) = m ((c : Thread nD τ).loc main_arg1) :=
  (W3_of_ne m ρ c main_arg1 (by decide)).trans ((arg1_at2 m ρ c).trans (arg1_at1 m ρ c))

/-- At the third launch's entry: the field and the load, each read as a batch of images. -/
theorem v3_at4 (c : Dev nD) :
    (V4 m ρ c main_v3 : S64x1x256x256.Idx → EReal) = Cert.ReferenceIdeal.Spec.toImages (F := Ideal) (W3 m ρ c (Proc.devRef .tc main_v2)) := by
  show StableHlo.after hostOps2 (W3 m ρ c) (Proc.devRef .tc main_v3) = _
  dsimp only [hostOps2]
  after_results
  rfl
theorem v4_at4 (c : Dev nD) :
    (V4 m ρ c main_v4 : S64x1x256x256.Idx → EReal) = Cert.ReferenceIdeal.Spec.toImages (F := Ideal) (W3 m ρ c (Proc.devRef .tc main_arg1)) := by
  show StableHlo.after hostOps2 (W3 m ρ c) (Proc.devRef .tc main_v4) = _
  dsimp only [hostOps2]
  after_results
  rfl

/-- After the third launch its output array holds the residual images. -/
theorem residual_at (c : Dev nD) :
    W5 m ρ c (Proc.devRef .tc main_v5)
      = Cert.ReferenceIdeal.Spec.residual (F := Ideal) (Cert.ReferenceIdeal.Spec.toImages (F := Ideal) (W3 m ρ c (Proc.devRef .tc main_v2)))
          (Cert.ReferenceIdeal.Spec.toImages (F := Ideal) (m ((c : Thread nD τ).loc main_arg1))) := by
  refine (W5_arr m ρ c 2).trans ((final2 (V4 m ρ) c).trans ?_)
  show Cert.ReferenceIdeal.Spec.residual (F := Ideal) (V4 m ρ c main_v3) (V4 m ρ c main_v4) = _
  rw [v3_at4, v4_at4, arg1_at3]

/-- The result buffer at the end of the chain: the residual images read back as rows. -/
theorem result_at (c : Dev nD) :
    (W6 m ρ c (Proc.devRef .tc main_v6) : S64x65536.Idx → EReal) = Cert.ReferenceIdeal.Spec.toRows (F := Ideal) (W5 m ρ c (Proc.devRef .tc main_v5)) := by
  show StableHlo.after hostOps3 (W5 m ρ c) (Proc.devRef .tc main_v6) = _
  dsimp only [hostOps3]
  after_results
  rfl

/-- THE VALUE: the result buffer ends holding the reference's whole computation of the ten arguments. -/
theorem value (c : Dev nD) :
    W6 m ρ c (Proc.devRef .tc main_v6)
      = Cert.ReferenceIdeal.Spec.out (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (result_at m ρ c).trans ?_
  rw [residual_at, field_at]
  rfl

/-- The kernel program's run with its result at the reference's function of the arguments. -/
theorem run : θ_run defs (onTc (τ := τ) (main (F := Ideal))) ⟨m, fun _ => 0, ρ⟩ (fun r => ∀ c : Dev nD,
      r.2.mem ((c.tc : Thread nD τ).loc main_v6)
          = Cert.ReferenceIdeal.Spec.out (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (run_named m ρ)

end Cert.KernelIdeal.KValue

end
-- ==== Proof.RefRun.lean ====
/-
  The reference program's run, read back.

  The reference's @main is a straight line of 123 array operations once its calls are replaced by the callees'
  bodies (three rectifiers of three operations each, four reflecting pads of eight operations each, every pad
  holding two reversals of a unit-width strip).  Such a line, run from any memory, ends with every buffer at the
  fold of the operations' results over the starting contents.  The fold is read in four consecutive stretches:

    A  the four dense layers and the change of view to images        (result: the field f, as images)
    B  the two padded second differences of f and their sum          (results: d2x f, d2y f, lap f)
    C  the same on lap f                                             (result: lap (lap f))
    D  the weighted sum, the subtraction of the target and the change of view back to rows.

  Each stretch is read from an ARBITRARY starting valuation, so the next stretch can be read over whatever the
  previous one left; a stretch leaves untouched every buffer it does not write.  Composing the four readings gives
  the composed function of the ten argument arrays, which is the specification's by unfolding its definitions:
  no arithmetic is involved anywhere.
-/
import proofs.«158022_j23837068493026_2_alg».proof.Proof.RefSpec
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! ## The four concatenations, as functions of their two arrays

Each pad concatenates two arrays along one axis, twice.  The four concatenations that occur, each as a function of its
two arrays (the list of shape-array pairs the general concatenation takes is built inside). -/

/-- A one-column strip in front of an image, along a row. -/
def catXfront : (⟨S64x1x256x1, .f32⟩ : BufTy).Contents (Elt F) → (⟨S64x1x256x256, .f32⟩ : BufTy).Contents (Elt F) → (⟨S64x1x256x257, .f32⟩ : BufTy).Contents (Elt F) :=
  fun a b => concatenate S64x1x256x257 3 [⟨S64x1x256x1, a⟩, ⟨S64x1x256x256, b⟩] concatenates_S64x1x256x1_S64x1x256x256_S64x1x256x257_d3

/-- A one-column strip behind the widened image, along a row. -/
def catXback : (⟨S64x1x256x257, .f32⟩ : BufTy).Contents (Elt F) → (⟨S64x1x256x1, .f32⟩ : BufTy).Contents (Elt F) → (⟨S64x1x256x258, .f32⟩ : BufTy).Contents (Elt F) :=
  fun a b => concatenate S64x1x256x258 3 [⟨S64x1x256x257, a⟩, ⟨S64x1x256x1, b⟩] concatenates_S64x1x256x257_S64x1x256x1_S64x1x256x258_d3

/-- A one-row strip on top of an image, along a column. -/
def catYfront : (⟨S64x1x1x256, .f32⟩ : BufTy).Contents (Elt F) → (⟨S64x1x256x256, .f32⟩ : BufTy).Contents (Elt F) → (⟨S64x1x257x256, .f32⟩ : BufTy).Contents (Elt F) :=
  fun a b => concatenate S64x1x257x256 2 [⟨S64x1x1x256, a⟩, ⟨S64x1x256x256, b⟩] concatenates_S64x1x1x256_S64x1x256x256_S64x1x257x256_d2

/-- A one-row strip below the heightened image, along a column. -/
def catYback : (⟨S64x1x257x256, .f32⟩ : BufTy).Contents (Elt F) → (⟨S64x1x1x256, .f32⟩ : BufTy).Contents (Elt F) → (⟨S64x1x258x256, .f32⟩ : BufTy).Contents (Elt F) :=
  fun a b => concatenate S64x1x258x256 2 [⟨S64x1x257x256, a⟩, ⟨S64x1x1x256, b⟩] concatenates_S64x1x257x256_S64x1x1x256_S64x1x258x256_d2

/-- The fold over two lines in a row is the second line's fold over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The operations, stretch by stretch -/

/-- Stretch A, 26 operations: three times (product with the weights, the bias broadcast along the batch, their sum, the maximum with a broadcast zero), the fourth product and bias without a maximum, and the rows read as images. -/
abbrev opsA : List (HloOp τ sig (Elt F)) :=
  [ StableHlo.binary main_arg0 main_arg2 main_v0 ((fun l r => Host.dotGeneral dot_S64x2_S2x256_S64x256_1_0_0_1_n_n none l r) : (⟨S64x2, .f32⟩ : BufTy).Contents (Elt F) → (⟨S2x256, .f32⟩ : BufTy).Contents (Elt F) → (⟨S64x256, .f32⟩ : BufTy).Contents (Elt F)),
    StableHlo.unary main_arg3 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S64x256 ![0, 1] bcast_S1x256_S64x256_0_1 : (⟨S1x256, .f32⟩ : BufTy).Contents (Elt F) → (⟨S64x256, .f32⟩ : BufTy).Contents (Elt F)),
    StableHlo.binary main_v0 main_v2 main_v3 (addf : (⟨S64x256, .f32⟩ : BufTy).Contents (Elt F) → (⟨S64x256, .f32⟩ : BufTy).Contents (Elt F) → (⟨S64x256, .f32⟩ : BufTy).Contents (Elt F)),
    StableHlo.TRef.nullary main_call0.cst (constant S_ .f32 0x00000000#32),
    StableHlo.TRef.unary main_call0.cst main_call0.v0 (broadcastInDim S64x256 ![] bcast_S_S64x256),
    StableHlo.TRef.binary (.of main_v3 : StableHlo.TRef sig ⟨S64x256, .f32⟩) main_call0.v0 main_call0.v1 maximumf,
    StableHlo.binary main_v4 main_arg4 main_v5 ((fun l r => Host.dotGeneral dot_S64x256_S256x512_S64x512_1_0_0_1_n_n none l r) : (⟨S64x256, .f32⟩ : BufTy).Contents (Elt F) → (⟨S256x512, .f32⟩ : BufTy).Contents (Elt F) → (⟨S64x512, .f32⟩ : BufTy).Contents (Elt F)),
    StableHlo.unary main_arg5 main_v6 (broadcastInDim S1x512 ![1] bcast_S512_S1x512_1 : (⟨S512, .f32⟩ : BufTy).Contents (Elt F) → (⟨S1x512, .f32⟩ : BufTy).Contents (Elt F)),
    StableHlo.unary main_v6 main_v7 (broadcastInDim S64x512 ![0, 1] bcast_S1x512_S64x512_0_1 : (⟨S1x512, .f32⟩ : BufTy).Contents (Elt F) → (⟨S64x512, .f32⟩ : BufTy).Contents (Elt F)),
    StableHlo.binary main_v5 main_v7 main_v8 (addf : (⟨S64x512, .f32⟩ : BufTy).Contents (Elt F) → (⟨S64x512, .f32⟩ : BufTy).Contents (Elt F) → (⟨S64x512, .f32⟩ : BufTy).Contents (Elt F)),
    StableHlo.TRef.nullary main_call1.cst (constant S_ .f32 0x00000000#32),
    StableHlo.TRef.unary main_call1.cst main_call1.v0 (broadcastInDim S64x512 ![] bcast_S_S64x512),
    StableHlo.TRef.binary (.of main_v8 : StableHlo.TRef sig ⟨S64x512, .f32⟩) main_call1.v0 main_call1.v1 maximumf,
    StableHlo.binary main_v9 main_arg6 main_v10 ((fun l r => Host.dotGeneral dot_S64x512_S512x1024_S64x1024_1_0_0_1_n_n none l r) : (⟨S64x512, .f32⟩ : BufTy).Contents (Elt F) → (⟨S512x1024, .f32⟩ : BufTy).Contents (Elt F) → (⟨S64x1024, .f32⟩ : BufTy).Contents (Elt F)),
    StableHlo.unary main_arg7 main_v11 (broadcastInDim S1x1024 ![1] bcast_S1024_S1x1024_1 : (⟨S1024, .f32⟩ : BufTy).Contents (Elt F) → (⟨S1x1024, .f32⟩ : BufTy).Contents (Elt F)),
    StableHlo.unary main_v11 main_v12 (broadcastInDim S64x1024 ![0, 1] bcast_S1x1024_S64x1024_0_1 : (⟨S1x1024, .f32⟩ : BufTy).Contents (Elt F) → (⟨S64x1024, .f32⟩ : BufTy).Contents (Elt F)),
    StableHlo.binary main_v10 main_v12 main_v13 (addf : (⟨S64x1024, .f32⟩ : BufTy).Contents (Elt F) → (⟨S64x1024, .f32⟩ : BufTy).Contents (Elt F) → (⟨S64x1024, .f32⟩ : BufTy).Contents (Elt F)),
    StableHlo.TRef.nullary main_call2.cst (constant S_ .f32 0x00000000#32),
    StableHlo.TRef.unary main_call2.cst main_call2.v0 (broadcastInDim S64x1024 ![] bcast_S_S64x1024),
    StableHlo.TRef.binary (.of main_v13 : StableHlo.TRef sig ⟨S64x1024, .f32⟩) main_call2.v0 main_call2.v1 maximumf,
    StableHlo.binary main_v14 main_arg8 main_v15 ((fun l r => Host.dotGeneral dot_S64x1024_S1024x65536_S64x65536_1_0_0_1_n_n none l r) : (⟨S64x1024, .f32⟩ : BufTy).Contents (Elt F) → (⟨S1024x65536, .f32⟩ : BufTy).Contents (Elt F) → (⟨S64x65536, .f32⟩ : BufTy).Contents (Elt F)),
    StableHlo.unary main_arg9 main_v16 (broadcastInDim S1x65536 ![1] bcast_S65536_S1x65536_1 : (⟨S65536, .f32⟩ : BufTy).Contents (Elt F) → (⟨S1x65536, .f32⟩ : BufTy).Contents (Elt F)),
    StableHlo.unary main_v16 main_v17 (broadcastInDim S64x65536 ![0, 1] bcast_S1x65536_S64x65536_0_1 : (⟨S1x65536, .f32⟩ : BufTy).Contents (Elt F) → (⟨S64x65536, .f32⟩ : BufTy).Contents (Elt F)),
    StableHlo.binary main_v15 main_v17 main_v18 (addf : (⟨S64x65536, .f32⟩ : BufTy).Contents (Elt F) → (⟨S64x65536, .f32⟩ : BufTy).Contents (Elt F) → (⟨S64x65536, .f32⟩ : BufTy).Contents (Elt F)),
    StableHlo.reshape main_v18 main_v19 rfl shapeCasts_S64x65536_S64x1x256x256 ]

/-- Stretch B, 41 operations, on the images f: a column reflected in front and behind (a strip sliced off, reversed along its unit axis, concatenated; twice), the three shifted copies, `((left - 2 mid) + right) / 1`; the same along rows; the sum of the two. -/
abbrev opsB : List (HloOp τ sig (Elt F)) :=
  [ StableHlo.nullary main_c (constantI S_ 32 0#32),
    StableHlo.TRef.unary (.of main_v19 : StableHlo.TRef sig ⟨S64x1x256x256, .f32⟩) main_call3.v0 (extractStridedSlice S64x1x256x1 ![0, 0, 0, 0] · slices_S64x1x256x256_S64x1x256x1_0_0_0_0),
    StableHlo.TRef.unary (.of main_v19 : StableHlo.TRef sig ⟨S64x1x256x256, .f32⟩) main_call3.v1 (extractStridedSlice S64x1x256x1 ![0, 0, 0, 1] · slices_S64x1x256x256_S64x1x256x1_0_0_0_1),
    StableHlo.TRef.unary main_call3.v1 main_call3.call0.v0 (Host.reverse [3]),
    StableHlo.TRef.binary main_call3.call0.v0 (.of main_v19 : StableHlo.TRef sig ⟨S64x1x256x256, .f32⟩) main_call3.v3 catXfront,
    StableHlo.TRef.unary main_call3.v3 main_call3.v4 (extractStridedSlice S64x1x256x1 ![0, 0, 0, 256] · slices_S64x1x256x257_S64x1x256x1_0_0_0_256),
    StableHlo.TRef.unary main_call3.v3 main_call3.v5 (extractStridedSlice S64x1x256x1 ![0, 0, 0, 255] · slices_S64x1x256x257_S64x1x256x1_0_0_0_255),
    StableHlo.TRef.unary main_call3.v5 main_call3.call1.v0 (Host.reverse [3]),
    StableHlo.TRef.binary main_call3.v3 main_call3.call1.v0 main_call3.v7 catXback,
    StableHlo.unary main_v20 main_v21 ((extractStridedSlice S64x1x256x256 ![0, 0, 0, 0] · slices_S64x1x256x258_S64x1x256x256_0_0_0_0) : (⟨S64x1x256x258, .f32⟩ : BufTy).Contents (Elt F) → (⟨S64x1x256x256, .f32⟩ : BufTy).Contents (Elt F)),
    StableHlo.unary main_v20 main_v22 ((extractStridedSlice S64x1x256x256 ![0, 0, 0, 1] · slices_S64x1x256x258_S64x1x256x256_0_0_0_1) : (⟨S64x1x256x258, .f32⟩ : BufTy).Contents (Elt F) → (⟨S64x1x256x256, .f32⟩ : BufTy).Contents (Elt F)),
    StableHlo.nullary main_cst (constant S_ .f32 0x40000000#32),
    StableHlo.unary main_cst main_v23 (broadcastInDim S64x1x256x256 ![] bcast_S_S64x1x256x256 : (⟨S_, .f32⟩ : BufTy).Contents (Elt F) → (⟨S64x1x256x256, .f32⟩ : BufTy).Contents (Elt F)),
    StableHlo.binary main_v23 main_v22 main_v24 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v21 main_v24 main_v25 (subf : (⟨S64x1x256x256, .f32⟩ : BufTy).Contents (Elt F) → (⟨S64x1x256x256, .f32⟩ : BufTy).Contents (Elt F) → (⟨S64x1x256x256, .f32⟩ : BufTy).Contents (Elt F)),
    StableHlo.unary main_v20 main_v26 ((extractStridedSlice S64x1x256x256 ![0, 0, 0, 2] · slices_S64x1x256x258_S64x1x256x256_0_0_0_2) : (⟨S64x1x256x258, .f32⟩ : BufTy).Contents (Elt F) → (⟨S64x1x256x256, .f32⟩ : BufTy).Contents (Elt F)),
    StableHlo.binary main_v25 main_v26 main_v27 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_0 (constant S_ .f32 0x3F800000#32),
    StableHlo.unary main_cst_0 main_v28 (broadcastInDim S64x1x256x256 ![] bcast_S_S64x1x256x256 : (⟨S_, .f32⟩ : BufTy).Contents (Elt F) → (⟨S64x1x256x256, .f32⟩ : BufTy).Contents (Elt F)),
    StableHlo.binary main_v27 main_v28 main_v29 (Host.divf : (⟨S64x1x256x256, .f32⟩ : BufTy).Contents (Elt F) → (⟨S64x1x256x256, .f32⟩ : BufTy).Contents (Elt F) → (⟨S64x1x256x256, .f32⟩ : BufTy).Contents (Elt F)),
    StableHlo.nullary main_c_1 (constantI S_ 32 0#32),
    StableHlo.TRef.unary (.of main_v19 : StableHlo.TRef sig ⟨S64x1x256x256, .f32⟩) main_call4.v0 (extractStridedSlice S64x1x1x256 ![0, 0, 0, 0] · slices_S64x1x256x256_S64x1x1x256_0_0_0_0),
    StableHlo.TRef.unary (.of main_v19 : StableHlo.TRef sig ⟨S64x1x256x256, .f32⟩) main_call4.v1 (extractStridedSlice S64x1x1x256 ![0, 0, 1, 0] · slices_S64x1x256x256_S64x1x1x256_0_0_1_0),
    StableHlo.TRef.unary main_call4.v1 main_call4.call0.v0 (Host.reverse [2]),
    StableHlo.TRef.binary main_call4.call0.v0 (.of main_v19 : StableHlo.TRef sig ⟨S64x1x256x256, .f32⟩) main_call4.v3 catYfront,
    StableHlo.TRef.unary main_call4.v3 main_call4.v4 (extractStridedSlice S64x1x1x256 ![0, 0, 256, 0] · slices_S64x1x257x256_S64x1x1x256_0_0_256_0),
    StableHlo.TRef.unary main_call4.v3 main_call4.v5 (extractStridedSlice S64x1x1x256 ![0, 0, 255, 0] · slices_S64x1x257x256_S64x1x1x256_0_0_255_0),
    StableHlo.TRef.unary main_call4.v5 main_call4.call1.v0 (Host.reverse [2]),
    StableHlo.TRef.binary main_call4.v3 main_call4.call1.v0 main_call4.v7 catYback,
    StableHlo.unary main_v30 main_v31 ((extractStridedSlice S64x1x256x256 ![0, 0, 0, 0] · slices_S64x1x258x256_S64x1x256x256_0_0_0_0) : (⟨S64x1x258x256, .f32⟩ : BufTy).Contents (Elt F) → (⟨S64x1x256x256, .f32⟩ : BufTy).Contents (Elt F)),
    StableHlo.unary main_v30 main_v32 ((extractStridedSlice S64x1x256x256 ![0, 0, 1, 0] · slices_S64x1x258x256_S64x1x256x256_0_0_1_0) : (⟨S64x1x258x256, .f32⟩ : BufTy).Contents (Elt F) → (⟨S64x1x256x256, .f32⟩ : BufTy).Contents (Elt F)),
    StableHlo.nullary main_cst_2 (constant S_ .f32 0x40000000#32),
    StableHlo.unary main_cst_2 main_v33 (broadcastInDim S64x1x256x256 ![] bcast_S_S64x1x256x256 : (⟨S_, .f32⟩ : BufTy).Contents (Elt F) → (⟨S64x1x256x256, .f32⟩ : BufTy).Contents (Elt F)),
    StableHlo.binary main_v33 main_v32 main_v34 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v31 main_v34 main_v35 (subf : (⟨S64x1x256x256, .f32⟩ : BufTy).Contents (Elt F) → (⟨S64x1x256x256, .f32⟩ : BufTy).Contents (Elt F) → (⟨S64x1x256x256, .f32⟩ : BufTy).Contents (Elt F)),
    StableHlo.unary main_v30 main_v36 ((extractStridedSlice S64x1x256x256 ![0, 0, 2, 0] · slices_S64x1x258x256_S64x1x256x256_0_0_2_0) : (⟨S64x1x258x256, .f32⟩ : BufTy).Contents (Elt F) → (⟨S64x1x256x256, .f32⟩ : BufTy).Contents (Elt F)),
    StableHlo.binary main_v35 main_v36 main_v37 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_3 (constant S_ .f32 0x3F800000#32),
    StableHlo.unary main_cst_3 main_v38 (broadcastInDim S64x1x256x256 ![] bcast_S_S64x1x256x256 : (⟨S_, .f32⟩ : BufTy).Contents (Elt F) → (⟨S64x1x256x256, .f32⟩ : BufTy).Contents (Elt F)),
    StableHlo.binary main_v37 main_v38 main_v39 (Host.divf : (⟨S64x1x256x256, .f32⟩ : BufTy).Contents (Elt F) → (⟨S64x1x256x256, .f32⟩ : BufTy).Contents (Elt F) → (⟨S64x1x256x256, .f32⟩ : BufTy).Contents (Elt F)),
    StableHlo.binary main_v29 main_v39 main_v40 (addf : (⟨S64x1x256x256, .f32⟩ : BufTy).Contents (Elt F) → (⟨S64x1x256x256, .f32⟩ : BufTy).Contents (Elt F) → (⟨S64x1x256x256, .f32⟩ : BufTy).Contents (Elt F)) ]

/-- Stretch C, 41 operations: stretch B's computation again, on its result. -/
abbrev opsC : List (HloOp τ sig (Elt F)) :=
  [ StableHlo.nullary main_c_4 (constantI S_ 32 0#32),
    StableHlo.TRef.unary (.of main_v40 : StableHlo.TRef sig ⟨S64x1x256x256, .f32⟩) main_call5.v0 (extractStridedSlice S64x1x256x1 ![0, 0, 0, 0] · slices_S64x1x256x256_S64x1x256x1_0_0_0_0),
    StableHlo.TRef.unary (.of main_v40 : StableHlo.TRef sig ⟨S64x1x256x256, .f32⟩) main_call5.v1 (extractStridedSlice S64x1x256x1 ![0, 0, 0, 1] · slices_S64x1x256x256_S64x1x256x1_0_0_0_1),
    StableHlo.TRef.unary main_call5.v1 main_call5.call0.v0 (Host.reverse [3]),
    StableHlo.TRef.binary main_call5.call0.v0 (.of main_v40 : StableHlo.TRef sig ⟨S64x1x256x256, .f32⟩) main_call5.v3 catXfront,
    StableHlo.TRef.unary main_call5.v3 main_call5.v4 (extractStridedSlice S64x1x256x1 ![0, 0, 0, 256] · slices_S64x1x256x257_S64x1x256x1_0_0_0_256),
    StableHlo.TRef.unary main_call5.v3 main_call5.v5 (extractStridedSlice S64x1x256x1 ![0, 0, 0, 255] · slices_S64x1x256x257_S64x1x256x1_0_0_0_255),
    StableHlo.TRef.unary main_call5.v5 main_call5.call1.v0 (Host.reverse [3]),
    StableHlo.TRef.binary main_call5.v3 main_call5.call1.v0 main_call5.v7 catXback,
    StableHlo.unary main_v41 main_v42 ((extractStridedSlice S64x1x256x256 ![0, 0, 0, 0] · slices_S64x1x256x258_S64x1x256x256_0_0_0_0) : (⟨S64x1x256x258, .f32⟩ : BufTy).Contents (Elt F) → (⟨S64x1x256x256, .f32⟩ : BufTy).Contents (Elt F)),
    StableHlo.unary main_v41 main_v43 ((extractStridedSlice S64x1x256x256 ![0, 0, 0, 1] · slices_S64x1x256x258_S64x1x256x256_0_0_0_1) : (⟨S64x1x256x258, .f32⟩ : BufTy).Contents (Elt F) → (⟨S64x1x256x256, .f32⟩ : BufTy).Contents (Elt F)),
    StableHlo.nullary main_cst_5 (constant S_ .f32 0x40000000#32),
    StableHlo.unary main_cst_5 main_v44 (broadcastInDim S64x1x256x256 ![] bcast_S_S64x1x256x256 : (⟨S_, .f32⟩ : BufTy).Contents (Elt F) → (⟨S64x1x256x256, .f32⟩ : BufTy).Contents (Elt F)),
    StableHlo.binary main_v44 main_v43 main_v45 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v42 main_v45 main_v46 (subf : (⟨S64x1x256x256, .f32⟩ : BufTy).Contents (Elt F) → (⟨S64x1x256x256, .f32⟩ : BufTy).Contents (Elt F) → (⟨S64x1x256x256, .f32⟩ : BufTy).Contents (Elt F)),
    StableHlo.unary main_v41 main_v47 ((extractStridedSlice S64x1x256x256 ![0, 0, 0, 2] · slices_S64x1x256x258_S64x1x256x256_0_0_0_2) : (⟨S64x1x256x258, .f32⟩ : BufTy).Contents (Elt F) → (⟨S64x1x256x256, .f32⟩ : BufTy).Contents (Elt F)),
    StableHlo.binary main_v46 main_v47 main_v48 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_6 (constant S_ .f32 0x3F800000#32),
    StableHlo.unary main_cst_6 main_v49 (broadcastInDim S64x1x256x256 ![] bcast_S_S64x1x256x256 : (⟨S_, .f32⟩ : BufTy).Contents (Elt F) → (⟨S64x1x256x256, .f32⟩ : BufTy).Contents (Elt F)),
    StableHlo.binary main_v48 main_v49 main_v50 (Host.divf : (⟨S64x1x256x256, .f32⟩ : BufTy).Contents (Elt F) → (⟨S64x1x256x256, .f32⟩ : BufTy).Contents (Elt F) → (⟨S64x1x256x256, .f32⟩ : BufTy).Contents (Elt F)),
    StableHlo.nullary main_c_7 (constantI S_ 32 0#32),
    StableHlo.TRef.unary (.of main_v40 : StableHlo.TRef sig ⟨S64x1x256x256, .f32⟩) main_call6.v0 (extractStridedSlice S64x1x1x256 ![0, 0, 0, 0] · slices_S64x1x256x256_S64x1x1x256_0_0_0_0),
    StableHlo.TRef.unary (.of main_v40 : StableHlo.TRef sig ⟨S64x1x256x256, .f32⟩) main_call6.v1 (extractStridedSlice S64x1x1x256 ![0, 0, 1, 0] · slices_S64x1x256x256_S64x1x1x256_0_0_1_0),
    StableHlo.TRef.unary main_call6.v1 main_call6.call0.v0 (Host.reverse [2]),
    StableHlo.TRef.binary main_call6.call0.v0 (.of main_v40 : StableHlo.TRef sig ⟨S64x1x256x256, .f32⟩) main_call6.v3 catYfront,
    StableHlo.TRef.unary main_call6.v3 main_call6.v4 (extractStridedSlice S64x1x1x256 ![0, 0, 256, 0] · slices_S64x1x257x256_S64x1x1x256_0_0_256_0),
    StableHlo.TRef.unary main_call6.v3 main_call6.v5 (extractStridedSlice S64x1x1x256 ![0, 0, 255, 0] · slices_S64x1x257x256_S64x1x1x256_0_0_255_0),
    StableHlo.TRef.unary main_call6.v5 main_call6.call1.v0 (Host.reverse [2]),
    StableHlo.TRef.binary main_call6.v3 main_call6.call1.v0 main_call6.v7 catYback,
    StableHlo.unary main_v51 main_v52 ((extractStridedSlice S64x1x256x256 ![0, 0, 0, 0] · slices_S64x1x258x256_S64x1x256x256_0_0_0_0) : (⟨S64x1x258x256, .f32⟩ : BufTy).Contents (Elt F) → (⟨S64x1x256x256, .f32⟩ : BufTy).Contents (Elt F)),
    StableHlo.unary main_v51 main_v53 ((extractStridedSlice S64x1x256x256 ![0, 0, 1, 0] · slices_S64x1x258x256_S64x1x256x256_0_0_1_0) : (⟨S64x1x258x256, .f32⟩ : BufTy).Contents (Elt F) → (⟨S64x1x256x256, .f32⟩ : BufTy).Contents (Elt F)),
    StableHlo.nullary main_cst_8 (constant S_ .f32 0x40000000#32),
    StableHlo.unary main_cst_8 main_v54 (broadcastInDim S64x1x256x256 ![] bcast_S_S64x1x256x256 : (⟨S_, .f32⟩ : BufTy).Contents (Elt F) → (⟨S64x1x256x256, .f32⟩ : BufTy).Contents (Elt F)),
    StableHlo.binary main_v54 main_v53 main_v55 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v52 main_v55 main_v56 (subf : (⟨S64x1x256x256, .f32⟩ : BufTy).Contents (Elt F) → (⟨S64x1x256x256, .f32⟩ : BufTy).Contents (Elt F) → (⟨S64x1x256x256, .f32⟩ : BufTy).Contents (Elt F)),
    StableHlo.unary main_v51 main_v57 ((extractStridedSlice S64x1x256x256 ![0, 0, 2, 0] · slices_S64x1x258x256_S64x1x256x256_0_0_2_0) : (⟨S64x1x258x256, .f32⟩ : BufTy).Contents (Elt F) → (⟨S64x1x256x256, .f32⟩ : BufTy).Contents (Elt F)),
    StableHlo.binary main_v56 main_v57 main_v58 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_9 (constant S_ .f32 0x3F800000#32),
    StableHlo.unary main_cst_9 main_v59 (broadcastInDim S64x1x256x256 ![] bcast_S_S64x1x256x256 : (⟨S_, .f32⟩ : BufTy).Contents (Elt F) → (⟨S64x1x256x256, .f32⟩ : BufTy).Contents (Elt F)),
    StableHlo.binary main_v58 main_v59 main_v60 (Host.divf : (⟨S64x1x256x256, .f32⟩ : BufTy).Contents (Elt F) → (⟨S64x1x256x256, .f32⟩ : BufTy).Contents (Elt F) → (⟨S64x1x256x256, .f32⟩ : BufTy).Contents (Elt F)),
    StableHlo.binary main_v50 main_v60 main_v61 (addf : (⟨S64x1x256x256, .f32⟩ : BufTy).Contents (Elt F) → (⟨S64x1x256x256, .f32⟩ : BufTy).Contents (Elt F) → (⟨S64x1x256x256, .f32⟩ : BufTy).Contents (Elt F)) ]

/-- Stretch D, 15 operations: `((1 * lap (lap f) + 1 * (d2x f + d2y f)) + 1 * f) - target`, the target read as images, the result read back as rows. -/
abbrev opsD : List (HloOp τ sig (Elt F)) :=
  [ StableHlo.nullary main_cst_10 (constant S_ .f32 0x3F800000#32),
    StableHlo.unary main_cst_10 main_v62 (broadcastInDim S64x1x256x256 ![] bcast_S_S64x1x256x256 : (⟨S_, .f32⟩ : BufTy).Contents (Elt F) → (⟨S64x1x256x256, .f32⟩ : BufTy).Contents (Elt F)),
    StableHlo.binary main_v62 main_v61 main_v63 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v29 main_v39 main_v64 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_11 (constant S_ .f32 0x3F800000#32),
    StableHlo.unary main_cst_11 main_v65 (broadcastInDim S64x1x256x256 ![] bcast_S_S64x1x256x256 : (⟨S_, .f32⟩ : BufTy).Contents (Elt F) → (⟨S64x1x256x256, .f32⟩ : BufTy).Contents (Elt F)),
    StableHlo.binary main_v65 main_v64 main_v66 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v63 main_v66 main_v67 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_12 (constant S_ .f32 0x3F800000#32),
    StableHlo.unary main_cst_12 main_v68 (broadcastInDim S64x1x256x256 ![] bcast_S_S64x1x256x256 : (⟨S_, .f32⟩ : BufTy).Contents (Elt F) → (⟨S64x1x256x256, .f32⟩ : BufTy).Contents (Elt F)),
    StableHlo.binary main_v68 main_v19 main_v69 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v67 main_v69 main_v70 (addf : (⟨S64x1x256x256, .f32⟩ : BufTy).Contents (Elt F) → (⟨S64x1x256x256, .f32⟩ : BufTy).Contents (Elt F) → (⟨S64x1x256x256, .f32⟩ : BufTy).Contents (Elt F)),
    StableHlo.reshape main_arg1 main_v71 rfl shapeCasts_S64x65536_S64x1x256x256,
    StableHlo.binary main_v70 main_v71 main_v72 (subf : (⟨S64x1x256x256, .f32⟩ : BufTy).Contents (Elt F) → (⟨S64x1x256x256, .f32⟩ : BufTy).Contents (Elt F) → (⟨S64x1x256x256, .f32⟩ : BufTy).Contents (Elt F)),
    StableHlo.reshape main_v72 main_v73 rfl shapeCasts_S64x1x256x256_S64x65536 ]

/-! ## The whole line -/

/-- @main's 123 operations in order, the callees' bodies in place of the calls. -/
abbrev ops : List (HloOp τ sig (Elt F)) :=
  [ StableHlo.binary main_arg0 main_arg2 main_v0 ((fun l r => Host.dotGeneral dot_S64x2_S2x256_S64x256_1_0_0_1_n_n none l r) : (⟨S64x2, .f32⟩ : BufTy).Contents (Elt F) → (⟨S2x256, .f32⟩ : BufTy).Contents (Elt F) → (⟨S64x256, .f32⟩ : BufTy).Contents (Elt F)),
    StableHlo.unary main_arg3 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S64x256 ![0, 1] bcast_S1x256_S64x256_0_1 : (⟨S1x256, .f32⟩ : BufTy).Contents (Elt F) → (⟨S64x256, .f32⟩ : BufTy).Contents (Elt F)),
    StableHlo.binary main_v0 main_v2 main_v3 (addf : (⟨S64x256, .f32⟩ : BufTy).Contents (Elt F) → (⟨S64x256, .f32⟩ : BufTy).Contents (Elt F) → (⟨S64x256, .f32⟩ : BufTy).Contents (Elt F)),
    StableHlo.TRef.nullary main_call0.cst (constant S_ .f32 0x00000000#32),
    StableHlo.TRef.unary main_call0.cst main_call0.v0 (broadcastInDim S64x256 ![] bcast_S_S64x256),
    StableHlo.TRef.binary (.of main_v3 : StableHlo.TRef sig ⟨S64x256, .f32⟩) main_call0.v0 main_call0.v1 maximumf,
    StableHlo.binary main_v4 main_arg4 main_v5 ((fun l r => Host.dotGeneral dot_S64x256_S256x512_S64x512_1_0_0_1_n_n none l r) : (⟨S64x256, .f32⟩ : BufTy).Contents (Elt F) → (⟨S256x512, .f32⟩ : BufTy).Contents (Elt F) → (⟨S64x512, .f32⟩ : BufTy).Contents (Elt F)),
    StableHlo.unary main_arg5 main_v6 (broadcastInDim S1x512 ![1] bcast_S512_S1x512_1 : (⟨S512, .f32⟩ : BufTy).Contents (Elt F) → (⟨S1x512, .f32⟩ : BufTy).Contents (Elt F)),
    StableHlo.unary main_v6 main_v7 (broadcastInDim S64x512 ![0, 1] bcast_S1x512_S64x512_0_1 : (⟨S1x512, .f32⟩ : BufTy).Contents (Elt F) → (⟨S64x512, .f32⟩ : BufTy).Contents (Elt F)),
    StableHlo.binary main_v5 main_v7 main_v8 (addf : (⟨S64x512, .f32⟩ : BufTy).Contents (Elt F) → (⟨S64x512, .f32⟩ : BufTy).Contents (Elt F) → (⟨S64x512, .f32⟩ : BufTy).Contents (Elt F)),
    StableHlo.TRef.nullary main_call1.cst (constant S_ .f32 0x00000000#32),
    StableHlo.TRef.unary main_call1.cst main_call1.v0 (broadcastInDim S64x512 ![] bcast_S_S64x512),
    StableHlo.TRef.binary (.of main_v8 : StableHlo.TRef sig ⟨S64x512, .f32⟩) main_call1.v0 main_call1.v1 maximumf,
    StableHlo.binary main_v9 main_arg6 main_v10 ((fun l r => Host.dotGeneral dot_S64x512_S512x1024_S64x1024_1_0_0_1_n_n none l r) : (⟨S64x512, .f32⟩ : BufTy).Contents (Elt F) → (⟨S512x1024, .f32⟩ : BufTy).Contents (Elt F) → (⟨S64x1024, .f32⟩ : BufTy).Contents (Elt F)),
    StableHlo.unary main_arg7 main_v11 (broadcastInDim S1x1024 ![1] bcast_S1024_S1x1024_1 : (⟨S1024, .f32⟩ : BufTy).Contents (Elt F) → (⟨S1x1024, .f32⟩ : BufTy).Contents (Elt F)),
    StableHlo.unary main_v11 main_v12 (broadcastInDim S64x1024 ![0, 1] bcast_S1x1024_S64x1024_0_1 : (⟨S1x1024, .f32⟩ : BufTy).Contents (Elt F) → (⟨S64x1024, .f32⟩ : BufTy).Contents (Elt F)),
    StableHlo.binary main_v10 main_v12 main_v13 (addf : (⟨S64x1024, .f32⟩ : BufTy).Contents (Elt F) → (⟨S64x1024, .f32⟩ : BufTy).Contents (Elt F) → (⟨S64x1024, .f32⟩ : BufTy).Contents (Elt F)),
    StableHlo.TRef.nullary main_call2.cst (constant S_ .f32 0x00000000#32),
    StableHlo.TRef.unary main_call2.cst main_call2.v0 (broadcastInDim S64x1024 ![] bcast_S_S64x1024),
    StableHlo.TRef.binary (.of main_v13 : StableHlo.TRef sig ⟨S64x1024, .f32⟩) main_call2.v0 main_call2.v1 maximumf,
    StableHlo.binary main_v14 main_arg8 main_v15 ((fun l r => Host.dotGeneral dot_S64x1024_S1024x65536_S64x65536_1_0_0_1_n_n none l r) : (⟨S64x1024, .f32⟩ : BufTy).Contents (Elt F) → (⟨S1024x65536, .f32⟩ : BufTy).Contents (Elt F) → (⟨S64x65536, .f32⟩ : BufTy).Contents (Elt F)),
    StableHlo.unary main_arg9 main_v16 (broadcastInDim S1x65536 ![1] bcast_S65536_S1x65536_1 : (⟨S65536, .f32⟩ : BufTy).Contents (Elt F) → (⟨S1x65536, .f32⟩ : BufTy).Contents (Elt F)),
    StableHlo.unary main_v16 main_v17 (broadcastInDim S64x65536 ![0, 1] bcast_S1x65536_S64x65536_0_1 : (⟨S1x65536, .f32⟩ : BufTy).Contents (Elt F) → (⟨S64x65536, .f32⟩ : BufTy).Contents (Elt F)),
    StableHlo.binary main_v15 main_v17 main_v18 (addf : (⟨S64x65536, .f32⟩ : BufTy).Contents (Elt F) → (⟨S64x65536, .f32⟩ : BufTy).Contents (Elt F) → (⟨S64x65536, .f32⟩ : BufTy).Contents (Elt F)),
    StableHlo.reshape main_v18 main_v19 rfl shapeCasts_S64x65536_S64x1x256x256,
    StableHlo.nullary main_c (constantI S_ 32 0#32),
    StableHlo.TRef.unary (.of main_v19 : StableHlo.TRef sig ⟨S64x1x256x256, .f32⟩) main_call3.v0 (extractStridedSlice S64x1x256x1 ![0, 0, 0, 0] · slices_S64x1x256x256_S64x1x256x1_0_0_0_0),
    StableHlo.TRef.unary (.of main_v19 : StableHlo.TRef sig ⟨S64x1x256x256, .f32⟩) main_call3.v1 (extractStridedSlice S64x1x256x1 ![0, 0, 0, 1] · slices_S64x1x256x256_S64x1x256x1_0_0_0_1),
    StableHlo.TRef.unary main_call3.v1 main_call3.call0.v0 (Host.reverse [3]),
    StableHlo.TRef.binary main_call3.call0.v0 (.of main_v19 : StableHlo.TRef sig ⟨S64x1x256x256, .f32⟩) main_call3.v3 catXfront,
    StableHlo.TRef.unary main_call3.v3 main_call3.v4 (extractStridedSlice S64x1x256x1 ![0, 0, 0, 256] · slices_S64x1x256x257_S64x1x256x1_0_0_0_256),
    StableHlo.TRef.unary main_call3.v3 main_call3.v5 (extractStridedSlice S64x1x256x1 ![0, 0, 0, 255] · slices_S64x1x256x257_S64x1x256x1_0_0_0_255),
    StableHlo.TRef.unary main_call3.v5 main_call3.call1.v0 (Host.reverse [3]),
    StableHlo.TRef.binary main_call3.v3 main_call3.call1.v0 main_call3.v7 catXback,
    StableHlo.unary main_v20 main_v21 ((extractStridedSlice S64x1x256x256 ![0, 0, 0, 0] · slices_S64x1x256x258_S64x1x256x256_0_0_0_0) : (⟨S64x1x256x258, .f32⟩ : BufTy).Contents (Elt F) → (⟨S64x1x256x256, .f32⟩ : BufTy).Contents (Elt F)),
    StableHlo.unary main_v20 main_v22 ((extractStridedSlice S64x1x256x256 ![0, 0, 0, 1] · slices_S64x1x256x258_S64x1x256x256_0_0_0_1) : (⟨S64x1x256x258, .f32⟩ : BufTy).Contents (Elt F) → (⟨S64x1x256x256, .f32⟩ : BufTy).Contents (Elt F)),
    StableHlo.nullary main_cst (constant S_ .f32 0x40000000#32),
    StableHlo.unary main_cst main_v23 (broadcastInDim S64x1x256x256 ![] bcast_S_S64x1x256x256 : (⟨S_, .f32⟩ : BufTy).Contents (Elt F) → (⟨S64x1x256x256, .f32⟩ : BufTy).Contents (Elt F)),
    StableHlo.binary main_v23 main_v22 main_v24 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v21 main_v24 main_v25 (subf : (⟨S64x1x256x256, .f32⟩ : BufTy).Contents (Elt F) → (⟨S64x1x256x256, .f32⟩ : BufTy).Contents (Elt F) → (⟨S64x1x256x256, .f32⟩ : BufTy).Contents (Elt F)),
    StableHlo.unary main_v20 main_v26 ((extractStridedSlice S64x1x256x256 ![0, 0, 0, 2] · slices_S64x1x256x258_S64x1x256x256_0_0_0_2) : (⟨S64x1x256x258, .f32⟩ : BufTy).Contents (Elt F) → (⟨S64x1x256x256, .f32⟩ : BufTy).Contents (Elt F)),
    StableHlo.binary main_v25 main_v26 main_v27 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_0 (constant S_ .f32 0x3F800000#32),
    StableHlo.unary main_cst_0 main_v28 (broadcastInDim S64x1x256x256 ![] bcast_S_S64x1x256x256 : (⟨S_, .f32⟩ : BufTy).Contents (Elt F) → (⟨S64x1x256x256, .f32⟩ : BufTy).Contents (Elt F)),
    StableHlo.binary main_v27 main_v28 main_v29 (Host.divf : (⟨S64x1x256x256, .f32⟩ : BufTy).Contents (Elt F) → (⟨S64x1x256x256, .f32⟩ : BufTy).Contents (Elt F) → (⟨S64x1x256x256, .f32⟩ : BufTy).Contents (Elt F)),
    StableHlo.nullary main_c_1 (constantI S_ 32 0#32),
    StableHlo.TRef.unary (.of main_v19 : StableHlo.TRef sig ⟨S64x1x256x256, .f32⟩) main_call4.v0 (extractStridedSlice S64x1x1x256 ![0, 0, 0, 0] · slices_S64x1x256x256_S64x1x1x256_0_0_0_0),
    StableHlo.TRef.unary (.of main_v19 : StableHlo.TRef sig ⟨S64x1x256x256, .f32⟩) main_call4.v1 (extractStridedSlice S64x1x1x256 ![0, 0, 1, 0] · slices_S64x1x256x256_S64x1x1x256_0_0_1_0),
    StableHlo.TRef.unary main_call4.v1 main_call4.call0.v0 (Host.reverse [2]),
    StableHlo.TRef.binary main_call4.call0.v0 (.of main_v19 : StableHlo.TRef sig ⟨S64x1x256x256, .f32⟩) main_call4.v3 catYfront,
    StableHlo.TRef.unary main_call4.v3 main_call4.v4 (extractStridedSlice S64x1x1x256 ![0, 0, 256, 0] · slices_S64x1x257x256_S64x1x1x256_0_0_256_0),
    StableHlo.TRef.unary main_call4.v3 main_call4.v5 (extractStridedSlice S64x1x1x256 ![0, 0, 255, 0] · slices_S64x1x257x256_S64x1x1x256_0_0_255_0),
    StableHlo.TRef.unary main_call4.v5 main_call4.call1.v0 (Host.reverse [2]),
    StableHlo.TRef.binary main_call4.v3 main_call4.call1.v0 main_call4.v7 catYback,
    StableHlo.unary main_v30 main_v31 ((extractStridedSlice S64x1x256x256 ![0, 0, 0, 0] · slices_S64x1x258x256_S64x1x256x256_0_0_0_0) : (⟨S64x1x258x256, .f32⟩ : BufTy).Contents (Elt F) → (⟨S64x1x256x256, .f32⟩ : BufTy).Contents (Elt F)),
    StableHlo.unary main_v30 main_v32 ((extractStridedSlice S64x1x256x256 ![0, 0, 1, 0] · slices_S64x1x258x256_S64x1x256x256_0_0_1_0) : (⟨S64x1x258x256, .f32⟩ : BufTy).Contents (Elt F) → (⟨S64x1x256x256, .f32⟩ : BufTy).Contents (Elt F)),
    StableHlo.nullary main_cst_2 (constant S_ .f32 0x40000000#32),
    StableHlo.unary main_cst_2 main_v33 (broadcastInDim S64x1x256x256 ![] bcast_S_S64x1x256x256 : (⟨S_, .f32⟩ : BufTy).Contents (Elt F) → (⟨S64x1x256x256, .f32⟩ : BufTy).Contents (Elt F)),
    StableHlo.binary main_v33 main_v32 main_v34 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v31 main_v34 main_v35 (subf : (⟨S64x1x256x256, .f32⟩ : BufTy).Contents (Elt F) → (⟨S64x1x256x256, .f32⟩ : BufTy).Contents (Elt F) → (⟨S64x1x256x256, .f32⟩ : BufTy).Contents (Elt F)),
    StableHlo.unary main_v30 main_v36 ((extractStridedSlice S64x1x256x256 ![0, 0, 2, 0] · slices_S64x1x258x256_S64x1x256x256_0_0_2_0) : (⟨S64x1x258x256, .f32⟩ : BufTy).Contents (Elt F) → (⟨S64x1x256x256, .f32⟩ : BufTy).Contents (Elt F)),
    StableHlo.binary main_v35 main_v36 main_v37 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_3 (constant S_ .f32 0x3F800000#32),
    StableHlo.unary main_cst_3 main_v38 (broadcastInDim S64x1x256x256 ![] bcast_S_S64x1x256x256 : (⟨S_, .f32⟩ : BufTy).Contents (Elt F) → (⟨S64x1x256x256, .f32⟩ : BufTy).Contents (Elt F)),
    StableHlo.binary main_v37 main_v38 main_v39 (Host.divf : (⟨S64x1x256x256, .f32⟩ : BufTy).Contents (Elt F) → (⟨S64x1x256x256, .f32⟩ : BufTy).Contents (Elt F) → (⟨S64x1x256x256, .f32⟩ : BufTy).Contents (Elt F)),
    StableHlo.binary main_v29 main_v39 main_v40 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_c_4 (constantI S_ 32 0#32),
    StableHlo.TRef.unary (.of main_v40 : StableHlo.TRef sig ⟨S64x1x256x256, .f32⟩) main_call5.v0 (extractStridedSlice S64x1x256x1 ![0, 0, 0, 0] · slices_S64x1x256x256_S64x1x256x1_0_0_0_0),
    StableHlo.TRef.unary (.of main_v40 : StableHlo.TRef sig ⟨S64x1x256x256, .f32⟩) main_call5.v1 (extractStridedSlice S64x1x256x1 ![0, 0, 0, 1] · slices_S64x1x256x256_S64x1x256x1_0_0_0_1),
    StableHlo.TRef.unary main_call5.v1 main_call5.call0.v0 (Host.reverse [3]),
    StableHlo.TRef.binary main_call5.call0.v0 (.of main_v40 : StableHlo.TRef sig ⟨S64x1x256x256, .f32⟩) main_call5.v3 catXfront,
    StableHlo.TRef.unary main_call5.v3 main_call5.v4 (extractStridedSlice S64x1x256x1 ![0, 0, 0, 256] · slices_S64x1x256x257_S64x1x256x1_0_0_0_256),
    StableHlo.TRef.unary main_call5.v3 main_call5.v5 (extractStridedSlice S64x1x256x1 ![0, 0, 0, 255] · slices_S64x1x256x257_S64x1x256x1_0_0_0_255),
    StableHlo.TRef.unary main_call5.v5 main_call5.call1.v0 (Host.reverse [3]),
    StableHlo.TRef.binary main_call5.v3 main_call5.call1.v0 main_call5.v7 catXback,
    StableHlo.unary main_v41 main_v42 ((extractStridedSlice S64x1x256x256 ![0, 0, 0, 0] · slices_S64x1x256x258_S64x1x256x256_0_0_0_0) : (⟨S64x1x256x258, .f32⟩ : BufTy).Contents (Elt F) → (⟨S64x1x256x256, .f32⟩ : BufTy).Contents (Elt F)),
    StableHlo.unary main_v41 main_v43 ((extractStridedSlice S64x1x256x256 ![0, 0, 0, 1] · slices_S64x1x256x258_S64x1x256x256_0_0_0_1) : (⟨S64x1x256x258, .f32⟩ : BufTy).Contents (Elt F) → (⟨S64x1x256x256, .f32⟩ : BufTy).Contents (Elt F)),
    StableHlo.nullary main_cst_5 (constant S_ .f32 0x40000000#32),
    StableHlo.unary main_cst_5 main_v44 (broadcastInDim S64x1x256x256 ![] bcast_S_S64x1x256x256 : (⟨S_, .f32⟩ : BufTy).Contents (Elt F) → (⟨S64x1x256x256, .f32⟩ : BufTy).Contents (Elt F)),
    StableHlo.binary main_v44 main_v43 main_v45 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v42 main_v45 main_v46 (subf : (⟨S64x1x256x256, .f32⟩ : BufTy).Contents (Elt F) → (⟨S64x1x256x256, .f32⟩ : BufTy).Contents (Elt F) → (⟨S64x1x256x256, .f32⟩ : BufTy).Contents (Elt F)),
    StableHlo.unary main_v41 main_v47 ((extractStridedSlice S64x1x256x256 ![0, 0, 0, 2] · slices_S64x1x256x258_S64x1x256x256_0_0_0_2) : (⟨S64x1x256x258, .f32⟩ : BufTy).Contents (Elt F) → (⟨S64x1x256x256, .f32⟩ : BufTy).Contents (Elt F)),
    StableHlo.binary main_v46 main_v47 main_v48 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_6 (constant S_ .f32 0x3F800000#32),
    StableHlo.unary main_cst_6 main_v49 (broadcastInDim S64x1x256x256 ![] bcast_S_S64x1x256x256 : (⟨S_, .f32⟩ : BufTy).Contents (Elt F) → (⟨S64x1x256x256, .f32⟩ : BufTy).Contents (Elt F)),
    StableHlo.binary main_v48 main_v49 main_v50 (Host.divf : (⟨S64x1x256x256, .f32⟩ : BufTy).Contents (Elt F) → (⟨S64x1x256x256, .f32⟩ : BufTy).Contents (Elt F) → (⟨S64x1x256x256, .f32⟩ : BufTy).Contents (Elt F)),
    StableHlo.nullary main_c_7 (constantI S_ 32 0#32),
    StableHlo.TRef.unary (.of main_v40 : StableHlo.TRef sig ⟨S64x1x256x256, .f32⟩) main_call6.v0 (extractStridedSlice S64x1x1x256 ![0, 0, 0, 0] · slices_S64x1x256x256_S64x1x1x256_0_0_0_0),
    StableHlo.TRef.unary (.of main_v40 : StableHlo.TRef sig ⟨S64x1x256x256, .f32⟩) main_call6.v1 (extractStridedSlice S64x1x1x256 ![0, 0, 1, 0] · slices_S64x1x256x256_S64x1x1x256_0_0_1_0),
    StableHlo.TRef.unary main_call6.v1 main_call6.call0.v0 (Host.reverse [2]),
    StableHlo.TRef.binary main_call6.call0.v0 (.of main_v40 : StableHlo.TRef sig ⟨S64x1x256x256, .f32⟩) main_call6.v3 catYfront,
    StableHlo.TRef.unary main_call6.v3 main_call6.v4 (extractStridedSlice S64x1x1x256 ![0, 0, 256, 0] · slices_S64x1x257x256_S64x1x1x256_0_0_256_0),
    StableHlo.TRef.unary main_call6.v3 main_call6.v5 (extractStridedSlice S64x1x1x256 ![0, 0, 255, 0] · slices_S64x1x257x256_S64x1x1x256_0_0_255_0),
    StableHlo.TRef.unary main_call6.v5 main_call6.call1.v0 (Host.reverse [2]),
    StableHlo.TRef.binary main_call6.v3 main_call6.call1.v0 main_call6.v7 catYback,
    StableHlo.unary main_v51 main_v52 ((extractStridedSlice S64x1x256x256 ![0, 0, 0, 0] · slices_S64x1x258x256_S64x1x256x256_0_0_0_0) : (⟨S64x1x258x256, .f32⟩ : BufTy).Contents (Elt F) → (⟨S64x1x256x256, .f32⟩ : BufTy).Contents (Elt F)),
    StableHlo.unary main_v51 main_v53 ((extractStridedSlice S64x1x256x256 ![0, 0, 1, 0] · slices_S64x1x258x256_S64x1x256x256_0_0_1_0) : (⟨S64x1x258x256, .f32⟩ : BufTy).Contents (Elt F) → (⟨S64x1x256x256, .f32⟩ : BufTy).Contents (Elt F)),
    StableHlo.nullary main_cst_8 (constant S_ .f32 0x40000000#32),
    StableHlo.unary main_cst_8 main_v54 (broadcastInDim S64x1x256x256 ![] bcast_S_S64x1x256x256 : (⟨S_, .f32⟩ : BufTy).Contents (Elt F) → (⟨S64x1x256x256, .f32⟩ : BufTy).Contents (Elt F)),
    StableHlo.binary main_v54 main_v53 main_v55 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v52 main_v55 main_v56 (subf : (⟨S64x1x256x256, .f32⟩ : BufTy).Contents (Elt F) → (⟨S64x1x256x256, .f32⟩ : BufTy).Contents (Elt F) → (⟨S64x1x256x256, .f32⟩ : BufTy).Contents (Elt F)),
    StableHlo.unary main_v51 main_v57 ((extractStridedSlice S64x1x256x256 ![0, 0, 2, 0] · slices_S64x1x258x256_S64x1x256x256_0_0_2_0) : (⟨S64x1x258x256, .f32⟩ : BufTy).Contents (Elt F) → (⟨S64x1x256x256, .f32⟩ : BufTy).Contents (Elt F)),
    StableHlo.binary main_v56 main_v57 main_v58 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_9 (constant S_ .f32 0x3F800000#32),
    StableHlo.unary main_cst_9 main_v59 (broadcastInDim S64x1x256x256 ![] bcast_S_S64x1x256x256 : (⟨S_, .f32⟩ : BufTy).Contents (Elt F) → (⟨S64x1x256x256, .f32⟩ : BufTy).Contents (Elt F)),
    StableHlo.binary main_v58 main_v59 main_v60 (Host.divf : (⟨S64x1x256x256, .f32⟩ : BufTy).Contents (Elt F) → (⟨S64x1x256x256, .f32⟩ : BufTy).Contents (Elt F) → (⟨S64x1x256x256, .f32⟩ : BufTy).Contents (Elt F)),
    StableHlo.binary main_v50 main_v60 main_v61 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_10 (constant S_ .f32 0x3F800000#32),
    StableHlo.unary main_cst_10 main_v62 (broadcastInDim S64x1x256x256 ![] bcast_S_S64x1x256x256 : (⟨S_, .f32⟩ : BufTy).Contents (Elt F) → (⟨S64x1x256x256, .f32⟩ : BufTy).Contents (Elt F)),
    StableHlo.binary main_v62 main_v61 main_v63 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v29 main_v39 main_v64 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_11 (constant S_ .f32 0x3F800000#32),
    StableHlo.unary main_cst_11 main_v65 (broadcastInDim S64x1x256x256 ![] bcast_S_S64x1x256x256 : (⟨S_, .f32⟩ : BufTy).Contents (Elt F) → (⟨S64x1x256x256, .f32⟩ : BufTy).Contents (Elt F)),
    StableHlo.binary main_v65 main_v64 main_v66 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v63 main_v66 main_v67 (addf : (⟨S64x1x256x256, .f32⟩ : BufTy).Contents (Elt F) → (⟨S64x1x256x256, .f32⟩ : BufTy).Contents (Elt F) → (⟨S64x1x256x256, .f32⟩ : BufTy).Contents (Elt F)),
    StableHlo.nullary main_cst_12 (constant S_ .f32 0x3F800000#32),
    StableHlo.unary main_cst_12 main_v68 (broadcastInDim S64x1x256x256 ![] bcast_S_S64x1x256x256 : (⟨S_, .f32⟩ : BufTy).Contents (Elt F) → (⟨S64x1x256x256, .f32⟩ : BufTy).Contents (Elt F)),
    StableHlo.binary main_v68 main_v19 main_v69 (mulf : (⟨S64x1x256x256, .f32⟩ : BufTy).Contents (Elt F) → (⟨S64x1x256x256, .f32⟩ : BufTy).Contents (Elt F) → (⟨S64x1x256x256, .f32⟩ : BufTy).Contents (Elt F)),
    StableHlo.binary main_v67 main_v69 main_v70 (addf : (⟨S64x1x256x256, .f32⟩ : BufTy).Contents (Elt F) → (⟨S64x1x256x256, .f32⟩ : BufTy).Contents (Elt F) → (⟨S64x1x256x256, .f32⟩ : BufTy).Contents (Elt F)),
    StableHlo.reshape main_arg1 main_v71 rfl shapeCasts_S64x65536_S64x1x256x256,
    StableHlo.binary main_v70 main_v71 main_v72 (subf : (⟨S64x1x256x256, .f32⟩ : BufTy).Contents (Elt F) → (⟨S64x1x256x256, .f32⟩ : BufTy).Contents (Elt F) → (⟨S64x1x256x256, .f32⟩ : BufTy).Contents (Elt F)),
    StableHlo.reshape main_v72 main_v73 rfl shapeCasts_S64x1x256x256_S64x65536 ]

/-- The line is the four stretches one after the other. -/
theorem ops_split : (ops : List (HloOp τ sig (Elt F))) = opsA ++ (opsB ++ (opsC ++ opsD)) := rfl

-- one re-association per statement: the rewriting recurses as deep as the line is long
set_option maxRecDepth 4096 in
/-- @main is that line: with the callees' definitions unfolded at the calls, the named concatenations unfolded in the
    line, and sequencing re-associated, both sides are the same chain of single steps. -/
theorem main_eq (c : Dev nD) : main (F := F) c = seq ops := by
  simp only [main, main_part0, main_part1, fn_relu.body, fn_relu_0.body, fn_relu_1.body, fn_pad.body, fn_pad_2.body, fn_flip.body,
    fn_flip_3.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., reshape_bufs_sub .., nullary_bufs_sub .., unary_bufs_sub .., unary_bufs_sub .., unary_bufs_sub ..,
    binary_bufs_sub .., unary_bufs_sub .., unary_bufs_sub .., unary_bufs_sub .., binary_bufs_sub .., unary_bufs_sub ..,
    unary_bufs_sub .., nullary_bufs_sub .., unary_bufs_sub .., binary_bufs_sub .., binary_bufs_sub .., unary_bufs_sub ..,
    binary_bufs_sub .., nullary_bufs_sub .., unary_bufs_sub .., binary_bufs_sub .., nullary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., nullary_bufs_sub .., unary_bufs_sub .., binary_bufs_sub ..,
    binary_bufs_sub .., unary_bufs_sub .., binary_bufs_sub .., nullary_bufs_sub .., unary_bufs_sub .., binary_bufs_sub ..,
    binary_bufs_sub .., nullary_bufs_sub .., unary_bufs_sub .., unary_bufs_sub .., unary_bufs_sub .., binary_bufs_sub ..,
    unary_bufs_sub .., unary_bufs_sub .., unary_bufs_sub .., binary_bufs_sub .., unary_bufs_sub .., unary_bufs_sub ..,
    nullary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., unary_bufs_sub ..,
    unary_bufs_sub .., binary_bufs_sub .., unary_bufs_sub .., unary_bufs_sub .., unary_bufs_sub .., binary_bufs_sub ..,
    unary_bufs_sub .., unary_bufs_sub .., nullary_bufs_sub .., unary_bufs_sub .., binary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub .., nullary_bufs_sub .., unary_bufs_sub ..,
    binary_bufs_sub .., binary_bufs_sub .., nullary_bufs_sub .., unary_bufs_sub .., binary_bufs_sub .., binary_bufs_sub ..,
    reshape_bufs_sub .., binary_bufs_sub .., reshape_bufs_sub ..⟩

/-- Every execution of @main terminates with each buffer at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stretches read back

Each from an arbitrary valuation `V`.  A result is the operations' functions composed over `V` at the buffers the
stretch reads; the references the callees' operations carry are literal, so moving a value between a buffer's type and
the tensor type written on the reference is the identity, by computation. -/

/-- After stretch A the image buffer holds the field of the four layers, as images. -/
theorem A_v19 (V : Valuation τ sig (Elt F)) :
    after opsA V (main_v19 : DevRef τ sig)
      = Spec.toImages (Spec.field (Spec.hidden (V (main_arg0 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig))) (V (main_arg8 : DevRef τ sig)) (V (main_arg9 : DevRef τ sig))) := by
  after_results_simp <;> rfl

/-- Stretch A does not write the target's buffer. -/
theorem A_arg1 (V : Valuation τ sig (Elt F)) : after opsA V (main_arg1 : DevRef τ sig) = V (main_arg1 : DevRef τ sig) := by
  after_results_simp <;> rfl

/-- After stretch B: the second difference along a row of what the image buffer held, -/
theorem B_v29 (V : Valuation τ sig (Elt F)) : after opsB V (main_v29 : DevRef τ sig) = Spec.d2x (V (main_v19 : DevRef τ sig)) := by
  after_results_simp <;> rfl

/-- the second difference along a column, -/
theorem B_v39 (V : Valuation τ sig (Elt F)) : after opsB V (main_v39 : DevRef τ sig) = Spec.d2y (V (main_v19 : DevRef τ sig)) := by
  after_results_simp <;> rfl

/-- and their sum. -/
theorem B_v40 (V : Valuation τ sig (Elt F)) : after opsB V (main_v40 : DevRef τ sig) = Spec.lap (V (main_v19 : DevRef τ sig)) := by
  after_results_simp <;> rfl

/-- Stretch B writes neither the image buffer it reads nor the target's. -/
theorem B_v19 (V : Valuation τ sig (Elt F)) : after opsB V (main_v19 : DevRef τ sig) = V (main_v19 : DevRef τ sig) := by
  after_results_simp <;> rfl

theorem B_arg1 (V : Valuation τ sig (Elt F)) : after opsB V (main_arg1 : DevRef τ sig) = V (main_arg1 : DevRef τ sig) := by
  after_results_simp <;> rfl

/-- After stretch C: the sum of the two second differences of what stretch B's result buffer held. -/
theorem C_v61 (V : Valuation τ sig (Elt F)) : after opsC V (main_v61 : DevRef τ sig) = Spec.lap (V (main_v40 : DevRef τ sig)) := by
  after_results_simp <;> rfl

/-- Stretch C writes none of the four buffers stretch D reads besides its own result. -/
theorem C_v29 (V : Valuation τ sig (Elt F)) : after opsC V (main_v29 : DevRef τ sig) = V (main_v29 : DevRef τ sig) := by
  after_results_simp <;> rfl

theorem C_v39 (V : Valuation τ sig (Elt F)) : after opsC V (main_v39 : DevRef τ sig) = V (main_v39 : DevRef τ sig) := by
  after_results_simp <;> rfl

theorem C_v19 (V : Valuation τ sig (Elt F)) : after opsC V (main_v19 : DevRef τ sig) = V (main_v19 : DevRef τ sig) := by
  after_results_simp <;> rfl

theorem C_arg1 (V : Valuation τ sig (Elt F)) : after opsC V (main_arg1 : DevRef τ sig) = V (main_arg1 : DevRef τ sig) := by
  after_results_simp <;> rfl

/-- After stretch D the result buffer holds the weighted sum less the target, as rows. -/
theorem D_v73 (V : Valuation τ sig (Elt F)) :
    after opsD V (main_v73 : DevRef τ sig)
      = Spec.toRows (subf
          (addf (addf (mulf Spec.ones (V (main_v61 : DevRef τ sig))) (mulf Spec.ones (addf (V (main_v29 : DevRef τ sig)) (V (main_v39 : DevRef τ sig)))))
            (mulf Spec.ones (V (main_v19 : DevRef τ sig))))
          (Spec.toImages (V (main_arg1 : DevRef τ sig)))) := by
  after_results_simp <;> rfl

/-! ## The whole line read back -/

/-- The result buffer after the whole line: the four readings composed, which is the specification's function of the
    ten arguments once `out`, `residual` and `lap` are unfolded. -/
theorem out_eq (V : Valuation τ sig (Elt F)) :
    after ops V (main_v73 : DevRef τ sig)
      = Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [ops_split, after_app, after_app, after_app, D_v73, C_v61, C_v29, C_v39, C_v19, C_arg1, B_v40, B_v29, B_v39,
    B_v19, B_arg1, A_v19, A_arg1]
  rfl

/-! No operation of the line writes an argument's buffer. -/
theorem arg0_eq (V : Valuation τ sig (Elt F)) : after ops V (main_arg0 : DevRef τ sig) = V (main_arg0 : DevRef τ sig) := by
  after_results_simp <;> rfl
theorem arg1_eq (V : Valuation τ sig (Elt F)) : after ops V (main_arg1 : DevRef τ sig) = V (main_arg1 : DevRef τ sig) := by
  after_results_simp <;> rfl
theorem arg2_eq (V : Valuation τ sig (Elt F)) : after ops V (main_arg2 : DevRef τ sig) = V (main_arg2 : DevRef τ sig) := by
  after_results_simp <;> rfl
theorem arg3_eq (V : Valuation τ sig (Elt F)) : after ops V (main_arg3 : DevRef τ sig) = V (main_arg3 : DevRef τ sig) := by
  after_results_simp <;> rfl
theorem arg4_eq (V : Valuation τ sig (Elt F)) : after ops V (main_arg4 : DevRef τ sig) = V (main_arg4 : DevRef τ sig) := by
  after_results_simp <;> rfl
theorem arg5_eq (V : Valuation τ sig (Elt F)) : after ops V (main_arg5 : DevRef τ sig) = V (main_arg5 : DevRef τ sig) := by
  after_results_simp <;> rfl
theorem arg6_eq (V : Valuation τ sig (Elt F)) : after ops V (main_arg6 : DevRef τ sig) = V (main_arg6 : DevRef τ sig) := by
  after_results_simp <;> rfl
theorem arg7_eq (V : Valuation τ sig (Elt F)) : after ops V (main_arg7 : DevRef τ sig) = V (main_arg7 : DevRef τ sig) := by
  after_results_simp <;> rfl
theorem arg8_eq (V : Valuation τ sig (Elt F)) : after ops V (main_arg8 : DevRef τ sig) = V (main_arg8 : DevRef τ sig) := by
  after_results_simp <;> rfl
theorem arg9_eq (V : Valuation τ sig (Elt F)) : after ops V (main_arg9 : DevRef τ sig) = V (main_arg9 : DevRef τ sig) := by
  after_results_simp <;> rfl

/-- On every device, for any float values, from any memory with zero counters: every weakly fair execution of @main
    terminates with the result buffer at the specification's function of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
          = Cert.ReferenceIdeal.Spec.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v73).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

end Cert.ReferenceIdeal.RefRun

end
-- ==== Proof.lean ====
/-
  The certificate.  The kernel is three launches — three rectified dense layers; a last linear layer computed on column
  tiles; a five-point Laplacian applied twice, with reflected neighbours at the image edges, combined into a residual
  on batch tiles — and the reference is the same computation written with host operations.  At the ideal values both
  end with ONE function of the ten arguments in the result buffer (`Spec.out`, the reference's operations composed):
  the reference by running its operations one after the other; the kernel because each launch's output array is the
  matching stage of the arrays it finds (the matrix products are the same sums over the contracted axis, tile by tile;
  a glued pair of slices and a slice of a reflect-padded image read the same reflected neighbour; multiplying by the
  literal 1 and dividing by it agree).  No property of the inputs is needed for that.
  The three frames: the two kernel programs' runs terminate without a fault with the arguments as launched, and so does
  the reference's.  The idealization rewrote nothing, so there is nothing to preserve.
-/
import proofs.«158022_j23837068493026_2_alg».proof.Defs
import proofs.«158022_j23837068493026_2_alg».proof.Proof.Gen.Kernel
import proofs.«158022_j23837068493026_2_alg».proof.Proof.Gen.Kernel.Frame
import proofs.«158022_j23837068493026_2_alg».proof.Proof.Gen.KernelIdeal
import proofs.«158022_j23837068493026_2_alg».proof.Proof.Gen.KernelIdeal.Frame
import proofs.«158022_j23837068493026_2_alg».proof.Proof.Gen.ReferenceIdeal
import proofs.«158022_j23837068493026_2_alg».proof.Proof.Gen.Pre_finite_inputs
import proofs.«158022_j23837068493026_2_alg».proof.Proof.KernelValue
import proofs.«158022_j23837068493026_2_alg».proof.Proof.RefRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with the same function of them in the result buffer. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
